-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x500 : Shape := ⟨2, ![100000, 500]⟩
abbrev S1600000 : Shape := ⟨1, ![1600000]⟩
abbrev S500x128 : Shape := ⟨2, ![500, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S100000x500 : S_.BroadcastsInDim S100000x500 (![] : Fin 0 → Fin S100000x500.rank)
  reducesTo_S100000x500_S_d0_1 : S100000x500.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S500x128 : S_.BroadcastsInDim S500x128 (![] : Fin 0 → Fin S500x128.rank)
  reducesTo_S500x128_S_d0_1 : S500x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part2 {F : FTy → Type} [FloatOps F] (main_arg9 : FVec F S128 .f32) (main_arg10 : FVec F S128x40 .f32) (main_arg11 : FVec F S40 .f32) (main_v33 : IVec S_ 1) : IVec S_ 1 :=
  let main_v34 : FVec F S128 .f32 := Host.absf main_arg9
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x40 .f32 := Host.absf main_arg10
  let main_cst_14 : FVec F S_ .f32 := constant S_ .f32 0x7F800000#32
  let main_v40 : FVec F S128x40 .f32 := broadcastInDim S128x40 ![] bcast_S_S128x40 main_cst_14
  let main_v41 : IVec S128x40 1 := cmpf .olt main_v39 main_v40
  let main_c_15 : IVec S_ 1 := constantI S_ 1 1#1
  let main_v42 : IVec S_ 1 := (fun x v => Host.reduce IntOp.andi x v reducesTo_S128x40_S_d0_1 h_S_) main_v41 main_c_15
  let main_v43 : IVec S_ 1 := andi main_v38 main_v42
  let main_v44 : FVec F S40 .f32 := Host.absf main_arg11
  let main_cst_16 : FVec F S_ .f32 := constant S_ .f32 0x7F800000#32
  let main_v45 : FVec F S40 .f32 := broadcastInDim S40 ![] bcast_S_S40 main_cst_16
  let main_v46 : IVec S40 1 := cmpf .olt main_v44 main_v45
  let main_c_17 : IVec S_ 1 := constantI S_ 1 1#1
  let main_v47 : IVec S_ 1 := (fun x v => Host.reduce IntOp.andi x v reducesTo_S40_S_d0 h_S_) main_v46 main_c_17
  let main_v48 : IVec S_ 1 := andi main_v43 main_v47
  main_v48

def fn_part1 {F : FTy → Type} [FloatOps F] (main_arg6 : FVec F S128x128 .f32) (main_arg7 : FVec F S128 .f32) (main_arg8 : FVec F S128x128 .f32) (main_arg9 : FVec F S128 .f32) (main_arg10 : FVec F S128x40 .f32) (main_arg11 : FVec F S40 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg9 main_arg10 main_arg11 main_v33

def fn {F : FTy → Type} [FloatOps F] (main_arg0 : FVec F S100000x500 .f32) (main_arg1 : IVec S1600000 32) (main_arg2 : IVec S1600000 32) (main_arg3 : FVec F S1600000 .f32) (main_arg4 : FVec F S500x128 .f32) (main_arg5 : FVec F S128 .f32) (main_arg6 : FVec F S128x128 .f32) (main_arg7 : FVec F S128 .f32) (main_arg8 : FVec F S128x128 .f32) (main_arg9 : FVec F S128 .f32) (main_arg10 : FVec F S128x40 .f32) (main_arg11 : FVec F S40 .f32) : IVec S_ 1 :=
  let main_v0 : FVec F S100000x500 .f32 := Host.absf main_arg0
  let main_cst : FVec F S_ .f32 := constant S_ .f32 0x7F800000#32
  let main_v1 : FVec F S100000x500 .f32 := broadcastInDim S100000x500 ![] bcast_S_S100000x500 main_cst
  let main_v2 : IVec S100000x500 1 := cmpf .olt main_v0 main_v1
  let main_c : IVec S_ 1 := constantI S_ 1 1#1
  let main_v3 : IVec S_ 1 := (fun x v => Host.reduce IntOp.andi x v reducesTo_S100000x500_S_d0_1 h_S_) main_v2 main_c
  let main_v4 : FVec F S1600000 .f32 := Host.absf main_arg3
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S500x128 .f32 := Host.absf main_arg4
  let main_cst_2 : FVec F S_ .f32 := constant S_ .f32 0x7F800000#32
  let main_v10 : FVec F S500x128 .f32 := broadcastInDim S500x128 ![] bcast_S_S500x128 main_cst_2
  let main_v11 : IVec S500x128 1 := cmpf .olt main_v9 main_v10
  let main_c_3 : IVec S_ 1 := constantI S_ 1 1#1
  let main_v12 : IVec S_ 1 := (fun x v => Host.reduce IntOp.andi x v reducesTo_S500x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_arg10 main_arg11 main_v13 main_v16
-- ==== Kernel.lean ====
abbrev S100000x500 : Shape := ⟨2, ![100000, 500]⟩
abbrev S1600000 : Shape := ⟨1, ![1600000]⟩
abbrev S500x128 : Shape := ⟨2, ![500, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000x128 : Shape := ⟨2, ![100000, 128]⟩
abbrev S2000x500 : Shape := ⟨2, ![2000, 500]⟩
abbrev S2000x128 : Shape := ⟨2, ![2000, 128]⟩
abbrev S_ : Shape := ⟨0, ![]⟩
abbrev S1600000x1 : Shape := ⟨2, ![1600000, 1]⟩
abbrev S1600000x128 : Shape := ⟨2, ![1600000, 128]⟩
abbrev S1x128 : Shape := ⟨2, ![1, 128]⟩
abbrev S100000x40 : Shape := ⟨2, ![100000, 40]⟩
abbrev S2000x40 : Shape := ⟨2, ![2000, 40]⟩
abbrev S1600000x40 : Shape := ⟨2, ![1600000, 40]⟩
abbrev S1x40 : Shape := ⟨2, ![1, 40]⟩
abbrev S2000 : Shape := ⟨1, ![2000]⟩
abbrev S2000x1 : Shape := ⟨2, ![2000, 1]⟩

abbrev nBuf : Space → Nat
  | .hbm => 88
  | .vmem => 40
  | .smem => 0
  | _ => 0

abbrev bufTy : (tb : Table) → Fin (tcTables nBuf tb) → BufTy
  | .hbm, ⟨0, _⟩ => ⟨S100000x500, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S500x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S100000x128, .f32⟩
  | .hbm, ⟨13, _⟩ => ⟨S_, .i32⟩
  | .hbm, ⟨14, _⟩ => ⟨S1600000, .i32⟩
  | .hbm, ⟨15, _⟩ => ⟨S1600000, .i1⟩
  | .hbm, ⟨16, _⟩ => ⟨S_, .i32⟩
  | .hbm, ⟨17, _⟩ => ⟨S1600000, .i32⟩
  | .hbm, ⟨18, _⟩ => ⟨S1600000, .i32⟩
  | .hbm, ⟨19, _⟩ => ⟨S1600000, .i32⟩
  | .hbm, ⟨20, _⟩ => ⟨S1600000x1, .i32⟩
  | .hbm, ⟨21, _⟩ => ⟨S1600000x128, .f32⟩
  | .hbm, ⟨22, _⟩ => ⟨S1600000x1, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .i32⟩
  | .hbm, ⟨33, _⟩ => ⟨S1600000, .i32⟩
  | .hbm, ⟨34, _⟩ => ⟨S1600000, .i1⟩
  | .hbm, ⟨35, _⟩ => ⟨S_, .i32⟩
  | .hbm, ⟨36, _⟩ => ⟨S1600000, .i32⟩
  | .hbm, ⟨37, _⟩ => ⟨S1600000, .i32⟩
  | .hbm, ⟨38, _⟩ => ⟨S1600000, .i32⟩
  | .hbm, ⟨39, _⟩ => ⟨S1600000x1, .i32⟩
  | .hbm, ⟨40, _⟩ => ⟨S1600000x128, .f32⟩
  | .hbm, ⟨41, _⟩ => ⟨S1600000x1, .f32⟩
  | .hbm, ⟨42, _⟩ => ⟨S1600000x128, .f32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S_, .i32⟩
  | .hbm, ⟨52, _⟩ => ⟨S1600000, .i32⟩
  | .hbm, ⟨53, _⟩ => ⟨S1600000, .i1⟩
  | .hbm, ⟨54, _⟩ => ⟨S_, .i32⟩
  | .hbm, ⟨55, _⟩ => ⟨S1600000, .i32⟩
  | .hbm, ⟨56, _⟩ => ⟨S1600000, .i32⟩
  | .hbm, ⟨57, _⟩ => ⟨S1600000, .i32⟩
  | .hbm, ⟨58, _⟩ => ⟨S1600000x1, .i32⟩
  | .hbm, ⟨59, _⟩ => ⟨S1600000x128, .f32⟩
  | .hbm, ⟨60, _⟩ => ⟨S1600000x1, .f32⟩
  | .hbm, ⟨61, _⟩ => ⟨S1600000x128, .f32⟩
  | .hbm, ⟨62, _⟩ => ⟨S1600000x128, .f32⟩
  | .hbm, ⟨63, _⟩ => ⟨S_, .f32⟩
  | .hbm, ⟨64, _⟩ => ⟨S100000x128, .f32⟩
  | .hbm, ⟨65, _⟩ => ⟨S1600000x1, .i32⟩
  | .hbm, ⟨66, _⟩ => ⟨S100000x128, .f32⟩
  | .hbm, ⟨67, _⟩ => ⟨S1x128, .f32⟩
  | .hbm, ⟨68, _⟩ => ⟨S100000x128, .f32⟩
  | .hbm, ⟨69, _⟩ => ⟨S100000x40, .f32⟩
  | .hbm, ⟨70, _⟩ => ⟨S_, .i32⟩
  | .hbm, ⟨71, _⟩ => ⟨S1600000, .i32⟩
  | .hbm, ⟨72, _⟩ => ⟨S1600000, .i1⟩
  | .hbm, ⟨73, _⟩ => ⟨S_, .i32⟩
  | .hbm, ⟨74, _⟩ => ⟨S1600000, .i32⟩
  | .hbm, ⟨75, _⟩ => ⟨S1600000, .i32⟩
  | .hbm, ⟨76, _⟩ => ⟨S1600000, .i32⟩
  | .hbm, ⟨77, _⟩ => ⟨S1600000x1, .i32⟩
  | .hbm, ⟨78, _⟩ => ⟨S1600000x40, .f32⟩
  | .hbm, ⟨79, _⟩ => ⟨S1600000x1, .f32⟩
  | .hbm, ⟨80, _⟩ => ⟨S1600000x40, .f32⟩
  | .hbm, ⟨81, _⟩ => ⟨S1600000x40, .f32⟩
  | .hbm, ⟨82, _⟩ => ⟨S_, .f32⟩
  | .hbm, ⟨83, _⟩ => ⟨S100000x40, .f32⟩
  | .hbm, ⟨84, _⟩ => ⟨S1600000x1, .i32⟩
  | .hbm, ⟨85, _⟩ => ⟨S100000x40, .f32⟩
  | .hbm, ⟨86, _⟩ => ⟨S1x40, .f32⟩
  | .hbm, ⟨87, _⟩ => ⟨S100000x40, .f32⟩
  | .local _ .vmem, ⟨0, _⟩ => ⟨S2000x500, .f32⟩
  | .local _ .vmem, ⟨1, _⟩ => ⟨S2000x500, .f32⟩
  | .local _ .vmem, ⟨2, _⟩ => ⟨S500x128, .f32⟩
  | .local _ .vmem, ⟨3, _⟩ => ⟨S2000x128, .f32⟩
  | .local _ .vmem, ⟨4, _⟩ => ⟨S2000x128, .f32⟩
  | .local _ .vmem, ⟨5, _⟩ => ⟨S2000x128, .f32⟩
  | .local _ .vmem, ⟨6, _⟩ => ⟨S2000x128, .f32⟩
  | .local _ .vmem, ⟨7, _⟩ => ⟨S1x128, .f32⟩
  | .local _ .vmem, ⟨8, _⟩ => ⟨S2000x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S128x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S1x128, .f32⟩
  | .local _ .vmem, ⟨18, _⟩ => ⟨S2000x128, .f32⟩
  | .local _ .vmem, ⟨19, _⟩ => ⟨S2000x128, .f32⟩
  | .local _ .vmem, ⟨20, _⟩ => ⟨S2000x128, .f32⟩
  | .local _ .vmem, ⟨21, _⟩ => ⟨S2000x128, .f32⟩
  | .local _ .vmem, ⟨22, _⟩ => ⟨S128x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S2000x128, .f32⟩
  | .local _ .vmem, ⟨27, _⟩ => ⟨S1x128, .f32⟩
  | .local _ .vmem, ⟨28, _⟩ => ⟨S2000x128, .f32⟩
  | .local _ .vmem, ⟨29, _⟩ => ⟨S2000x128, .f32⟩
  | .local _ .vmem, ⟨30, _⟩ => ⟨S2000x128, .f32⟩
  | .local _ .vmem, ⟨31, _⟩ => ⟨S2000x128, .f32⟩
  | .local _ .vmem, ⟨32, _⟩ => ⟨S128x40, .f32⟩
  | .local _ .vmem, ⟨33, _⟩ => ⟨S2000x40, .f32⟩
  | .local _ .vmem, ⟨34, _⟩ => ⟨S2000x40, .f32⟩
  | .local _ .vmem, ⟨35, _⟩ => ⟨S2000x40, .f32⟩
  | .local _ .vmem, ⟨36, _⟩ => ⟨S2000x40, .f32⟩
  | .local _ .vmem, ⟨37, _⟩ => ⟨S1x40, .f32⟩
  | .local _ .vmem, ⟨38, _⟩ => ⟨S2000x40, .f32⟩
  | .local _ .vmem, ⟨39, _⟩ => ⟨S2000x40, .f32⟩
  | _, _ => ⟨S100000x500, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_c : Ref sig .tc := ⟨.hbm, 13, rfl⟩
abbrev main_v1 : Ref sig .tc := ⟨.hbm, 14, rfl⟩
abbrev main_v2 : Ref sig .tc := ⟨.hbm, 15, rfl⟩
abbrev main_c_0 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_c_1 : Ref sig .tc := ⟨.hbm, 32, rfl⟩
abbrev main_v17 : Ref sig .tc := ⟨.hbm, 33, rfl⟩
abbrev main_v18 : Ref sig .tc := ⟨.hbm, 34, rfl⟩
abbrev main_c_2 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_cst_3 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_4 : Ref sig .tc := ⟨.hbm, 51, rfl⟩
abbrev main_v33 : Ref sig .tc := ⟨.hbm, 52, rfl⟩
abbrev main_v34 : Ref sig .tc := ⟨.hbm, 53, rfl⟩
abbrev main_c_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_6 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_c_7 : Ref sig .tc := ⟨.hbm, 70, rfl⟩
abbrev main_v49 : Ref sig .tc := ⟨.hbm, 71, rfl⟩
abbrev main_v50 : Ref sig .tc := ⟨.hbm, 72, rfl⟩
abbrev main_c_8 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_9 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg2_0 : Ref sig .tc := ⟨.vmem, 33, rfl⟩
abbrev cc6_stg2_1 : Ref sig .tc := ⟨.vmem, 34, rfl⟩
abbrev cc7_stg0_0 : Ref sig .tc := ⟨.vmem, 35, rfl⟩
abbrev cc7_stg0_1 : Ref sig .tc := ⟨.vmem, 36, rfl⟩
abbrev cc7_stg1_0 : Ref sig .tc := ⟨.vmem, 37, rfl⟩
abbrev cc7_stg2_0 : Ref sig .tc := ⟨.vmem, 38, rfl⟩
abbrev cc7_stg2_1 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem2_0 : DmaSem sig := 33
abbrev cc6_sem2_1 : DmaSem sig := 34
abbrev cc7_sem0_0 : DmaSem sig := 35
abbrev cc7_sem0_1 : DmaSem sig := 36
abbrev cc7_sem1_0 : DmaSem sig := 37
abbrev cc7_sem2_0 : DmaSem sig := 38
abbrev cc7_sem2_1 : DmaSem sig := 39

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x500 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S500x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x128 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S2000x128 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![50], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x40 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x40 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev grid7 : Pipeline.Grid := ⟨1, ![50], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x40 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x40 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 2 → Memref sig .tc .vmem S2000x40 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

class Facts₀ : Prop where
  inb_S2000x500_S2000x500_0_0 : ∀ a, (![0, 0] : Fin 2 → Nat) a + S2000x500.size a ≤ S2000x500.size a
  h_S2000x500 : 0 < S2000x500.numel
  bitsLt_bf16_f32 : FTy.bits .bf16 < FTy.bits .f32
  inb_S500x128_S500x128_0_0 : ∀ a, (![0, 0] : Fin 2 → Nat) a + S500x128.size a ≤ S500x128.size a
  h_S500x128 : 0 < S500x128.numel
  inb_S2000x128_S2000x128_0_0 : ∀ a, (![0, 0] : Fin 2 → Nat) a + S2000x128.size a ≤ S2000x128.size a
  h_S2000x128 : 0 < S2000x128.numel
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S2000x40_S2000x40_0_0 : ∀ a, (![0, 0] : Fin 2 → Nat) a + S2000x40.size a ≤ S2000x40.size a
  h_S2000x40 : 0 < S2000x40.numel
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  shapeCasts_S40_S1x40 : S40.ShapeCasts S1x40
  shapeCasts_S2000x40_S2000x40 : S2000x40.ShapeCasts S2000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S2000x40 : S1x40.Broadcasts S2000x40
  reduces_S2000x40_S2000 : S2000x40.Reduces [1] S2000
  shapeCasts_S2000_S2000x1 : S2000.ShapeCasts S2000x1
  broadcasts_S2000x1_S2000x40 : S2000x1.Broadcasts S2000x40
  dot_S2000x500_S500x128_S2000x128_1_0_0_1_n_n_wf : DotDims.WF S2000x500 S500x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x128_S2000x128_1_0_0_1_n_n_wf : DotDims.WF S2000x128 S128x128 S2000x128 [1] [0] [0] [1] [] []
  dot_S2000x128_S128x40_S2000x40_1_0_0_1_n_n_wf : DotDims.WF S2000x128 S128x40 S2000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x500.size a ≤ S100000x500.size a
  hwx0_0 : ∀ i : grid0.Coords, EltTy.bits .f32 = 32 ∨ (Rect.block (s := S100000x500) S2000x500.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S500x128.size a ≤ S500x128.size a
  hwx0_1 : ∀ i : grid0.Coords, EltTy.bits .f32 = 32 ∨ (Rect.block (s := S500x128) S500x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x128.size a ≤ S100000x128.size a
  hwx0_2 : ∀ i : grid0.Coords, EltTy.bits .f32 = 32 ∨ (Rect.block (s := S100000x128) S2000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x128.size a ≤ S100000x128.size a
  hwx1_2 : ∀ i : grid1.Coords, EltTy.bits .f32 = 32 ∨ (Rect.block (s := S100000x128) S2000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S100000x128.size a
  hwx2_0 : ∀ i : grid2.Coords, EltTy.bits .f32 = 32 ∨ (Rect.block (s := S100000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x128.size a ≤ S100000x128.size a
  hwx2_2 : ∀ i : grid2.Coords, EltTy.bits .f32 = 32 ∨ (Rect.block (s := S100000x128) S2000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S100000x128.size a
  hwx3_0 : ∀ i : grid3.Coords, EltTy.bits .f32 = 32 ∨ (Rect.block (s := S100000x128) S2000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x128.size a ≤ S100000x128.size a
  hwx3_2 : ∀ i : grid3.Coords, EltTy.bits .f32 = 32 ∨ (Rect.block (s := S100000x128) S2000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S100000x128.size a
  hwx4_0 : ∀ i : grid4.Coords, EltTy.bits .f32 = 32 ∨ (Rect.block (s := S100000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x128.size a ≤ S100000x128.size a
  hwx4_2 : ∀ i : grid4.Coords, EltTy.bits .f32 = 32 ∨ (Rect.block (s := S100000x128) S2000x128.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S100000x128.size a
  hwx5_0 : ∀ i : grid5.Coords, EltTy.bits .f32 = 32 ∨ (Rect.block (s := S100000x128) S2000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x128.size a ≤ S100000x128.size a
  hwx5_2 : ∀ i : grid5.Coords, EltTy.bits .f32 = 32 ∨ (Rect.block (s := S100000x128) S2000x128.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S100000x128.size a
  hwx6_0 : ∀ i : grid6.Coords, EltTy.bits .f32 = 32 ∨ (Rect.block (s := S100000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x40.size a ≤ S128x40.size a
  hwx6_1 : ∀ i : grid6.Coords, EltTy.bits .f32 = 32 ∨ (Rect.block (s := S128x40) S128x40.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x40.size a ≤ S100000x40.size a
  hwx6_2 : ∀ i : grid6.Coords, EltTy.bits .f32 = 32 ∨ (Rect.block (s := S100000x40) S2000x40.size (cc6_transform_2 i) (hinb6_2 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x40.size a ≤ S100000x40.size a
  hwx7_0 : ∀ i : grid7.Coords, EltTy.bits .f32 = 32 ∨ (Rect.block (s := S100000x40) S2000x40.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x40.size a ≤ S1x40.size a
  hwx7_1 : ∀ i : grid7.Coords, EltTy.bits .f32 = 32 ∨ (Rect.block (s := S1x40) S1x40.size (cc7_transform_1 i) (hinb7_1 i)).WholeWords (EltTy.packing .f32)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x40.size a ≤ S100000x40.size a
  hwx7_2 : ∀ i : grid7.Coords, EltTy.bits .f32 = 32 ∨ (Rect.block (s := S100000x40) S2000x40.size (cc7_transform_2 i) (hinb7_2 i)).WholeWords (EltTy.packing .f32)

variable [Facts₀]

def dot_S2000x500_S500x128_S2000x128_1_0_0_1_n_n : DotDims S2000x500 S500x128 S2000x128 where
  lhsContracting := [1]
  rhsContracting := [0]
  lhsNonContracting := [0]
  rhsNonContracting := [1]
  lhsBatch := []
  rhsBatch := []
  wf := dot_S2000x500_S500x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x40_S2000x40_1_0_0_1_n_n : DotDims S2000x128 S128x40 S2000x40 where
  lhsContracting := [1]
  rhsContracting := [0]
  lhsNonContracting := [0]
  rhsNonContracting := [1]
  lhsBatch := []
  rhsBatch := []
  wf := dot_S2000x128_S128x40_S2000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

abbrev win0_0 : Pipeline.Window sig grid0 :=
  Pipeline.Window.ofSpec (Memref.whole main_arg0) S2000x500.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S500x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v13) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v15) S2000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v16) S2000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v29) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v30) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v31) S2000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v31) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v32) S2000x128.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v45) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v46) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v47) S2000x128.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v47) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg10) S128x40.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v48) S2000x40.size cc6_transform_2 reads6_2 true false 2 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev win7_0 : Pipeline.Window sig grid7 :=
  Pipeline.Window.ofSpec (Memref.whole main_v61) S2000x40.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v62) S1x40.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v63) S2000x40.size cc7_transform_2 reads7_2 true false 2 stage7_2 sem7_2
    hrank7 hreads7_2 hinb7_2 nbuf7_2 (Memref.isWhole_whole _) hwx7_2 hstage7_2

abbrev win7 : Fin 3 → Pipeline.Window sig grid7 := fun | 0 => win7_0 | 1 => win7_1 | 2 => win7_2 | ⟨_ + 3, h⟩ => absurd h (Nat.not_lt.2 (Nat.le_add_left _ _))
abbrev spec7 : Fin 3 → Pipeline.WinSpec sig grid7.rank := fun w => (win7 w).toWinSpec

class Facts : Prop extends Facts₀ where

variable [Facts]
-- ==== ReferenceIdeal.lean ====
abbrev S100000x500 : Shape := ⟨2, ![100000, 500]⟩
abbrev S1600000 : Shape := ⟨1, ![1600000]⟩
abbrev S500x128 : Shape := ⟨2, ![500, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S100000x128 : Shape := ⟨2, ![100000, 128]⟩
abbrev S1600000x1 : Shape := ⟨2, ![1600000, 1]⟩
abbrev S_ : Shape := ⟨0, ![]⟩
abbrev S1600000x128 : Shape := ⟨2, ![1600000, 128]⟩
abbrev S1x128 : Shape := ⟨2, ![1, 128]⟩
abbrev S100000x40 : Shape := ⟨2, ![100000, 40]⟩
abbrev S1600000x40 : Shape := ⟨2, ![1600000, 40]⟩
abbrev S1x40 : Shape := ⟨2, ![1, 40]⟩
abbrev S100000 : Shape := ⟨1, ![100000]⟩
abbrev S100000x1 : Shape := ⟨2, ![100000, 1]⟩

abbrev nBuf : Space → Nat
  | .hbm => 116
  | .vmem => 0
  | .smem => 0
  | _ => 0

abbrev bufTy : (tb : Table) → Fin (tcTables nBuf tb) → BufTy
  | .hbm, ⟨0, _⟩ => ⟨S100000x500, .f32⟩
  | .hbm, ⟨1, _⟩ => ⟨S1600000, .i32⟩
  | .hbm, ⟨2, _⟩ => ⟨S1600000, .i32⟩
  | .hbm, ⟨3, _⟩ => ⟨S1600000, .f32⟩
  | .hbm, ⟨4, _⟩ => ⟨S500x128, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S128x128, .f32⟩
  | .hbm, ⟨9, _⟩ => ⟨S128, .f32⟩
  | .hbm, ⟨10, _⟩ => ⟨S128x40, .f32⟩
  | .hbm, ⟨11, _⟩ => ⟨S40, .f32⟩
  | .hbm, ⟨12, _⟩ => ⟨S100000x128, .f32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S1x128, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000x128, .f32⟩
  | .hbm, ⟨34, _⟩ => ⟨S100000x128, .f32⟩
  | .hbm, ⟨35, _⟩ => ⟨S100000x128, .f32⟩
  | .hbm, ⟨36, _⟩ => ⟨S1600000x1, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x128, .f32⟩
  | .hbm, ⟨46, _⟩ => ⟨S1600000x128, .f32⟩
  | .hbm, ⟨47, _⟩ => ⟨S1600000x128, .f32⟩
  | .hbm, ⟨48, _⟩ => ⟨S_, .f32⟩
  | .hbm, ⟨49, _⟩ => ⟨S100000x128, .f32⟩
  | .hbm, ⟨50, _⟩ => ⟨S1600000x1, .i32⟩
  | .hbm, ⟨51, _⟩ => ⟨S100000x128, .f32⟩
  | .hbm, ⟨52, _⟩ => ⟨S1x128, .f32⟩
  | .hbm, ⟨53, _⟩ => ⟨S100000x128, .f32⟩
  | .hbm, ⟨54, _⟩ => ⟨S100000x128, .f32⟩
  | .hbm, ⟨55, _⟩ => ⟨S_, .f32⟩
  | .hbm, ⟨56, _⟩ => ⟨S100000x128, .f32⟩
  | .hbm, ⟨57, _⟩ => ⟨S100000x128, .f32⟩
  | .hbm, ⟨58, _⟩ => ⟨S100000x128, .f32⟩
  | .hbm, ⟨59, _⟩ => ⟨S1600000x1, .f32⟩
  | .hbm, ⟨60, _⟩ => ⟨S_, .i32⟩
  | .hbm, ⟨61, _⟩ => ⟨S1600000, .i32⟩
  | .hbm, ⟨62, _⟩ => ⟨S1600000, .i1⟩
  | .hbm, ⟨63, _⟩ => ⟨S_, .i32⟩
  | .hbm, ⟨64, _⟩ => ⟨S1600000, .i32⟩
  | .hbm, ⟨65, _⟩ => ⟨S1600000, .i32⟩
  | .hbm, ⟨66, _⟩ => ⟨S1600000, .i32⟩
  | .hbm, ⟨67, _⟩ => ⟨S1600000x1, .i32⟩
  | .hbm, ⟨68, _⟩ => ⟨S1600000x128, .f32⟩
  | .hbm, ⟨69, _⟩ => ⟨S1600000x128, .f32⟩
  | .hbm, ⟨70, _⟩ => ⟨S1600000x128, .f32⟩
  | .hbm, ⟨71, _⟩ => ⟨S_, .f32⟩
  | .hbm, ⟨72, _⟩ => ⟨S100000x128, .f32⟩
  | .hbm, ⟨73, _⟩ => ⟨S1600000x1, .i32⟩
  | .hbm, ⟨74, _⟩ => ⟨S100000x128, .f32⟩
  | .hbm, ⟨75, _⟩ => ⟨S1x128, .f32⟩
  | .hbm, ⟨76, _⟩ => ⟨S100000x128, .f32⟩
  | .hbm, ⟨77, _⟩ => ⟨S100000x128, .f32⟩
  | .hbm, ⟨78, _⟩ => ⟨S_, .f32⟩
  | .hbm, ⟨79, _⟩ => ⟨S100000x128, .f32⟩
  | .hbm, ⟨80, _⟩ => ⟨S100000x128, .f32⟩
  | .hbm, ⟨81, _⟩ => ⟨S100000x40, .f32⟩
  | .hbm, ⟨82, _⟩ => ⟨S1600000x1, .f32⟩
  | .hbm, ⟨83, _⟩ => ⟨S_, .i32⟩
  | .hbm, ⟨84, _⟩ => ⟨S1600000, .i32⟩
  | .hbm, ⟨85, _⟩ => ⟨S1600000, .i1⟩
  | .hbm, ⟨86, _⟩ => ⟨S_, .i32⟩
  | .hbm, ⟨87, _⟩ => ⟨S1600000, .i32⟩
  | .hbm, ⟨88, _⟩ => ⟨S1600000, .i32⟩
  | .hbm, ⟨89, _⟩ => ⟨S1600000, .i32⟩
  | .hbm, ⟨90, _⟩ => ⟨S1600000x1, .i32⟩
  | .hbm, ⟨91, _⟩ => ⟨S1600000x40, .f32⟩
  | .hbm, ⟨92, _⟩ => ⟨S1600000x40, .f32⟩
  | .hbm, ⟨93, _⟩ => ⟨S1600000x40, .f32⟩
  | .hbm, ⟨94, _⟩ => ⟨S_, .f32⟩
  | .hbm, ⟨95, _⟩ => ⟨S100000x40, .f32⟩
  | .hbm, ⟨96, _⟩ => ⟨S1600000x1, .i32⟩
  | .hbm, ⟨97, _⟩ => ⟨S100000x40, .f32⟩
  | .hbm, ⟨98, _⟩ => ⟨S1x40, .f32⟩
  | .hbm, ⟨99, _⟩ => ⟨S100000x40, .f32⟩
  | .hbm, ⟨100, _⟩ => ⟨S100000x40, .f32⟩
  | .hbm, ⟨101, _⟩ => ⟨S_, .f32⟩
  | .hbm, ⟨102, _⟩ => ⟨S100000, .f32⟩
  | .hbm, ⟨103, _⟩ => ⟨S_, .f32⟩
  | .hbm, ⟨104, _⟩ => ⟨S100000, .f32⟩
  | .hbm, ⟨105, _⟩ => ⟨S100000, .f32⟩
  | .hbm, ⟨106, _⟩ => ⟨S100000x1, .f32⟩
  | .hbm, ⟨107, _⟩ => ⟨S100000x40, .f32⟩
  | .hbm, ⟨108, _⟩ => ⟨S100000x40, .f32⟩
  | .hbm, ⟨109, _⟩ => ⟨S100000x40, .f32⟩
  | .hbm, ⟨110, _⟩ => ⟨S_, .f32⟩
  | .hbm, ⟨111, _⟩ => ⟨S100000, .f32⟩
  | .hbm, ⟨112, _⟩ => ⟨S100000x1, .f32⟩
  | .hbm, ⟨113, _⟩ => ⟨S100000x1, .f32⟩
  | .hbm, ⟨114, _⟩ => ⟨S100000x40, .f32⟩
  | .hbm, ⟨115, _⟩ => ⟨S100000x40, .f32⟩
  | _, _ => ⟨S100000x500, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_c : Ref sig .tc := ⟨.hbm, 14, rfl⟩
abbrev main_v2 : Ref sig .tc := ⟨.hbm, 15, rfl⟩
abbrev main_v3 : Ref sig .tc := ⟨.hbm, 16, rfl⟩
abbrev main_c_0 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_cst : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_call0_cst : Ref sig .tc := ⟨.hbm, 32, rfl⟩
abbrev main_call0_v0 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c_1 : Ref sig .tc := ⟨.hbm, 37, rfl⟩
abbrev main_v20 : Ref sig .tc := ⟨.hbm, 38, rfl⟩
abbrev main_v21 : Ref sig .tc := ⟨.hbm, 39, rfl⟩
abbrev main_c_2 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_3 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_call1_cst : Ref sig .tc := ⟨.hbm, 55, rfl⟩
abbrev main_call1_v0 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_4 : Ref sig .tc := ⟨.hbm, 60, rfl⟩
abbrev main_v38 : Ref sig .tc := ⟨.hbm, 61, rfl⟩
abbrev main_v39 : Ref sig .tc := ⟨.hbm, 62, rfl⟩
abbrev main_c_5 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_cst_6 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_call2_cst : Ref sig .tc := ⟨.hbm, 78, rfl⟩
abbrev main_call2_v0 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_c_7 : Ref sig .tc := ⟨.hbm, 83, rfl⟩
abbrev main_v56 : Ref sig .tc := ⟨.hbm, 84, rfl⟩
abbrev main_v57 : Ref sig .tc := ⟨.hbm, 85, rfl⟩
abbrev main_c_8 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_9 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_call3_cst : Ref sig .tc := ⟨.hbm, 101, rfl⟩
abbrev main_call3_v0 : Ref sig .tc := ⟨.hbm, 102, rfl⟩
abbrev main_call3_cst_0 : Ref sig .tc := ⟨.hbm, 103, rfl⟩
abbrev main_call3_v1 : Ref sig .tc := ⟨.hbm, 104, rfl⟩
abbrev main_call3_v2 : Ref sig .tc := ⟨.hbm, 105, rfl⟩
abbrev main_call3_v3 : Ref sig .tc := ⟨.hbm, 106, rfl⟩
abbrev main_call3_v4 : Ref sig .tc := ⟨.hbm, 107, rfl⟩
abbrev main_call3_v5 : Ref sig .tc := ⟨.hbm, 108, rfl⟩
abbrev main_call3_v6 : Ref sig .tc := ⟨.hbm, 109, rfl⟩
abbrev main_call3_cst_1 : Ref sig .tc := ⟨.hbm, 110, rfl⟩
abbrev main_call3_v7 : Ref sig .tc := ⟨.hbm, 111, rfl⟩
abbrev main_call3_v8 : Ref sig .tc := ⟨.hbm, 112, rfl⟩
abbrev main_call3_v9 : Ref sig .tc := ⟨.hbm, 113, rfl⟩
abbrev main_call3_v10 : Ref sig .tc := ⟨.hbm, 114, rfl⟩
abbrev main_v71 : Ref sig .tc := ⟨.hbm, 115, rfl⟩

abbrev nD : Nat := 1
abbrev τ : Topo := Topo.v7x

variable {F : FTy → Type} [FloatOps F]

class Facts₀ : Prop where
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000x1_S1600000x40_0_1 : S1600000x1.BroadcastsInDim S1600000x40 (![0, 1] : Fin 2 → Fin S1600000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  dot_S100000x500_S500x128_S100000x128_1_0_0_1_n_n_wf : DotDims.WF S100000x500 S500x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  dot_S100000x128_S128x40_S100000x40_1_0_0_1_n_n_wf : DotDims.WF S100000x128 S128x40 S100000x40 [1] [0] [0] [1] [] []
  gather_S100000x40_S1600000x1_S1600000x40_1_0_n_n_0_1_140_wf : GatherDims.WF S100000x40 S1600000x1 S1600000x40 [1] [0] [] [0] [] 1 ![1, 40]
  scatter_S100000x40_S1600000x1_S1600000x40_1_0_0_1_wf : ScatterDims.WF S100000x40 S1600000x1 S1600000x40 [1] [0] [0] 1

variable [Facts₀]

def dot_S100000x500_S500x128_S100000x128_1_0_0_1_n_n : DotDims S100000x500 S500x128 S100000x128 where
  lhsContracting := [1]
  rhsContracting := [0]
  lhsNonContracting := [0]
  rhsNonContracting := [1]
  lhsBatch := []
  rhsBatch := []
  wf := dot_S100000x500_S500x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x40_S100000x40_1_0_0_1_n_n : DotDims S100000x128 S128x40 S100000x40 where
  lhsContracting := [1]
  rhsContracting := [0]
  lhsNonContracting := [0]
  rhsNonContracting := [1]
  lhsBatch := []
  rhsBatch := []
  wf := dot_S100000x128_S128x40_S100000x40_1_0_0_1_n_n_wf
def gather_S100000x40_S1600000x1_S1600000x40_1_0_n_n_0_1_140 : GatherDims S100000x40 S1600000x1 S1600000x40 where
  offsetDims := [1]
  collapsedSliceDims := [0]
  operandBatchingDims := []
  startIndicesBatchingDims := []
  startIndexMap := [0]
  indexVectorDim := 1
  sliceSizes := ![1, 40]
  wf := gather_S100000x40_S1600000x1_S1600000x40_1_0_n_n_0_1_140_wf
def scatter_S100000x40_S1600000x1_S1600000x40_1_0_0_1 : ScatterDims S100000x40 S1600000x1 S1600000x40 where
  updateWindowDims := [1]
  insertedWindowDims := [0]
  scatterDimsToOperandDims := [0]
  indexVectorDim := 1
  wf := scatter_S100000x40_S1600000x1_S1600000x40_1_0_0_1_wf

class Facts : Prop extends Facts₀ where

variable [Facts]
-- ==== Proof.KernelRun.lean ====
/-
  The idealized kernel's run with its result named.

  The program is eight regions among four stretches of host operations. Its frame proof carries, from the launch
  memory to the end, the contents of every buffer at each of the twelve boundaries between those segments: a stretch
  of host operations applies its operations' functions; a region replaces its result array by what its grid points
  wrote back and leaves every other buffer alone. The last of these contents, read at the result buffer, is therefore
  what the run returns. This module states exactly that: every weakly fair execution terminates, the result buffer
  holds the last boundary's contents there, and the twelve argument arrays are as launched.
-/
import proofs.«120548_j53695681135102_1_alg».proof.Proof.Gen.KernelIdeal.Frame
import Idealize.ShloMosaic.PureOps.Ideal

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

local notation "𝕄" => MT nD τ sig Unit (Elt Ideal) ℕ (UR sig nD τ) ℕ

variable (m : (ℓ : Loc nD τ sig) → Buf (Elt Ideal) ℓ) (ρ : Dev nD → PrngReg)

-- the launch theorem's implicit arguments are found by unifying its conclusion with this one, which takes unfolding
-- plain definitions in a metavariable's type
set_option backward.isDefEq.respectTransparency.types false in
/-- Every weakly fair execution of the idealized kernel terminates without a fault; the result buffer then holds the
    last segment boundary's contents and the argument arrays are as launched. The segments, their chaining and the
    reading of the final state are the frame proof's; only the final state is read at one more buffer. -/
theorem run : θ_run defs (onTc (τ := τ) (main (F := Ideal))) ⟨m, fun _ => 0, ρ⟩ (fun r => ∀ c : Dev nD,
      r.2.mem ((c.tc : Thread nD τ).loc main_v63) = W12 m ρ c (Proc.devRef .tc main_v63)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v63 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c),
       (h c _ (mem_uc main_arg11 (by decide))).trans (W12_main_arg11 m ρ c)⟩)

end Cert.KernelIdeal.Result

end
-- ==== Proof.LibMatmulNN.lean ====
/-
  A kernel's matrix product `A · B` of an `[M, K]` by a `[K, N]` operand — the LAST axis of the left operand contracted
  with the FIRST axis of the right one, no batch axes (jnp `x @ W`, `jnp.dot(x, W)`; dimension numbers `[1] x [0]`,
  free axes `[0]` and `[1]`) — into a zero accumulator, over the extended reals: read at `(i, j)` it is the sum over
  `k : Fin K` of `A(i, k) · B(k, j)`. Stated for ANY record of dimension numbers with those six lists, each hypothesis
  closed by `rfl` at a printed record.
-/
import Idealize.ShloMosaic.Lib.ValueIdx
import Idealize.ShloMosaic.PureOps.Ideal.Laws

noncomputable section

open scoped BigOperators

namespace Cert.LibMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- `A · B` into a zero accumulator, at `(i, j)`, is `Σ_k A[i, k] · B[k, j]`. -/
theorem matmul_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    matmul d prec A B (constant ⟨2, ![M, N]⟩ .f32 0x00000000#32) (ix2 i j) = ∑ k : Fin K, A (ix2 i k) * B (ix2 k j) := by
  have hr := contr_rank d hlc
  have hs := contr_size d hlc
  simp only [matmul]
  rw [Ideal.matmul_constant_zero_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

end Cert.LibMatmulNN

end
-- ==== Proof.LibHostKeepdims.lean ====
/-
  Keepdims layouts of a host program, and row maxima, read at an index given by coordinates.

  `x - x.max(axis=1, keepdims=True)` over a matrix `[a, b]` is, in a host program, a reduction `[a, b] → [a]`, a
  `broadcast_in_dim` `[a] → [a, 1]` (the kept axis) and another `[a, 1] → [a, b]` (the subtraction's broadcast); a
  vector of per-column values `[b]` meets the matrix through `[b] → [1, b] → [a, b]`. Read at `(p, c)` the first
  composite is the operand at row `p`, the second the operand at column `c`. The four steps are the first four lemmas;
  a rank-0 operand broadcast to any shape is its one element everywhere. Then the two host reductions along the rows
  (the sum, at the ideal values, and the maximum, a fold of `max` in any order), the kernel's lane maximum along the
  rows in the same words, and the kernel's cast `[a, 1] → [a]` that drops a kept axis again.
  The `dims` of a `broadcast_in_dim` are a variable; the lemmas ask only which result axis each operand axis is sent to.
-/
import Idealize.ShloMosaic.Lib.ValueLayout
import Idealize.ShloMosaic.PureOps.Ideal.Laws

noncomputable section

open scoped BigOperators

namespace Idealize.ShloMosaic.ValueIdx

open Idealize.ShloMosaic

section Layout
variable {α : Type}

/-- A vector `[a]` broadcast to the column `[a, 1]` reads, at `(p, u)`, the vector at `p`. -/
theorem broadcastInDim_a_a1_apply {a : ℕ} (dims : Fin 1 → Fin 2)
    (h : (⟨1, ![a]⟩ : Shape).BroadcastsInDim ⟨2, ![a, 1]⟩ dims) (hd : dims 0 = 0)
    (v : (⟨1, ![a]⟩ : Shape).Idx → α) (p : Fin a) (u : Fin 1) :
    broadcastInDim ⟨2, ![a, 1]⟩ dims h v (ix2 p u) = v (ix1 p) := by
  refine broadcastInDim_apply dims h v (ix2 p u) (ix1 p) fun ax => ?_
  match ax with
  | ⟨0, _⟩ =>
    show p.val = if a = 1 then 0 else (ix2 p u (dims 0)).val
    rw [hd]
    show p.val = if a = 1 then 0 else p.val
    split
    · have := p.isLt; omega
    · rfl

/-- A column `[a, 1]` broadcast to `[a, b]` reads, at `(p, c)`, the column at row `p`. -/
theorem broadcastInDim_a1_ab_apply {a b : ℕ} (dims : Fin 2 → Fin 2)
    (h : (⟨2, ![a, 1]⟩ : Shape).BroadcastsInDim ⟨2, ![a, b]⟩ dims) (hd : dims 0 = 0)
    (v : (⟨2, ![a, 1]⟩ : Shape).Idx → α) (p : Fin a) (c : Fin b) :
    broadcastInDim ⟨2, ![a, b]⟩ dims h v (ix2 p c) = v (ix2 p (0 : Fin 1)) := by
  refine broadcastInDim_apply dims h v (ix2 p c) (ix2 p (0 : Fin 1)) fun ax => ?_
  match ax with
  | ⟨0, _⟩ =>
    show p.val = if a = 1 then 0 else (ix2 p c (dims 0)).val
    rw [hd]
    show p.val = if a = 1 then 0 else p.val
    split
    · have := p.isLt; omega
    · rfl
  | ⟨1, _⟩ => rfl

/-- A vector `[b]` broadcast to the row `[1, b]` reads, at `(u, c)`, the vector at `c`. -/
theorem broadcastInDim_b_1b_apply {b : ℕ} (dims : Fin 1 → Fin 2)
    (h : (⟨1, ![b]⟩ : Shape).BroadcastsInDim ⟨2, ![1, b]⟩ dims) (hd : dims 0 = 1)
    (v : (⟨1, ![b]⟩ : Shape).Idx → α) (u : Fin 1) (c : Fin b) :
    broadcastInDim ⟨2, ![1, b]⟩ dims h v (ix2 u c) = v (ix1 c) := by
  refine broadcastInDim_apply dims h v (ix2 u c) (ix1 c) fun ax => ?_
  match ax with
  | ⟨0, _⟩ =>
    show c.val = if b = 1 then 0 else (ix2 u c (dims 0)).val
    rw [hd]
    show c.val = if b = 1 then 0 else c.val
    split
    · have := c.isLt; omega
    · rfl

/-- A row `[1, b]` broadcast to `[a, b]` reads, at `(p, c)`, the row at column `c`. -/
theorem broadcastInDim_1b_ab_apply {a b : ℕ} (dims : Fin 2 → Fin 2)
    (h : (⟨2, ![1, b]⟩ : Shape).BroadcastsInDim ⟨2, ![a, b]⟩ dims) (hd : dims 1 = 1)
    (v : (⟨2, ![1, b]⟩ : Shape).Idx → α) (p : Fin a) (c : Fin b) :
    broadcastInDim ⟨2, ![a, b]⟩ dims h v (ix2 p c) = v (ix2 (0 : Fin 1) c) := by
  refine broadcastInDim_apply dims h v (ix2 p c) (ix2 (0 : Fin 1) c) fun ax => ?_
  match ax with
  | ⟨0, _⟩ => rfl
  | ⟨1, _⟩ =>
    show c.val = if b = 1 then 0 else (ix2 p c (dims 1)).val
    rw [hd]
    show c.val = if b = 1 then 0 else c.val
    split
    · have := c.isLt; omega
    · rfl

/-- A rank-0 operand broadcast to any shape reads its one element everywhere. -/
theorem broadcastInDim_scalar_apply {t : Shape} (dims : Fin 0 → Fin t.rank)
    (h : (⟨0, ![]⟩ : Shape).BroadcastsInDim t dims) (v : (⟨0, ![]⟩ : Shape).Idx → α) (j : t.Idx) :
    broadcastInDim t dims h v j = v ix0 :=
  broadcastInDim_apply dims h v j ix0 fun ax => ax.elim0

/-- A column `[a, 1]` cast to the vector `[a]` reads, at `i`, the column at row `i`. -/
theorem shapeCast_a1_a_apply {a : ℕ} (x : (⟨2, ![a, 1]⟩ : Shape).Idx → α)
    (h : (⟨2, ![a, 1]⟩ : Shape).ShapeCasts ⟨1, ![a]⟩) (i : Fin a) :
    shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

end Layout

/-- The host's sum of an `[a, b]` matrix along its rows, at the ideal values and read at row `r`: the initial value
    plus the sum over the row. -/
theorem hostReduceAdd_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduceAdd x init h' hu (ix1 r) = init (Shape.Idx.first hu) + ∑ k : Fin b, x (ix2 r k) := by
  simp only [Host.reduceAdd, Ideal.hostReduceAdd_def]
  rw [Ideal.hostReduceAdd_single h' h]
  refine congrArg (_ + ·) (Finset.sum_congr rfl fun k _ => congrArg x (funext fun ax => Fin.ext ?_))
  match ax with
  | ⟨0, _⟩ => rfl
  | ⟨1, _⟩ => rfl

/-- The host's maximum of an `[a, b]` matrix along its rows, read at row `r`: the fold of `max`, from the initial
    value, over the row, in any order. -/
theorem hostReduce_max_rows_apply {a b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (r : Fin a) :
    Host.reduce (FloatOps.maximumf (F := Ideal) (φ := φ)) x init h' hu (ix1 r)
      = (Finset.univ : Finset (Fin b)).fold max (init (Shape.Idx.first hu)) (fun k => x (ix2 r k)) := by
  refine (Host.reduce_eq_fold_single (FloatOps.maximumf (F := Ideal) (φ := φ)) x init h' h hu (ix1 r)).trans ?_
  refine congrArg (Finset.fold _ _ · _) (funext fun k => congrArg x (funext fun ax => Fin.ext ?_))
  match ax with
  | ⟨0, _⟩ => rfl
  | ⟨1, _⟩ => rfl

/-- A kernel's lane maximum of an `[a, b]` matrix along its rows, at the ideal values and read at row `r`: the fold of
    `max`, from the accumulator's value, over the row. -/
theorem multiReduction_maximumf_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (r : Fin a) :
    multiReduction .maximumf [1] ⟨1, ![a]⟩ src acc h hφ hacc (ix1 r)
      = (Finset.univ : Finset (Fin b)).fold max (Ideal.ofBits φ acc) (fun k => src (ix2 r k)) := by
  refine (Ideal.multiReduction_maximumf_single src acc h hφ hacc (ix1 r)).trans ?_
  refine congrArg (Finset.fold _ _ · _) (funext fun k => congrArg src (funext fun ax => Fin.ext ?_))
  match ax with
  | ⟨0, _⟩ => rfl
  | ⟨1, _⟩ => rfl

end Idealize.ShloMosaic.ValueIdx

end
-- ==== Proof.LibGcnLayers.lean ====
/-
  A four-layer graph convolution network on the extended reals, as functions of whole arrays.

  One layer sends node features `H : [n, f]` to `act (Â · (H · W) + b)`: a dense product with the weights, an
  aggregation of each node's neighbours along weighted edges (kept abstract here: both programs apply the very same
  gather / scale / scatter-add to the product, so nothing about it is ever opened), the bias added to every row, and an
  activation — `max(·, 0)` for the three hidden layers, the row-wise log-softmax for the last. This module states the
  three dense pieces index by index; they are what a row-tiled kernel and a whole-array host program both compute.

  * `mm A B` at `(i, j)` is `Σ_k A(i, k) · B(k, j)`.
  * `biasRelu a b` at `(i, j)` is `max (a(i, j) + b(j)) 0`, the zero being the float pattern of `+0.0`, which is never
    evaluated: both programs carry the same pattern.
  * `logSoftmax a b` at `(i, j)`, with `z = a + b` row-broadcast and `M(i) = max_k z(i, k)` (a fold of `max` from the
    pattern of `-∞`, again never evaluated), is `(z(i, j) - M(i)) - log Σ_k exp (z(i, k) - M(i))`.
-/
import Idealize.ShloMosaic.Lib.ValueIdx
import Idealize.ShloMosaic.PureOps.Ideal.Laws

noncomputable section

open scoped BigOperators

namespace Cert.Gcn

open Idealize.ShloMosaic Idealize.ShloMosaic.ValueIdx

variable {M K N : Nat}

/-- The dense product: row `i` of `A` against column `j` of `B`. -/
def mm (A : (⟨2, ![M, K]⟩ : Shape).Idx → EReal) (B : (⟨2, ![K, N]⟩ : Shape).Idx → EReal) :
    (⟨2, ![M, N]⟩ : Shape).Idx → EReal :=
  fun i => ∑ k : Fin K, A (ix2 (i 0) k) * B (ix2 k (i 1))

theorem mm_apply (A : (⟨2, ![M, K]⟩ : Shape).Idx → EReal) (B : (⟨2, ![K, N]⟩ : Shape).Idx → EReal) (p : Fin M) (q : Fin N) :
    mm A B (ix2 p q) = ∑ k : Fin K, A (ix2 p k) * B (ix2 k q) := rfl

/-- The float pattern of `+0.0`, as both programs carry it. -/
abbrev zeroWord : EReal := Ideal.ofBits .f32 0x00000000#32
/-- The float pattern of `-∞`, as both programs carry it. -/
abbrev negInfWord : EReal := Ideal.ofBits .f32 0xFF800000#32

/-- The bias added to every row, then the positive part. -/
def biasRelu (a : (⟨2, ![M, N]⟩ : Shape).Idx → EReal) (b : (⟨1, ![N]⟩ : Shape).Idx → EReal) :
    (⟨2, ![M, N]⟩ : Shape).Idx → EReal :=
  fun i => max (a i + b (ix1 (i 1))) zeroWord

theorem biasRelu_apply (a : (⟨2, ![M, N]⟩ : Shape).Idx → EReal) (b : (⟨1, ![N]⟩ : Shape).Idx → EReal) (p : Fin M) (q : Fin N) :
    biasRelu a b (ix2 p q) = max (a (ix2 p q) + b (ix1 q)) zeroWord := rfl

/-- A row's maximum: the fold of `max` over the row, from the pattern of `-∞`. -/
def rowMax (z : (⟨2, ![M, N]⟩ : Shape).Idx → EReal) (r : Fin M) : EReal :=
  (Finset.univ : Finset (Fin N)).fold max negInfWord (fun k => z (ix2 r k))

/-- The logits of the last layer: the bias added to every row. -/
def logits (a : (⟨2, ![M, N]⟩ : Shape).Idx → EReal) (b : (⟨1, ![N]⟩ : Shape).Idx → EReal) :
    (⟨2, ![M, N]⟩ : Shape).Idx → EReal :=
  fun i => a i + b (ix1 (i 1))

/-- The row-wise log-softmax of the logits, shifted by the row's maximum as both programs shift it. -/
def logSoftmax (a : (⟨2, ![M, N]⟩ : Shape).Idx → EReal) (b : (⟨1, ![N]⟩ : Shape).Idx → EReal) :
    (⟨2, ![M, N]⟩ : Shape).Idx → EReal :=
  fun i => (logits a b i - rowMax (logits a b) (i 0))
    - Ideal.log (∑ k : Fin N, Ideal.exp (logits a b (ix2 (i 0) k) - rowMax (logits a b) (i 0)))

theorem logSoftmax_apply (a : (⟨2, ![M, N]⟩ : Shape).Idx → EReal) (b : (⟨1, ![N]⟩ : Shape).Idx → EReal) (p : Fin M) (q : Fin N) :
    logSoftmax a b (ix2 p q) = (logits a b (ix2 p q) - rowMax (logits a b) p)
      - Ideal.log (∑ k : Fin N, Ideal.exp (logits a b (ix2 p k) - rowMax (logits a b) p)) := rfl

end Cert.Gcn

end
-- ==== Proof.LibLogSoftmaxTile.lean ====
/-
  The row-wise log-softmax inside a kernel body, read at an index on the extended reals.

  A body that holds a block `z : [a, b]` of logits computes `z - max_row(z) - log Σ_row exp(z - max_row(z))` with lane
  reductions to a vector `[a]`, a cast of that vector to a column `[a, 1]` (the kept axis), and a broadcast of the
  column back along the lanes. This module reads those layout steps at an index (`[a] → [a, 1]` by a cast, `[a, 1] →
  [a, b]` by a broadcast), the lane sum as the sum over the row, and the whole nine-operation tail at `(p, q)`:
  `(z(p, q) - M(p)) - log Σ_k exp (z(p, k) - M(p))` with `M(p)` the fold of `max` over row `p` from the pattern of `-∞`
  (`Cert.Gcn.rowMax`). Stated for any extents and any evidence of the shape facts; imports only the Idealize library
  and this directory's general modules.
-/
import proofs.«120548_j53695681135102_1_alg».proof.Proof.LibHostKeepdims
import proofs.«120548_j53695681135102_1_alg».proof.Proof.LibGcnLayers
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.LibLogSoftmaxTile

open Idealize.ShloMosaic Idealize.ShloMosaic.ValueIdx

/-! ## Layouts of a kept axis inside a body -/

/-- A vector `[a]` cast to the column `[a, 1]` reads, at `(p, 0)`, the vector at `p`. -/
theorem shapeCast_a_a1_apply {α : Type} {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    rw [Shape.rowMajor_val_two, Shape.rowMajor_val_one]
    show p.val = p.val * 1 + u.val
    have := u.isLt
    omega)

/-- A column `[a, 1]` broadcast along the lanes to `[a, b]` reads, at `(p, c)`, the column at row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The reductions and the tail -/

/-- A kernel's lane sum of an `[a, b]` matrix along its rows, read at row `r`: the sum over the row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => congrArg src (funext fun ax => Fin.ext ?_)
  match ax with
  | ⟨0, _⟩ => rfl
  | ⟨1, _⟩ => rfl

/-- Subtract each row's maximum, then the logarithm of the row's sum of exponentials: the body's last nine
    operations on a matrix `z`, read at `(p, q)`. The maximum and the sum are lane reductions to a vector, cast to a
    column and broadcast back along the lanes. -/
theorem logSoftmax_tile {a b : ℕ} (z : FVec Ideal ⟨2, ![a, b]⟩ .f32)
    (hr : (⟨2, ![a, b]⟩ : Shape).Reduces [1] ⟨1, ![a]⟩) (hφ : FKind.Formats .f32)
    (hmax : (0xFF800000#32 : BitVec 32) = FKind.maximumf.neutral .f32 hφ)
    (hadd : (0x00000000#32 : BitVec 32) = FKind.add.neutral .f32 hφ)
    (hc : (⟨1, ![a]⟩ : Shape).ShapeCasts ⟨2, ![a, 1]⟩) (hb : (⟨2, ![a, 1]⟩ : Shape).Broadcasts ⟨2, ![a, b]⟩)
    (p : Fin a) (q : Fin b) :
    subf (subf z (broadcastTo ⟨2, ![a, b]⟩ (shapeCast ⟨2, ![a, 1]⟩
        (multiReduction .maximumf [1] ⟨1, ![a]⟩ z 0xFF800000#32 hr hφ hmax) hc) hb))
      (broadcastTo ⟨2, ![a, b]⟩ (log (shapeCast ⟨2, ![a, 1]⟩
        (multiReduction .add [1] ⟨1, ![a]⟩ (exp (subf z (broadcastTo ⟨2, ![a, b]⟩ (shapeCast ⟨2, ![a, 1]⟩
          (multiReduction .maximumf [1] ⟨1, ![a]⟩ z 0xFF800000#32 hr hφ hmax) hc) hb))) 0x00000000#32 hr hφ hadd) hc)) hb)
      (ix2 p q)
    = (z (ix2 p q) - Cert.Gcn.rowMax z p) - Ideal.log (∑ k : Fin b, Ideal.exp (z (ix2 p k) - Cert.Gcn.rowMax z p)) := by
  have hm : ∀ c : Fin b, broadcastTo ⟨2, ![a, b]⟩ (shapeCast ⟨2, ![a, 1]⟩
      (multiReduction .maximumf [1] ⟨1, ![a]⟩ z 0xFF800000#32 hr hφ hmax) hc) hb (ix2 p c) = Cert.Gcn.rowMax z p := by
    intro c
    rw [broadcastTo_a1_ab_apply, shapeCast_a_a1_apply, multiReduction_maximumf_rows_apply]
    rfl
  show (z (ix2 p q) - broadcastTo ⟨2, ![a, b]⟩ _ hb (ix2 p q)) - broadcastTo ⟨2, ![a, b]⟩ _ hb (ix2 p q) = _
  rw [hm q, broadcastTo_a1_ab_apply]
  show _ - Ideal.log (shapeCast ⟨2, ![a, 1]⟩ _ hc (ix2 p (0 : Fin 1))) = _
  rw [shapeCast_a_a1_apply, multiReduction_add_rows_apply]
  refine congrArg (fun s => (z (ix2 p q) - Cert.Gcn.rowMax z p) - Ideal.log s) (Finset.sum_congr rfl fun k _ => ?_)
  show Ideal.exp (z (ix2 p k) - broadcastTo ⟨2, ![a, b]⟩ _ hb (ix2 p k)) = _
  rw [hm k]

end Cert.LibLogSoftmaxTile

end
-- ==== Proof.Payloads.lean ====
/-
  What each kernel body computes from the blocks it loads, read at one position of the block, on the extended reals.

  The eight bodies are of three kinds. A product body rounds both operands to bf16 (the identity on the extended
  reals) and multiplies them into a zero accumulator: at `(p, q)` it is `Σ_k x(p, k) · w(k, q)`. A bias-and-positive-
  part body adds the one-row bias to every row and takes `max(·, 0)`. The last body adds the bias, subtracts each row's
  maximum, and subtracts the logarithm of the row's sum of exponentials. Bodies of one kind and one shape are the same
  term under different names, so one lemma per shape serves all of them.
-/
import proofs.«120548_j53695681135102_1_alg».proof.Proof.Gen.KernelIdeal.Skeleton
import proofs.«120548_j53695681135102_1_alg».proof.Proof.LibMatmulNN
import proofs.«120548_j53695681135102_1_alg».proof.Proof.LibHostKeepdims
import proofs.«120548_j53695681135102_1_alg».proof.Proof.LibLogSoftmaxTile
import proofs.«120548_j53695681135102_1_alg».proof.Proof.LibGcnLayers
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Tile

open Idealize.ShloMosaic Idealize.ShloMosaic.ValueIdx Cert.KernelIdeal Cert.KernelIdeal.Gen Cert.LibLogSoftmaxTile

/-! ## The product bodies -/

/-- Nodes' input features against the first layer's weights. -/
theorem mm0_apply (x0 : Vec Ideal S2000x500 .f32) (x1 : Vec Ideal S500x128 .f32) (p : Fin 2000) (q : Fin 128) :
    k0_pay1 (F := Ideal) x0 x1 (ix2 p q) = ∑ k : Fin 500, x0 (ix2 p k) * x1 (ix2 k q) := by
  unfold k0_pay1
  exact Cert.LibMatmulNN.matmul_nn_apply dot_S2000x500_S500x128_S2000x128_1_0_0_1_n_n rfl rfl rfl rfl rfl rfl none _ _ p q

/-- Hidden features against a hidden layer's weights. -/
theorem mm2_apply (x0 : Vec Ideal S2000x128 .f32) (x1 : Vec Ideal S128x128 .f32) (p : Fin 2000) (q : Fin 128) :
    k2_pay1 (F := Ideal) x0 x1 (ix2 p q) = ∑ k : Fin 128, x0 (ix2 p k) * x1 (ix2 k q) := by
  unfold k2_pay1
  rw [shapeCast_self]
  exact Cert.LibMatmulNN.matmul_nn_apply dot_S2000x128_S128x128_S2000x128_1_0_0_1_n_n rfl rfl rfl rfl rfl rfl none _ _ p q

theorem mm4_apply (x0 : Vec Ideal S2000x128 .f32) (x1 : Vec Ideal S128x128 .f32) (p : Fin 2000) (q : Fin 128) :
    k4_pay1 (F := Ideal) x0 x1 (ix2 p q) = ∑ k : Fin 128, x0 (ix2 p k) * x1 (ix2 k q) :=
  mm2_apply x0 x1 p q

/-- Hidden features against the last layer's weights. -/
theorem mm6_apply (x0 : Vec Ideal S2000x128 .f32) (x1 : Vec Ideal S128x40 .f32) (p : Fin 2000) (q : Fin 40) :
    k6_pay1 (F := Ideal) x0 x1 (ix2 p q) = ∑ k : Fin 128, x0 (ix2 p k) * x1 (ix2 k q) := by
  unfold k6_pay1
  rw [shapeCast_self]
  exact Cert.LibMatmulNN.matmul_nn_apply dot_S2000x128_S128x40_S2000x40_1_0_0_1_n_n rfl rfl rfl rfl rfl rfl none _ _ p q

/-! ## The bias-and-positive-part bodies -/

theorem relu1_apply (x0 : Vec Ideal S2000x128 .f32) (x1 : Vec Ideal S1x128 .f32) (p : Fin 2000) (q : Fin 128) :
    k1_pay1 (F := Ideal) x0 x1 (ix2 p q) = max (x0 (ix2 p q) + x1 (ix2 (0 : Fin 1) q)) Cert.Gcn.zeroWord := by
  unfold k1_pay1
  rw [shapeCast_self, shapeCast_self]
  show max (x0 (ix2 p q) + broadcastTo S2000x128 x1 broadcasts_S1x128_S2000x128 (ix2 p q)) _ = _
  rw [broadcastTo_1b_ab_apply]
  rfl

theorem relu3_apply (x0 : Vec Ideal S2000x128 .f32) (x1 : Vec Ideal S1x128 .f32) (p : Fin 2000) (q : Fin 128) :
    k3_pay1 (F := Ideal) x0 x1 (ix2 p q) = max (x0 (ix2 p q) + x1 (ix2 (0 : Fin 1) q)) Cert.Gcn.zeroWord :=
  relu1_apply x0 x1 p q

theorem relu5_apply (x0 : Vec Ideal S2000x128 .f32) (x1 : Vec Ideal S1x128 .f32) (p : Fin 2000) (q : Fin 128) :
    k5_pay1 (F := Ideal) x0 x1 (ix2 p q) = max (x0 (ix2 p q) + x1 (ix2 (0 : Fin 1) q)) Cert.Gcn.zeroWord :=
  relu1_apply x0 x1 p q

/-! ## The log-softmax body -/

/-- The last body: the bias added to every row, then the row-wise log-softmax. -/
theorem lsm7_apply (x0 : Vec Ideal S2000x40 .f32) (x1 : Vec Ideal S1x40 .f32) (p : Fin 2000) (q : Fin 40) :
    k7_pay1 (F := Ideal) x0 x1 (ix2 p q)
      = Cert.Gcn.logSoftmax (M := 2000) (N := 40) x0 (fun j => x1 (ix2 (0 : Fin 1) (j 0))) (ix2 p q) := by
  unfold k7_pay1
  rw [shapeCast_self, shapeCast_self]
  have hz : (addf x0 (broadcastTo S2000x40 x1 broadcasts_S1x40_S2000x40) : FVec Ideal S2000x40 .f32)
      = Cert.Gcn.logits (M := 2000) (N := 40) x0 (fun j => x1 (ix2 (0 : Fin 1) (j 0))) := by
    funext j
    obtain ⟨r, c, rfl⟩ : ∃ (r : Fin 2000) (c : Fin 40), j = ix2 r c := ⟨j 0, j 1, eq_ix2 j⟩
    show x0 (ix2 r c) + broadcastTo S2000x40 x1 broadcasts_S1x40_S2000x40 (ix2 r c) = _
    rw [broadcastTo_1b_ab_apply]
    rfl
  rw [hz]
  exact logSoftmax_tile _ reduces_S2000x40_S2000 _ _ _ shapeCasts_S2000_S2000x1 broadcasts_S2000x1_S2000x40 p q

end Cert.KernelIdeal.Tile

end
-- ==== Proof.Region0.lean ====
/-
  The first layer's dense product, from row blocks to the whole array.

  The region multiplies the node features `x : [100000, 500]`, fifty row blocks of 2000 rows, by the weights
  `W1 : [500, 128]`, held whole. Row block `t` of the result is the product of row block `t` of `x` with `W1`, so the
  result array, block by block, is the dense product `x · W1` of the whole arrays the region finds.
-/
import proofs.«120548_j53695681135102_1_alg».proof.Proof.Gen.KernelIdeal.Frame
import proofs.«120548_j53695681135102_1_alg».proof.Proof.Payloads
import proofs.«120548_j53695681135102_1_alg».proof.Proof.LibGcnLayers
import Idealize.ShloMosaic.Lib.Pipeline.Value
import Idealize.ShloMosaic.Lib.ValueIdx

set_option maxRecDepth 16384

noncomputable section

open scoped BigOperators

namespace Cert.KernelIdeal.Region0

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Which block of its array each window holds at grid point `t`: the row-tiled operand and the result are at row
    block `t`, the small operand is whole. Decided once over the fifty points. -/
theorem block_index : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 ∧ t.val < 50 :=
  (by decide +kernel : ∀ t : Fin grid0.N, _)

/-- Row block `r` of the result is grid point `r`'s. -/
theorem point_of_block : ∀ r : Fin 50, ∃ t : Fin cfg0.N, t.val = r.val :=
  (by decide +kernel : ∀ r : Fin 50, ∃ t : Fin grid0.N, t.val = r.val)

/-- What grid point `t` writes back is row block `t` of the layer's function of the whole arrays the region finds:
    the body at position `(p, q)` of the block reads row `2000 t + p` of the tiled operand and the small operand whole. -/
theorem flushed_eq (c : Dev nD) (t : Fin cfg0.N) :
    (dat0 V c).flushed 2 t = ((cfg0.win 2).blk t).view.read (Elt Ideal) (Cert.Gcn.mm (M := 100000) (K := 500) (N := 128) (V c main_arg0) (V c main_arg4)) := by
  show (cfg0.win 2).cut (grid0.coords t) ((dat0 V c).after 2 t) = _
  rw [after0_2]
  unfold out0_2
  rw [View.canon_unit_zero origin]
  simp only [View.ld_unit_zero (S := S2000x500) origin, View.ld_unit_zero (S := S500x128) origin]
  obtain ⟨e0, e1, e2, e3, e4, e5, e6⟩ := block_index t
  funext j
  obtain ⟨p, q, rfl⟩ : ∃ (p : Fin 2000) (q : Fin 128), j = ix2 p q := ⟨j 0, j 1, eq_ix2 j⟩
  have hrow : t.val * 2000 + p.val < 100000 := by have := p.isLt; omega
  have hemb : ((cfg0.win 2).blk t).view.emb (ix2 p q) = (ix2 ⟨t.val * 2000 + p.val, hrow⟩ q : S100000x128.Idx) := by
    funext a; apply Fin.ext
    match a with
    | ⟨0, _⟩ => show win0_2.index t (0 : Fin 2) * 2000 + 1 * p.val = t.val * 2000 + p.val; omega
    | ⟨1, _⟩ => show win0_2.index t (1 : Fin 2) * 128 + 1 * q.val = q.val; omega
  show k0_pay1 (iblk0 V c 0 t) (iblk0 V c 1 t) (ix2 p q) = (Cert.Gcn.mm (M := 100000) (K := 500) (N := 128) (V c main_arg0) (V c main_arg4)) (((cfg0.win 2).blk t).view.emb (ix2 p q))
  refine (Cert.KernelIdeal.Tile.mm0_apply (iblk0 V c 0 t) (iblk0 V c 1 t) p q).trans ?_
  rw [hemb, Cert.Gcn.mm_apply]
  refine Finset.sum_congr rfl fun kk _ => ?_
  have h0 : iblk0 V c 0 t (ix2 p kk) = V c main_arg0 (ix2 ⟨t.val * 2000 + p.val, hrow⟩ kk) := by
    show V c main_arg0 (((cfg0.win 0).blk t).view.emb (ix2 p kk)) = _
    refine congrArg (V c main_arg0) (funext fun a => Fin.ext ?_)
    match a with
    | ⟨0, _⟩ => show win0_0.index t (0 : Fin 2) * 2000 + 1 * p.val = t.val * 2000 + p.val; omega
    | ⟨1, _⟩ => show win0_0.index t (1 : Fin 2) * 500 + 1 * kk.val = kk.val; omega
  have h1 : iblk0 V c 1 t (ix2 kk q) = V c main_arg4 (ix2 kk q) := by
    show V c main_arg4 (((cfg0.win 1).blk t).view.emb (ix2 kk q)) = _
    refine congrArg (V c main_arg4) (funext fun a => Fin.ext ?_)
    match a with
    | ⟨0, _⟩ => show win0_1.index t (0 : Fin 2) * 500 + 1 * kk.val = kk.val; omega
    | ⟨1, _⟩ => show win0_1.index t (1 : Fin 2) * 128 + 1 * q.val = q.val; omega
  rw [h0, h1]

/-- An index of the result array is in point `t`'s block iff each coordinate is in the block's range on its axis. -/
theorem mem_block (t : Fin cfg0.N) (i : S100000x128.Idx) :
    i ∈ ((cfg0.win 2).blk t).view.set ↔ ∀ a : Fin 2, win0_2.index t a * S2000x128.size a ≤ (i a).val ∧ (i a).val < win0_2.index t a * S2000x128.size a + S2000x128.size a := by
  show i ∈ ((View.whole main_v0).slice (win0_2.rect t)).set ↔ _
  rw [View.set_slice_whole, Rect.mem_set_unit]
  exact Iff.rfl

/-- The fifty row blocks cover the result array: row `r` is in block `r / 2000`. -/
theorem covered (i : S100000x128.Idx) :
    ∃ t : Fin cfg0.N, (cfg0.win 2).flush t = true ∧ i ∈ ((cfg0.win 2).blk t).view.set := by
  have hi0 : (i 0).val < 100000 := (i 0).isLt
  have hi1 : (i 1).val < 128 := (i 1).isLt
  obtain ⟨t, ht⟩ := point_of_block ⟨(i 0).val / 2000, by omega⟩
  have ht' : t.val = (i 0).val / 2000 := ht
  obtain ⟨e0, e1, e2, e3, e4, e5, e6⟩ := block_index t
  refine ⟨t, flush0_2 t, ?_⟩
  rw [mem_block]
  intro a
  match a with
  | ⟨0, _⟩ => show win0_2.index t (0 : Fin 2) * 2000 ≤ (i 0).val ∧ (i 0).val < win0_2.index t (0 : Fin 2) * 2000 + 2000; omega
  | ⟨1, _⟩ => show win0_2.index t (1 : Fin 2) * 128 ≤ (i 1).val ∧ (i 1).val < win0_2.index t (1 : Fin 2) * 128 + 128; omega

/-- The result array after the region: the layer's function of the two arrays the region finds. -/
theorem final (c : Dev nD) : (dat0 V c).arrAt 2 cfg0.N = Cert.Gcn.mm (M := 100000) (K := 500) (N := 128) (V c main_arg0) (V c main_arg4) :=
  (dat0 V c).arrAt_eq_of_cover 2 _ (fun t _ => flushed_eq V c t) covered

end Cert.KernelIdeal.Region0

end
-- ==== Proof.Region1.lean ====
/-
  The first layer's bias and positive part, from row blocks to the whole array.

  The region takes the aggregated features `[100000, 128]`, fifty row blocks of 2000 rows, and the bias as one row
  `[1, 128]`, held whole. Row block `t` of the result is `max(a + b, 0)` on row block `t` of `a`, so the result array is
  `max(a(i, j) + b(j), 0)` of the whole arrays the region finds.
-/
import proofs.«120548_j53695681135102_1_alg».proof.Proof.Gen.KernelIdeal.Frame
import proofs.«120548_j53695681135102_1_alg».proof.Proof.Payloads
import proofs.«120548_j53695681135102_1_alg».proof.Proof.LibGcnLayers
import Idealize.ShloMosaic.Lib.Pipeline.Value
import Idealize.ShloMosaic.Lib.ValueIdx

set_option maxRecDepth 16384

noncomputable section

open scoped BigOperators

namespace Cert.KernelIdeal.Region1

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Which block of its array each window holds at grid point `t`: the row-tiled operand and the result are at row
    block `t`, the small operand is whole. Decided once over the fifty points. -/
theorem block_index : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 ∧ t.val < 50 :=
  (by decide +kernel : ∀ t : Fin grid1.N, _)

/-- Row block `r` of the result is grid point `r`'s. -/
theorem point_of_block : ∀ r : Fin 50, ∃ t : Fin cfg1.N, t.val = r.val :=
  (by decide +kernel : ∀ r : Fin 50, ∃ t : Fin grid1.N, t.val = r.val)

/-- What grid point `t` writes back is row block `t` of the layer's function of the whole arrays the region finds:
    the body at position `(p, q)` of the block reads row `2000 t + p` of the tiled operand and the small operand whole. -/
theorem flushed_eq (c : Dev nD) (t : Fin cfg1.N) :
    (dat1 V c).flushed 2 t = ((cfg1.win 2).blk t).view.read (Elt Ideal) (Cert.Gcn.biasRelu (M := 100000) (N := 128) (V c main_v13) (fun j => V c main_v14 (ix2 (0 : Fin 1) (j 0)))) := by
  show (cfg1.win 2).cut (grid1.coords t) ((dat1 V c).after 2 t) = _
  rw [after1_2]
  unfold out1_2
  rw [View.canon_unit_zero origin]
  simp only [View.ld_unit_zero (S := S2000x128) origin, View.ld_unit_zero (S := S1x128) origin]
  obtain ⟨e0, e1, e2, e3, e4, e5, e6⟩ := block_index t
  funext j
  obtain ⟨p, q, rfl⟩ : ∃ (p : Fin 2000) (q : Fin 128), j = ix2 p q := ⟨j 0, j 1, eq_ix2 j⟩
  have hrow : t.val * 2000 + p.val < 100000 := by have := p.isLt; omega
  have hemb : ((cfg1.win 2).blk t).view.emb (ix2 p q) = (ix2 ⟨t.val * 2000 + p.val, hrow⟩ q : S100000x128.Idx) := by
    funext a; apply Fin.ext
    match a with
    | ⟨0, _⟩ => show win1_2.index t (0 : Fin 2) * 2000 + 1 * p.val = t.val * 2000 + p.val; omega
    | ⟨1, _⟩ => show win1_2.index t (1 : Fin 2) * 128 + 1 * q.val = q.val; omega
  show k1_pay1 (iblk1 V c 0 t) (iblk1 V c 1 t) (ix2 p q) = (Cert.Gcn.biasRelu (M := 100000) (N := 128) (V c main_v13) (fun j => V c main_v14 (ix2 (0 : Fin 1) (j 0)))) (((cfg1.win 2).blk t).view.emb (ix2 p q))
  refine (Cert.KernelIdeal.Tile.relu1_apply (iblk1 V c 0 t) (iblk1 V c 1 t) p q).trans ?_
  have h0 : ∀ cc : Fin 128, iblk1 V c 0 t (ix2 p cc) = V c main_v13 (ix2 ⟨t.val * 2000 + p.val, hrow⟩ cc) := by
    intro cc
    show V c main_v13 (((cfg1.win 0).blk t).view.emb (ix2 p cc)) = _
    refine congrArg (V c main_v13) (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * cc.val = cc.val; omega
  have h1 : ∀ cc : Fin 128, iblk1 V c 1 t (ix2 (0 : Fin 1) cc) = V c main_v14 (ix2 (0 : Fin 1) cc) := by
    intro cc
    show V c main_v14 (((cfg1.win 1).blk t).view.emb (ix2 (0 : Fin 1) cc)) = _
    refine congrArg (V c main_v14) (funext fun a => Fin.ext ?_)
    match a with
    | ⟨0, _⟩ => show win1_1.index t (0 : Fin 2) * 1 + 1 * 0 = 0; omega
    | ⟨1, _⟩ => show win1_1.index t (1 : Fin 2) * 128 + 1 * cc.val = cc.val; omega
  rw [hemb, Cert.Gcn.biasRelu_apply, h0 q, h1 q]

/-- An index of the result array is in point `t`'s block iff each coordinate is in the block's range on its axis. -/
theorem mem_block (t : Fin cfg1.N) (i : S100000x128.Idx) :
    i ∈ ((cfg1.win 2).blk t).view.set ↔ ∀ a : Fin 2, win1_2.index t a * S2000x128.size a ≤ (i a).val ∧ (i a).val < win1_2.index t a * S2000x128.size a + S2000x128.size a := by
  show i ∈ ((View.whole main_v15).slice (win1_2.rect t)).set ↔ _
  rw [View.set_slice_whole, Rect.mem_set_unit]
  exact Iff.rfl

/-- The fifty row blocks cover the result array: row `r` is in block `r / 2000`. -/
theorem covered (i : S100000x128.Idx) :
    ∃ t : Fin cfg1.N, (cfg1.win 2).flush t = true ∧ i ∈ ((cfg1.win 2).blk t).view.set := by
  have hi0 : (i 0).val < 100000 := (i 0).isLt
  have hi1 : (i 1).val < 128 := (i 1).isLt
  obtain ⟨t, ht⟩ := point_of_block ⟨(i 0).val / 2000, by omega⟩
  have ht' : t.val = (i 0).val / 2000 := ht
  obtain ⟨e0, e1, e2, e3, e4, e5, e6⟩ := block_index t
  refine ⟨t, flush1_2 t, ?_⟩
  rw [mem_block]
  intro a
  match a with
  | ⟨0, _⟩ => show win1_2.index t (0 : Fin 2) * 2000 ≤ (i 0).val ∧ (i 0).val < win1_2.index t (0 : Fin 2) * 2000 + 2000; omega
  | ⟨1, _⟩ => show win1_2.index t (1 : Fin 2) * 128 ≤ (i 1).val ∧ (i 1).val < win1_2.index t (1 : Fin 2) * 128 + 128; omega

/-- The result array after the region: the layer's function of the two arrays the region finds. -/
theorem final (c : Dev nD) : (dat1 V c).arrAt 2 cfg1.N = Cert.Gcn.biasRelu (M := 100000) (N := 128) (V c main_v13) (fun j => V c main_v14 (ix2 (0 : Fin 1) (j 0))) :=
  (dat1 V c).arrAt_eq_of_cover 2 _ (fun t _ => flushed_eq V c t) covered

end Cert.KernelIdeal.Region1

end
-- ==== Proof.Region2.lean ====
/-
  The second layer's dense product, from row blocks to the whole array.

  The region multiplies the hidden features `h : [100000, 128]`, fifty row blocks of 2000 rows, by the weights
  `W2 : [128, 128]`, held whole. Row block `t` of the result is the product of row block `t` of `h` with `W2`, so the
  result array is the dense product `h · W2` of the whole arrays the region finds.
-/
import proofs.«120548_j53695681135102_1_alg».proof.Proof.Gen.KernelIdeal.Frame
import proofs.«120548_j53695681135102_1_alg».proof.Proof.Payloads
import proofs.«120548_j53695681135102_1_alg».proof.Proof.LibGcnLayers
import Idealize.ShloMosaic.Lib.Pipeline.Value
import Idealize.ShloMosaic.Lib.ValueIdx

set_option maxRecDepth 16384

noncomputable section

open scoped BigOperators

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Which block of its array each window holds at grid point `t`: the row-tiled operand and the result are at row
    block `t`, the small operand is whole. Decided once over the fifty points. -/
theorem block_index : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 ∧ t.val < 50 :=
  (by decide +kernel : ∀ t : Fin grid2.N, _)

/-- Row block `r` of the result is grid point `r`'s. -/
theorem point_of_block : ∀ r : Fin 50, ∃ t : Fin cfg2.N, t.val = r.val :=
  (by decide +kernel : ∀ r : Fin 50, ∃ t : Fin grid2.N, t.val = r.val)

/-- What grid point `t` writes back is row block `t` of the layer's function of the whole arrays the region finds:
    the body at position `(p, q)` of the block reads row `2000 t + p` of the tiled operand and the small operand whole. -/
theorem flushed_eq (c : Dev nD) (t : Fin cfg2.N) :
    (dat2 V c).flushed 2 t = ((cfg2.win 2).blk t).view.read (Elt Ideal) (Cert.Gcn.mm (M := 100000) (K := 128) (N := 128) (V c main_v15) (V c main_arg6)) := by
  show (cfg2.win 2).cut (grid2.coords t) ((dat2 V c).after 2 t) = _
  rw [after2_2]
  unfold out2_2
  rw [View.canon_unit_zero origin]
  simp only [View.ld_unit_zero (S := S2000x128) origin, View.ld_unit_zero (S := S128x128) origin]
  obtain ⟨e0, e1, e2, e3, e4, e5, e6⟩ := block_index t
  funext j
  obtain ⟨p, q, rfl⟩ : ∃ (p : Fin 2000) (q : Fin 128), j = ix2 p q := ⟨j 0, j 1, eq_ix2 j⟩
  have hrow : t.val * 2000 + p.val < 100000 := by have := p.isLt; omega
  have hemb : ((cfg2.win 2).blk t).view.emb (ix2 p q) = (ix2 ⟨t.val * 2000 + p.val, hrow⟩ q : S100000x128.Idx) := by
    funext a; apply Fin.ext
    match a with
    | ⟨0, _⟩ => show win2_2.index t (0 : Fin 2) * 2000 + 1 * p.val = t.val * 2000 + p.val; omega
    | ⟨1, _⟩ => show win2_2.index t (1 : Fin 2) * 128 + 1 * q.val = q.val; omega
  show k2_pay1 (iblk2 V c 0 t) (iblk2 V c 1 t) (ix2 p q) = (Cert.Gcn.mm (M := 100000) (K := 128) (N := 128) (V c main_v15) (V c main_arg6)) (((cfg2.win 2).blk t).view.emb (ix2 p q))
  refine (Cert.KernelIdeal.Tile.mm2_apply (iblk2 V c 0 t) (iblk2 V c 1 t) p q).trans ?_
  rw [hemb, Cert.Gcn.mm_apply]
  refine Finset.sum_congr rfl fun kk _ => ?_
  have h0 : iblk2 V c 0 t (ix2 p kk) = V c main_v15 (ix2 ⟨t.val * 2000 + p.val, hrow⟩ kk) := by
    show V c main_v15 (((cfg2.win 0).blk t).view.emb (ix2 p kk)) = _
    refine congrArg (V c main_v15) (funext fun a => Fin.ext ?_)
    match a with
    | ⟨0, _⟩ => show win2_0.index t (0 : Fin 2) * 2000 + 1 * p.val = t.val * 2000 + p.val; omega
    | ⟨1, _⟩ => show win2_0.index t (1 : Fin 2) * 128 + 1 * kk.val = kk.val; omega
  have h1 : iblk2 V c 1 t (ix2 kk q) = V c main_arg6 (ix2 kk q) := by
    show V c main_arg6 (((cfg2.win 1).blk t).view.emb (ix2 kk q)) = _
    refine congrArg (V c main_arg6) (funext fun a => Fin.ext ?_)
    match a with
    | ⟨0, _⟩ => show win2_1.index t (0 : Fin 2) * 128 + 1 * kk.val = kk.val; omega
    | ⟨1, _⟩ => show win2_1.index t (1 : Fin 2) * 128 + 1 * q.val = q.val; omega
  rw [h0, h1]

/-- An index of the result array is in point `t`'s block iff each coordinate is in the block's range on its axis. -/
theorem mem_block (t : Fin cfg2.N) (i : S100000x128.Idx) :
    i ∈ ((cfg2.win 2).blk t).view.set ↔ ∀ a : Fin 2, win2_2.index t a * S2000x128.size a ≤ (i a).val ∧ (i a).val < win2_2.index t a * S2000x128.size a + S2000x128.size a := by
  show i ∈ ((View.whole main_v16).slice (win2_2.rect t)).set ↔ _
  rw [View.set_slice_whole, Rect.mem_set_unit]
  exact Iff.rfl

/-- The fifty row blocks cover the result array: row `r` is in block `r / 2000`. -/
theorem covered (i : S100000x128.Idx) :
    ∃ t : Fin cfg2.N, (cfg2.win 2).flush t = true ∧ i ∈ ((cfg2.win 2).blk t).view.set := by
  have hi0 : (i 0).val < 100000 := (i 0).isLt
  have hi1 : (i 1).val < 128 := (i 1).isLt
  obtain ⟨t, ht⟩ := point_of_block ⟨(i 0).val / 2000, by omega⟩
  have ht' : t.val = (i 0).val / 2000 := ht
  obtain ⟨e0, e1, e2, e3, e4, e5, e6⟩ := block_index t
  refine ⟨t, flush2_2 t, ?_⟩
  rw [mem_block]
  intro a
  match a with
  | ⟨0, _⟩ => show win2_2.index t (0 : Fin 2) * 2000 ≤ (i 0).val ∧ (i 0).val < win2_2.index t (0 : Fin 2) * 2000 + 2000; omega
  | ⟨1, _⟩ => show win2_2.index t (1 : Fin 2) * 128 ≤ (i 1).val ∧ (i 1).val < win2_2.index t (1 : Fin 2) * 128 + 128; omega

/-- The result array after the region: the layer's function of the two arrays the region finds. -/
theorem final (c : Dev nD) : (dat2 V c).arrAt 2 cfg2.N = Cert.Gcn.mm (M := 100000) (K := 128) (N := 128) (V c main_v15) (V c main_arg6) :=
  (dat2 V c).arrAt_eq_of_cover 2 _ (fun t _ => flushed_eq V c t) covered

end Cert.KernelIdeal.Region2

end
-- ==== Proof.Region3.lean ====
/-
  The second layer's bias and positive part, from row blocks to the whole array.

  The region takes the aggregated features `[100000, 128]`, fifty row blocks of 2000 rows, and the bias as one row
  `[1, 128]`, held whole. Row block `t` of the result is `max(a + b, 0)` on row block `t` of `a`, so the result array is
  `max(a(i, j) + b(j), 0)` of the whole arrays the region finds.
-/
import proofs.«120548_j53695681135102_1_alg».proof.Proof.Gen.KernelIdeal.Frame
import proofs.«120548_j53695681135102_1_alg».proof.Proof.Payloads
import proofs.«120548_j53695681135102_1_alg».proof.Proof.LibGcnLayers
import Idealize.ShloMosaic.Lib.Pipeline.Value
import Idealize.ShloMosaic.Lib.ValueIdx

set_option maxRecDepth 16384

noncomputable section

open scoped BigOperators

namespace Cert.KernelIdeal.Region3

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Which block of its array each window holds at grid point `t`: the row-tiled operand and the result are at row
    block `t`, the small operand is whole. Decided once over the fifty points. -/
theorem block_index : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 ∧ t.val < 50 :=
  (by decide +kernel : ∀ t : Fin grid3.N, _)

/-- Row block `r` of the result is grid point `r`'s. -/
theorem point_of_block : ∀ r : Fin 50, ∃ t : Fin cfg3.N, t.val = r.val :=
  (by decide +kernel : ∀ r : Fin 50, ∃ t : Fin grid3.N, t.val = r.val)

/-- What grid point `t` writes back is row block `t` of the layer's function of the whole arrays the region finds:
    the body at position `(p, q)` of the block reads row `2000 t + p` of the tiled operand and the small operand whole. -/
theorem flushed_eq (c : Dev nD) (t : Fin cfg3.N) :
    (dat3 V c).flushed 2 t = ((cfg3.win 2).blk t).view.read (Elt Ideal) (Cert.Gcn.biasRelu (M := 100000) (N := 128) (V c main_v29) (fun j => V c main_v30 (ix2 (0 : Fin 1) (j 0)))) := by
  show (cfg3.win 2).cut (grid3.coords t) ((dat3 V c).after 2 t) = _
  rw [after3_2]
  unfold out3_2
  rw [View.canon_unit_zero origin]
  simp only [View.ld_unit_zero (S := S2000x128) origin, View.ld_unit_zero (S := S1x128) origin]
  obtain ⟨e0, e1, e2, e3, e4, e5, e6⟩ := block_index t
  funext j
  obtain ⟨p, q, rfl⟩ : ∃ (p : Fin 2000) (q : Fin 128), j = ix2 p q := ⟨j 0, j 1, eq_ix2 j⟩
  have hrow : t.val * 2000 + p.val < 100000 := by have := p.isLt; omega
  have hemb : ((cfg3.win 2).blk t).view.emb (ix2 p q) = (ix2 ⟨t.val * 2000 + p.val, hrow⟩ q : S100000x128.Idx) := by
    funext a; apply Fin.ext
    match a with
    | ⟨0, _⟩ => show win3_2.index t (0 : Fin 2) * 2000 + 1 * p.val = t.val * 2000 + p.val; omega
    | ⟨1, _⟩ => show win3_2.index t (1 : Fin 2) * 128 + 1 * q.val = q.val; omega
  show k3_pay1 (iblk3 V c 0 t) (iblk3 V c 1 t) (ix2 p q) = (Cert.Gcn.biasRelu (M := 100000) (N := 128) (V c main_v29) (fun j => V c main_v30 (ix2 (0 : Fin 1) (j 0)))) (((cfg3.win 2).blk t).view.emb (ix2 p q))
  refine (Cert.KernelIdeal.Tile.relu3_apply (iblk3 V c 0 t) (iblk3 V c 1 t) p q).trans ?_
  have h0 : ∀ cc : Fin 128, iblk3 V c 0 t (ix2 p cc) = V c main_v29 (ix2 ⟨t.val * 2000 + p.val, hrow⟩ cc) := by
    intro cc
    show V c main_v29 (((cfg3.win 0).blk t).view.emb (ix2 p cc)) = _
    refine congrArg (V c main_v29) (funext fun a => Fin.ext ?_)
    match a with
    | ⟨0, _⟩ => show win3_0.index t (0 : Fin 2) * 2000 + 1 * p.val = t.val * 2000 + p.val; omega
    | ⟨1, _⟩ => show win3_0.index t (1 : Fin 2) * 128 + 1 * cc.val = cc.val; omega
  have h1 : ∀ cc : Fin 128, iblk3 V c 1 t (ix2 (0 : Fin 1) cc) = V c main_v30 (ix2 (0 : Fin 1) cc) := by
    intro cc
    show V c main_v30 (((cfg3.win 1).blk t).view.emb (ix2 (0 : Fin 1) cc)) = _
    refine congrArg (V c main_v30) (funext fun a => Fin.ext ?_)
    match a with
    | ⟨0, _⟩ => show win3_1.index t (0 : Fin 2) * 1 + 1 * 0 = 0; omega
    | ⟨1, _⟩ => show win3_1.index t (1 : Fin 2) * 128 + 1 * cc.val = cc.val; omega
  rw [hemb, Cert.Gcn.biasRelu_apply, h0 q, h1 q]

/-- An index of the result array is in point `t`'s block iff each coordinate is in the block's range on its axis. -/
theorem mem_block (t : Fin cfg3.N) (i : S100000x128.Idx) :
    i ∈ ((cfg3.win 2).blk t).view.set ↔ ∀ a : Fin 2, win3_2.index t a * S2000x128.size a ≤ (i a).val ∧ (i a).val < win3_2.index t a * S2000x128.size a + S2000x128.size a := by
  show i ∈ ((View.whole main_v31).slice (win3_2.rect t)).set ↔ _
  rw [View.set_slice_whole, Rect.mem_set_unit]
  exact Iff.rfl

/-- The fifty row blocks cover the result array: row `r` is in block `r / 2000`. -/
theorem covered (i : S100000x128.Idx) :
    ∃ t : Fin cfg3.N, (cfg3.win 2).flush t = true ∧ i ∈ ((cfg3.win 2).blk t).view.set := by
  have hi0 : (i 0).val < 100000 := (i 0).isLt
  have hi1 : (i 1).val < 128 := (i 1).isLt
  obtain ⟨t, ht⟩ := point_of_block ⟨(i 0).val / 2000, by omega⟩
  have ht' : t.val = (i 0).val / 2000 := ht
  obtain ⟨e0, e1, e2, e3, e4, e5, e6⟩ := block_index t
  refine ⟨t, flush3_2 t, ?_⟩
  rw [mem_block]
  intro a
  match a with
  | ⟨0, _⟩ => show win3_2.index t (0 : Fin 2) * 2000 ≤ (i 0).val ∧ (i 0).val < win3_2.index t (0 : Fin 2) * 2000 + 2000; omega
  | ⟨1, _⟩ => show win3_2.index t (1 : Fin 2) * 128 ≤ (i 1).val ∧ (i 1).val < win3_2.index t (1 : Fin 2) * 128 + 128; omega

/-- The result array after the region: the layer's function of the two arrays the region finds. -/
theorem final (c : Dev nD) : (dat3 V c).arrAt 2 cfg3.N = Cert.Gcn.biasRelu (M := 100000) (N := 128) (V c main_v29) (fun j => V c main_v30 (ix2 (0 : Fin 1) (j 0))) :=
  (dat3 V c).arrAt_eq_of_cover 2 _ (fun t _ => flushed_eq V c t) covered

end Cert.KernelIdeal.Region3

end
-- ==== Proof.Region4.lean ====
/-
  The third layer's dense product, from row blocks to the whole array.

  The region multiplies the hidden features `h : [100000, 128]`, fifty row blocks of 2000 rows, by the weights
  `W3 : [128, 128]`, held whole. Row block `t` of the result is the product of row block `t` of `h` with `W3`, so the
  result array is the dense product `h · W3` of the whole arrays the region finds.
-/
import proofs.«120548_j53695681135102_1_alg».proof.Proof.Gen.KernelIdeal.Frame
import proofs.«120548_j53695681135102_1_alg».proof.Proof.Payloads
import proofs.«120548_j53695681135102_1_alg».proof.Proof.LibGcnLayers
import Idealize.ShloMosaic.Lib.Pipeline.Value
import Idealize.ShloMosaic.Lib.ValueIdx

set_option maxRecDepth 16384

noncomputable section

open scoped BigOperators

namespace Cert.KernelIdeal.Region4

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Which block of its array each window holds at grid point `t`: the row-tiled operand and the result are at row
    block `t`, the small operand is whole. Decided once over the fifty points. -/
theorem block_index : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 ∧ t.val < 50 :=
  (by decide +kernel : ∀ t : Fin grid4.N, _)

/-- Row block `r` of the result is grid point `r`'s. -/
theorem point_of_block : ∀ r : Fin 50, ∃ t : Fin cfg4.N, t.val = r.val :=
  (by decide +kernel : ∀ r : Fin 50, ∃ t : Fin grid4.N, t.val = r.val)

/-- What grid point `t` writes back is row block `t` of the layer's function of the whole arrays the region finds:
    the body at position `(p, q)` of the block reads row `2000 t + p` of the tiled operand and the small operand whole. -/
theorem flushed_eq (c : Dev nD) (t : Fin cfg4.N) :
    (dat4 V c).flushed 2 t = ((cfg4.win 2).blk t).view.read (Elt Ideal) (Cert.Gcn.mm (M := 100000) (K := 128) (N := 128) (V c main_v31) (V c main_arg8)) := by
  show (cfg4.win 2).cut (grid4.coords t) ((dat4 V c).after 2 t) = _
  rw [after4_2]
  unfold out4_2
  rw [View.canon_unit_zero origin]
  simp only [View.ld_unit_zero (S := S2000x128) origin, View.ld_unit_zero (S := S128x128) origin]
  obtain ⟨e0, e1, e2, e3, e4, e5, e6⟩ := block_index t
  funext j
  obtain ⟨p, q, rfl⟩ : ∃ (p : Fin 2000) (q : Fin 128), j = ix2 p q := ⟨j 0, j 1, eq_ix2 j⟩
  have hrow : t.val * 2000 + p.val < 100000 := by have := p.isLt; omega
  have hemb : ((cfg4.win 2).blk t).view.emb (ix2 p q) = (ix2 ⟨t.val * 2000 + p.val, hrow⟩ q : S100000x128.Idx) := by
    funext a; apply Fin.ext
    match a with
    | ⟨0, _⟩ => show win4_2.index t (0 : Fin 2) * 2000 + 1 * p.val = t.val * 2000 + p.val; omega
    | ⟨1, _⟩ => show win4_2.index t (1 : Fin 2) * 128 + 1 * q.val = q.val; omega
  show k4_pay1 (iblk4 V c 0 t) (iblk4 V c 1 t) (ix2 p q) = (Cert.Gcn.mm (M := 100000) (K := 128) (N := 128) (V c main_v31) (V c main_arg8)) (((cfg4.win 2).blk t).view.emb (ix2 p q))
  refine (Cert.KernelIdeal.Tile.mm4_apply (iblk4 V c 0 t) (iblk4 V c 1 t) p q).trans ?_
  rw [hemb, Cert.Gcn.mm_apply]
  refine Finset.sum_congr rfl fun kk _ => ?_
  have h0 : iblk4 V c 0 t (ix2 p kk) = V c main_v31 (ix2 ⟨t.val * 2000 + p.val, hrow⟩ kk) := by
    show V c main_v31 (((cfg4.win 0).blk t).view.emb (ix2 p kk)) = _
    refine congrArg (V c main_v31) (funext fun a => Fin.ext ?_)
    match a with
    | ⟨0, _⟩ => show win4_0.index t (0 : Fin 2) * 2000 + 1 * p.val = t.val * 2000 + p.val; omega
    | ⟨1, _⟩ => show win4_0.index t (1 : Fin 2) * 128 + 1 * kk.val = kk.val; omega
  have h1 : iblk4 V c 1 t (ix2 kk q) = V c main_arg8 (ix2 kk q) := by
    show V c main_arg8 (((cfg4.win 1).blk t).view.emb (ix2 kk q)) = _
    refine congrArg (V c main_arg8) (funext fun a => Fin.ext ?_)
    match a with
    | ⟨0, _⟩ => show win4_1.index t (0 : Fin 2) * 128 + 1 * kk.val = kk.val; omega
    | ⟨1, _⟩ => show win4_1.index t (1 : Fin 2) * 128 + 1 * q.val = q.val; omega
  rw [h0, h1]

/-- An index of the result array is in point `t`'s block iff each coordinate is in the block's range on its axis. -/
theorem mem_block (t : Fin cfg4.N) (i : S100000x128.Idx) :
    i ∈ ((cfg4.win 2).blk t).view.set ↔ ∀ a : Fin 2, win4_2.index t a * S2000x128.size a ≤ (i a).val ∧ (i a).val < win4_2.index t a * S2000x128.size a + S2000x128.size a := by
  show i ∈ ((View.whole main_v32).slice (win4_2.rect t)).set ↔ _
  rw [View.set_slice_whole, Rect.mem_set_unit]
  exact Iff.rfl

/-- The fifty row blocks cover the result array: row `r` is in block `r / 2000`. -/
theorem covered (i : S100000x128.Idx) :
    ∃ t : Fin cfg4.N, (cfg4.win 2).flush t = true ∧ i ∈ ((cfg4.win 2).blk t).view.set := by
  have hi0 : (i 0).val < 100000 := (i 0).isLt
  have hi1 : (i 1).val < 128 := (i 1).isLt
  obtain ⟨t, ht⟩ := point_of_block ⟨(i 0).val / 2000, by omega⟩
  have ht' : t.val = (i 0).val / 2000 := ht
  obtain ⟨e0, e1, e2, e3, e4, e5, e6⟩ := block_index t
  refine ⟨t, flush4_2 t, ?_⟩
  rw [mem_block]
  intro a
  match a with
  | ⟨0, _⟩ => show win4_2.index t (0 : Fin 2) * 2000 ≤ (i 0).val ∧ (i 0).val < win4_2.index t (0 : Fin 2) * 2000 + 2000; omega
  | ⟨1, _⟩ => show win4_2.index t (1 : Fin 2) * 128 ≤ (i 1).val ∧ (i 1).val < win4_2.index t (1 : Fin 2) * 128 + 128; omega

/-- The result array after the region: the layer's function of the two arrays the region finds. -/
theorem final (c : Dev nD) : (dat4 V c).arrAt 2 cfg4.N = Cert.Gcn.mm (M := 100000) (K := 128) (N := 128) (V c main_v31) (V c main_arg8) :=
  (dat4 V c).arrAt_eq_of_cover 2 _ (fun t _ => flushed_eq V c t) covered

end Cert.KernelIdeal.Region4

end
-- ==== Proof.Region5.lean ====
/-
  The third layer's bias and positive part, from row blocks to the whole array.

  The region takes the aggregated features `[100000, 128]`, fifty row blocks of 2000 rows, and the bias as one row
  `[1, 128]`, held whole. Row block `t` of the result is `max(a + b, 0)` on row block `t` of `a`, so the result array is
  `max(a(i, j) + b(j), 0)` of the whole arrays the region finds.
-/
import proofs.«120548_j53695681135102_1_alg».proof.Proof.Gen.KernelIdeal.Frame
import proofs.«120548_j53695681135102_1_alg».proof.Proof.Payloads
import proofs.«120548_j53695681135102_1_alg».proof.Proof.LibGcnLayers
import Idealize.ShloMosaic.Lib.Pipeline.Value
import Idealize.ShloMosaic.Lib.ValueIdx

set_option maxRecDepth 16384

noncomputable section

open scoped BigOperators

namespace Cert.KernelIdeal.Region5

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Which block of its array each window holds at grid point `t`: the row-tiled operand and the result are at row
    block `t`, the small operand is whole. Decided once over the fifty points. -/
theorem block_index : ∀ t : Fin cfg5.N,
    win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 ∧ t.val < 50 :=
  (by decide +kernel : ∀ t : Fin grid5.N, _)

/-- Row block `r` of the result is grid point `r`'s. -/
theorem point_of_block : ∀ r : Fin 50, ∃ t : Fin cfg5.N, t.val = r.val :=
  (by decide +kernel : ∀ r : Fin 50, ∃ t : Fin grid5.N, t.val = r.val)

/-- What grid point `t` writes back is row block `t` of the layer's function of the whole arrays the region finds:
    the body at position `(p, q)` of the block reads row `2000 t + p` of the tiled operand and the small operand whole. -/
theorem flushed_eq (c : Dev nD) (t : Fin cfg5.N) :
    (dat5 V c).flushed 2 t = ((cfg5.win 2).blk t).view.read (Elt Ideal) (Cert.Gcn.biasRelu (M := 100000) (N := 128) (V c main_v45) (fun j => V c main_v46 (ix2 (0 : Fin 1) (j 0)))) := by
  show (cfg5.win 2).cut (grid5.coords t) ((dat5 V c).after 2 t) = _
  rw [after5_2]
  unfold out5_2
  rw [View.canon_unit_zero origin]
  simp only [View.ld_unit_zero (S := S2000x128) origin, View.ld_unit_zero (S := S1x128) origin]
  obtain ⟨e0, e1, e2, e3, e4, e5, e6⟩ := block_index t
  funext j
  obtain ⟨p, q, rfl⟩ : ∃ (p : Fin 2000) (q : Fin 128), j = ix2 p q := ⟨j 0, j 1, eq_ix2 j⟩
  have hrow : t.val * 2000 + p.val < 100000 := by have := p.isLt; omega
  have hemb : ((cfg5.win 2).blk t).view.emb (ix2 p q) = (ix2 ⟨t.val * 2000 + p.val, hrow⟩ q : S100000x128.Idx) := by
    funext a; apply Fin.ext
    match a with
    | ⟨0, _⟩ => show win5_2.index t (0 : Fin 2) * 2000 + 1 * p.val = t.val * 2000 + p.val; omega
    | ⟨1, _⟩ => show win5_2.index t (1 : Fin 2) * 128 + 1 * q.val = q.val; omega
  show k5_pay1 (iblk5 V c 0 t) (iblk5 V c 1 t) (ix2 p q) = (Cert.Gcn.biasRelu (M := 100000) (N := 128) (V c main_v45) (fun j => V c main_v46 (ix2 (0 : Fin 1) (j 0)))) (((cfg5.win 2).blk t).view.emb (ix2 p q))
  refine (Cert.KernelIdeal.Tile.relu5_apply (iblk5 V c 0 t) (iblk5 V c 1 t) p q).trans ?_
  have h0 : ∀ cc : Fin 128, iblk5 V c 0 t (ix2 p cc) = V c main_v45 (ix2 ⟨t.val * 2000 + p.val, hrow⟩ cc) := by
    intro cc
    show V c main_v45 (((cfg5.win 0).blk t).view.emb (ix2 p cc)) = _
    refine congrArg (V c main_v45) (funext fun a => Fin.ext ?_)
    match a with
    | ⟨0, _⟩ => show win5_0.index t (0 : Fin 2) * 2000 + 1 * p.val = t.val * 2000 + p.val; omega
    | ⟨1, _⟩ => show win5_0.index t (1 : Fin 2) * 128 + 1 * cc.val = cc.val; omega
  have h1 : ∀ cc : Fin 128, iblk5 V c 1 t (ix2 (0 : Fin 1) cc) = V c main_v46 (ix2 (0 : Fin 1) cc) := by
    intro cc
    show V c main_v46 (((cfg5.win 1).blk t).view.emb (ix2 (0 : Fin 1) cc)) = _
    refine congrArg (V c main_v46) (funext fun a => Fin.ext ?_)
    match a with
    | ⟨0, _⟩ => show win5_1.index t (0 : Fin 2) * 1 + 1 * 0 = 0; omega
    | ⟨1, _⟩ => show win5_1.index t (1 : Fin 2) * 128 + 1 * cc.val = cc.val; omega
  rw [hemb, Cert.Gcn.biasRelu_apply, h0 q, h1 q]

/-- An index of the result array is in point `t`'s block iff each coordinate is in the block's range on its axis. -/
theorem mem_block (t : Fin cfg5.N) (i : S100000x128.Idx) :
    i ∈ ((cfg5.win 2).blk t).view.set ↔ ∀ a : Fin 2, win5_2.index t a * S2000x128.size a ≤ (i a).val ∧ (i a).val < win5_2.index t a * S2000x128.size a + S2000x128.size a := by
  show i ∈ ((View.whole main_v47).slice (win5_2.rect t)).set ↔ _
  rw [View.set_slice_whole, Rect.mem_set_unit]
  exact Iff.rfl

/-- The fifty row blocks cover the result array: row `r` is in block `r / 2000`. -/
theorem covered (i : S100000x128.Idx) :
    ∃ t : Fin cfg5.N, (cfg5.win 2).flush t = true ∧ i ∈ ((cfg5.win 2).blk t).view.set := by
  have hi0 : (i 0).val < 100000 := (i 0).isLt
  have hi1 : (i 1).val < 128 := (i 1).isLt
  obtain ⟨t, ht⟩ := point_of_block ⟨(i 0).val / 2000, by omega⟩
  have ht' : t.val = (i 0).val / 2000 := ht
  obtain ⟨e0, e1, e2, e3, e4, e5, e6⟩ := block_index t
  refine ⟨t, flush5_2 t, ?_⟩
  rw [mem_block]
  intro a
  match a with
  | ⟨0, _⟩ => show win5_2.index t (0 : Fin 2) * 2000 ≤ (i 0).val ∧ (i 0).val < win5_2.index t (0 : Fin 2) * 2000 + 2000; omega
  | ⟨1, _⟩ => show win5_2.index t (1 : Fin 2) * 128 ≤ (i 1).val ∧ (i 1).val < win5_2.index t (1 : Fin 2) * 128 + 128; omega

/-- The result array after the region: the layer's function of the two arrays the region finds. -/
theorem final (c : Dev nD) : (dat5 V c).arrAt 2 cfg5.N = Cert.Gcn.biasRelu (M := 100000) (N := 128) (V c main_v45) (fun j => V c main_v46 (ix2 (0 : Fin 1) (j 0))) :=
  (dat5 V c).arrAt_eq_of_cover 2 _ (fun t _ => flushed_eq V c t) covered

end Cert.KernelIdeal.Region5

end
-- ==== Proof.Region6.lean ====
/-
  The last layer's dense product, from row blocks to the whole array.

  The region multiplies the hidden features `h : [100000, 128]`, fifty row blocks of 2000 rows, by the weights
  `W4 : [128, 40]`, held whole. Row block `t` of the result is the product of row block `t` of `h` with `W4`, so the
  result array is the dense product `h · W4` of the whole arrays the region finds.
-/
import proofs.«120548_j53695681135102_1_alg».proof.Proof.Gen.KernelIdeal.Frame
import proofs.«120548_j53695681135102_1_alg».proof.Proof.Payloads
import proofs.«120548_j53695681135102_1_alg».proof.Proof.LibGcnLayers
import Idealize.ShloMosaic.Lib.Pipeline.Value
import Idealize.ShloMosaic.Lib.ValueIdx

set_option maxRecDepth 16384

noncomputable section

open scoped BigOperators

namespace Cert.KernelIdeal.Region6

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

theorem origin : (![0, 0] : Fin 2 → Nat) = fun _ => 0 := funext fun a => by fin_cases a <;> rfl

/-- Which block of its array each window holds at grid point `t`: the row-tiled operand and the result are at row
    block `t`, the small operand is whole. Decided once over the fifty points. -/
theorem block_index : ∀ t : Fin cfg6.N,
    win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0 ∧ t.val < 50 :=
  (by decide +kernel : ∀ t : Fin grid6.N, _)

/-- Row block `r` of the result is grid point `r`'s. -/
theorem point_of_block : ∀ r : Fin 50, ∃ t : Fin cfg6.N, t.val = r.val :=
  (by decide +kernel : ∀ r : Fin 50, ∃ t : Fin grid6.N, t.val = r.val)

/-- What grid point `t` writes back is row block `t` of the layer's function of the whole arrays the region finds:
    the body at position `(p, q)` of the block reads row `2000 t + p` of the tiled operand and the small operand whole. -/
theorem flushed_eq (c : Dev nD) (t : Fin cfg6.N) :
    (dat6 V c).flushed 2 t = ((cfg6.win 2).blk t).view.read (Elt Ideal) (Cert.Gcn.mm (M := 100000) (K := 128) (N := 40) (V c main_v47) (V c main_arg10)) := by
  show (cfg6.win 2).cut (grid6.coords t) ((dat6 V c).after 2 t) = _
  rw [after6_2]
  unfold out6_2
  rw [View.canon_unit_zero origin]
  simp only [View.ld_unit_zero (S := S2000x128) origin, View.ld_unit_zero (S := S128x40) origin]
  obtain ⟨e0, e1, e2, e3, e4, e5, e6⟩ := block_index t
  funext j
  obtain ⟨p, q, rfl⟩ : ∃ (p : Fin 2000) (q : Fin 40), j = ix2 p q := ⟨j 0, j 1, eq_ix2 j⟩
  have hrow : t.val * 2000 + p.val < 100000 := by have := p.isLt; omega
  have hemb : ((cfg6.win 2).blk t).view.emb (ix2 p q) = (ix2 ⟨t.val * 2000 + p.val, hrow⟩ q : S100000x40.Idx) := by
    funext a; apply Fin.ext
    match a with
    | ⟨0, _⟩ => show win6_2.index t (0 : Fin 2) * 2000 + 1 * p.val = t.val * 2000 + p.val; omega
    | ⟨1, _⟩ => show win6_2.index t (1 : Fin 2) * 40 + 1 * q.val = q.val; omega
  show k6_pay1 (iblk6 V c 0 t) (iblk6 V c 1 t) (ix2 p q) = (Cert.Gcn.mm (M := 100000) (K := 128) (N := 40) (V c main_v47) (V c main_arg10)) (((cfg6.win 2).blk t).view.emb (ix2 p q))
  refine (Cert.KernelIdeal.Tile.mm6_apply (iblk6 V c 0 t) (iblk6 V c 1 t) p q).trans ?_
  rw [hemb, Cert.Gcn.mm_apply]
  refine Finset.sum_congr rfl fun kk _ => ?_
  have h0 : iblk6 V c 0 t (ix2 p kk) = V c main_v47 (ix2 ⟨t.val * 2000 + p.val, hrow⟩ kk) := by
    show V c main_v47 (((cfg6.win 0).blk t).view.emb (ix2 p kk)) = _
    refine congrArg (V c main_v47) (funext fun a => Fin.ext ?_)
    match a with
    | ⟨0, _⟩ => show win6_0.index t (0 : Fin 2) * 2000 + 1 * p.val = t.val * 2000 + p.val; omega
    | ⟨1, _⟩ => show win6_0.index t (1 : Fin 2) * 128 + 1 * kk.val = kk.val; omega
  have h1 : iblk6 V c 1 t (ix2 kk q) = V c main_arg10 (ix2 kk q) := by
    show V c main_arg10 (((cfg6.win 1).blk t).view.emb (ix2 kk q)) = _
    refine congrArg (V c main_arg10) (funext fun a => Fin.ext ?_)
    match a with
    | ⟨0, _⟩ => show win6_1.index t (0 : Fin 2) * 128 + 1 * kk.val = kk.val; omega
    | ⟨1, _⟩ => show win6_1.index t (1 : Fin 2) * 40 + 1 * q.val = q.val; omega
  rw [h0, h1]

/-- An index of the result array is in point `t`'s block iff each coordinate is in the block's range on its axis. -/
theorem mem_block (t : Fin cfg6.N) (i : S100000x40.Idx) :
    i ∈ ((cfg6.win 2).blk t).view.set ↔ ∀ a : Fin 2, win6_2.index t a * S2000x40.size a ≤ (i a).val ∧ (i a).val < win6_2.index t a * S2000x40.size a + S2000x40.size a := by
  show i ∈ ((View.whole main_v48).slice (win6_2.rect t)).set ↔ _
  rw [View.set_slice_whole, Rect.mem_set_unit]
  exact Iff.rfl

/-- The fifty row blocks cover the result array: row `r` is in block `r / 2000`. -/
theorem covered (i : S100000x40.Idx) :
    ∃ t : Fin cfg6.N, (cfg6.win 2).flush t = true ∧ i ∈ ((cfg6.win 2).blk t).view.set := by
  have hi0 : (i 0).val < 100000 := (i 0).isLt
  have hi1 : (i 1).val < 40 := (i 1).isLt
  obtain ⟨t, ht⟩ := point_of_block ⟨(i 0).val / 2000, by omega⟩
  have ht' : t.val = (i 0).val / 2000 := ht
  obtain ⟨e0, e1, e2, e3, e4, e5, e6⟩ := block_index t
  refine ⟨t, flush6_2 t, ?_⟩
  rw [mem_block]
  intro a
  match a with
  | ⟨0, _⟩ => show win6_2.index t (0 : Fin 2) * 2000 ≤ (i 0).val ∧ (i 0).val < win6_2.index t (0 : Fin 2) * 2000 + 2000; omega
  | ⟨1, _⟩ => show win6_2.index t (1 : Fin 2) * 40 ≤ (i 1).val ∧ (i 1).val < win6_2.index t (1 : Fin 2) * 40 + 40; omega

/-- The result array after the region: the layer's function of the two arrays the region finds. -/
theorem final (c : Dev nD) : (dat6 V c).arrAt 2 cfg6.N = Cert.Gcn.mm (M := 100000) (K := 128) (N := 40) (V c main_v47) (V c main_arg10) :=
  (dat6 V c).arrAt_eq_of_cover 2 _ (fun t _ => flushed_eq V c t) covered

end Cert.KernelIdeal.Region6

end
-- ==== Proof.Region7.lean ====
/-
  The last layer's bias and row-wise log-softmax, from row blocks to the whole array.

  The region takes the aggregated class scores `[100000, 40]`, fifty row blocks of 2000 rows, and the bias as one row
  `[1, 40]`, held whole. Every output entry depends on its own row only — the row's maximum and the row's sum of
  exponentials — and a row lies inside one block, so row block `t` of the result is the log-softmax of row block `t`
  of the biased scores, and the result array is the row-wise log-softmax of the whole arrays the region finds.
-/
import proofs.«120548_j53695681135102_1_alg».proof.Proof.Gen.KernelIdeal.Frame
import proofs.«120548_j53695681135102_1_alg».proof.Proof.Payloads
import proofs.«120548_j53695681135102_1_alg».proof.Proof.LibGcnLayers
import Idealize.ShloMosaic.Lib.Pipeline.Value
import Idealize.ShloMosaic.Lib.ValueIdx

set_option maxRecDepth 16384

noncomputable section

open scoped BigOperators

namespace Cert.KernelIdeal.Region7

open Idealize.ShloMosaic Idealize.ShloMosaic.TcCoe Idealize.ShloMosaic.ValueIdx Idealize.SL.Sem
open Idealize.ShloMosaic.Pipeline (Dat)
open Cert.KernelIdeal Cert.KernelIdeal.Gen

variable (V : (c : Dev nD) → (b : Ref sig .tc) → Buf (Elt Ideal) ((c : Thread nD τ).loc b))

/-- The last body at position `(p, q)` of a block whose row `p` is row `r` of the whole scores: the log-softmax of the
    whole biased scores at `(r, q)`. An entry of a row's log-softmax depends on that row only. -/
theorem logSoftmax_of_row (x0 : Vec Ideal S2000x40 .f32) (x1 : Vec Ideal S1x40 .f32)
    (A : FVec Ideal S100000x40 .f32) (B : FVec Ideal S1x40 .f32) (p : Fin 2000) (r : Fin 100000) (q : Fin 40)
    (h0 : ∀ cc : Fin 40, x0 (ix2 p cc) = A (ix2 r cc))
    (h1 : ∀ cc : Fin 40, x1 (ix2 (0 : Fin 1) cc) = B (ix2 (0 : Fin 1) cc)) :
    k7_pay1 (F := Ideal) x0 x1 (ix2 p q)
      = Cert.Gcn.logSoftmax (M := 100000) (N := 40) A (fun j => B (ix2 (0 : Fin 1) (j 0))) (ix2 r q) := by
  rw [Cert.KernelIdeal.Tile.lsm7_apply]
  have hlog : ∀ cc : Fin 40, Cert.Gcn.logits (M := 2000) (N := 40) x0 (fun j => x1 (ix2 (0 : Fin 1) (j 0))) (ix2 p cc)
      = Cert.Gcn.logits (M := 100000) (N := 40) A (fun j => B (ix2 (0 : Fin 1) (j 0))) (ix2 r cc) := by
    intro cc
    show x0 (ix2 p cc) + x1 (ix2 (0 : Fin 1) cc) = A (ix2 r cc) + B (ix2 (0 : Fin 1) cc)
    rw [h0 cc, h1 cc]
  have hmax : Cert.Gcn.rowMax (Cert.Gcn.logits (M := 2000) (N := 40) x0 (fun j => x1 (ix2 (0 : Fin 1) (j 0)))) p
      = Cert.Gcn.rowMax (Cert.Gcn.logits (M := 100000) (N := 40) A (fun j => B (ix2 (0 : Fin 1) (j 0)))) r := by
    unfold Cert.Gcn.rowMax
    exact congrArg (Finset.fold max Cert.Gcn.negInfWord · Finset.univ) (funext hlog)
  rw [Cert.Gcn.logSoftmax_apply, Cert.Gcn.logSoftmax_apply, hmax, hlog q]
  exact congrArg (fun s => _ - Ideal.log s) (Finset.sum_congr rfl fun kk _ => by rw [hlog kk])

theorem origin : (![0, 0] : Fin 2 → Nat) = fun _ => 0 := funext fun a => by fin_cases a <;> rfl

/-- Which block of its array each window holds at grid point `t`: the row-tiled operand and the result are at row
    block `t`, the small operand is whole. Decided once over the fifty points. -/
theorem block_index : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = t.val ∧ win7_2.index t (1 : Fin 2) = 0 ∧ t.val < 50 :=
  (by decide +kernel : ∀ t : Fin grid7.N, _)

/-- Row block `r` of the result is grid point `r`'s. -/
theorem point_of_block : ∀ r : Fin 50, ∃ t : Fin cfg7.N, t.val = r.val :=
  (by decide +kernel : ∀ r : Fin 50, ∃ t : Fin grid7.N, t.val = r.val)

/-- What grid point `t` writes back is row block `t` of the layer's function of the whole arrays the region finds:
    the body at position `(p, q)` of the block reads row `2000 t + p` of the tiled operand and the small operand whole. -/
theorem flushed_eq (c : Dev nD) (t : Fin cfg7.N) :
    (dat7 V c).flushed 2 t = ((cfg7.win 2).blk t).view.read (Elt Ideal) (Cert.Gcn.logSoftmax (M := 100000) (N := 40) (V c main_v61) (fun j => V c main_v62 (ix2 (0 : Fin 1) (j 0)))) := by
  show (cfg7.win 2).cut (grid7.coords t) ((dat7 V c).after 2 t) = _
  rw [after7_2]
  unfold out7_2
  rw [View.canon_unit_zero origin]
  simp only [View.ld_unit_zero (S := S2000x40) origin, View.ld_unit_zero (S := S1x40) origin]
  obtain ⟨e0, e1, e2, e3, e4, e5, e6⟩ := block_index t
  funext j
  obtain ⟨p, q, rfl⟩ : ∃ (p : Fin 2000) (q : Fin 40), j = ix2 p q := ⟨j 0, j 1, eq_ix2 j⟩
  have hrow : t.val * 2000 + p.val < 100000 := by have := p.isLt; omega
  have hemb : ((cfg7.win 2).blk t).view.emb (ix2 p q) = (ix2 ⟨t.val * 2000 + p.val, hrow⟩ q : S100000x40.Idx) := by
    funext a; apply Fin.ext
    match a with
    | ⟨0, _⟩ => show win7_2.index t (0 : Fin 2) * 2000 + 1 * p.val = t.val * 2000 + p.val; omega
    | ⟨1, _⟩ => show win7_2.index t (1 : Fin 2) * 40 + 1 * q.val = q.val; omega
  show k7_pay1 (iblk7 V c 0 t) (iblk7 V c 1 t) (ix2 p q) = (Cert.Gcn.logSoftmax (M := 100000) (N := 40) (V c main_v61) (fun j => V c main_v62 (ix2 (0 : Fin 1) (j 0)))) (((cfg7.win 2).blk t).view.emb (ix2 p q))
  have h0 : ∀ cc : Fin 40, iblk7 V c 0 t (ix2 p cc) = V c main_v61 (ix2 ⟨t.val * 2000 + p.val, hrow⟩ cc) := by
    intro cc
    show V c main_v61 (((cfg7.win 0).blk t).view.emb (ix2 p cc)) = _
    refine congrArg (V c main_v61) (funext fun a => Fin.ext ?_)
    match a with
    | ⟨0, _⟩ => show win7_0.index t (0 : Fin 2) * 2000 + 1 * p.val = t.val * 2000 + p.val; omega
    | ⟨1, _⟩ => show win7_0.index t (1 : Fin 2) * 40 + 1 * cc.val = cc.val; omega
  have h1 : ∀ cc : Fin 40, iblk7 V c 1 t (ix2 (0 : Fin 1) cc) = V c main_v62 (ix2 (0 : Fin 1) cc) := by
    intro cc
    show V c main_v62 (((cfg7.win 1).blk t).view.emb (ix2 (0 : Fin 1) cc)) = _
    refine congrArg (V c main_v62) (funext fun a => Fin.ext ?_)
    match a with
    | ⟨0, _⟩ => show win7_1.index t (0 : Fin 2) * 1 + 1 * 0 = 0; omega
    | ⟨1, _⟩ => show win7_1.index t (1 : Fin 2) * 40 + 1 * cc.val = cc.val; omega
  rw [hemb]
  exact logSoftmax_of_row (iblk7 V c 0 t) (iblk7 V c 1 t) (V c main_v61) (V c main_v62) p ⟨t.val * 2000 + p.val, hrow⟩ q h0 h1

/-- An index of the result array is in point `t`'s block iff each coordinate is in the block's range on its axis. -/
theorem mem_block (t : Fin cfg7.N) (i : S100000x40.Idx) :
    i ∈ ((cfg7.win 2).blk t).view.set ↔ ∀ a : Fin 2, win7_2.index t a * S2000x40.size a ≤ (i a).val ∧ (i a).val < win7_2.index t a * S2000x40.size a + S2000x40.size a := by
  show i ∈ ((View.whole main_v63).slice (win7_2.rect t)).set ↔ _
  rw [View.set_slice_whole, Rect.mem_set_unit]
  exact Iff.rfl

/-- The fifty row blocks cover the result array: row `r` is in block `r / 2000`. -/
theorem covered (i : S100000x40.Idx) :
    ∃ t : Fin cfg7.N, (cfg7.win 2).flush t = true ∧ i ∈ ((cfg7.win 2).blk t).view.set := by
  have hi0 : (i 0).val < 100000 := (i 0).isLt
  have hi1 : (i 1).val < 40 := (i 1).isLt
  obtain ⟨t, ht⟩ := point_of_block ⟨(i 0).val / 2000, by omega⟩
  have ht' : t.val = (i 0).val / 2000 := ht
  obtain ⟨e0, e1, e2, e3, e4, e5, e6⟩ := block_index t
  refine ⟨t, flush7_2 t, ?_⟩
  rw [mem_block]
  intro a
  match a with
  | ⟨0, _⟩ => show win7_2.index t (0 : Fin 2) * 2000 ≤ (i 0).val ∧ (i 0).val < win7_2.index t (0 : Fin 2) * 2000 + 2000; omega
  | ⟨1, _⟩ => show win7_2.index t (1 : Fin 2) * 40 ≤ (i 1).val ∧ (i 1).val < win7_2.index t (1 : Fin 2) * 40 + 40; omega

/-- The result array after the region: the layer's function of the two arrays the region finds. -/
theorem final (c : Dev nD) : (dat7 V c).arrAt 2 cfg7.N = Cert.Gcn.logSoftmax (M := 100000) (N := 40) (V c main_v61) (fun j => V c main_v62 (ix2 (0 : Fin 1) (j 0))) :=
  (dat7 V c).arrAt_eq_of_cover 2 _ (fun t _ => flushed_eq V c t) covered

end Cert.KernelIdeal.Region7

end
-- ==== Proof.KernelValue.lean ====
/-
  What the idealized kernel returns, as the network's function of the launch arrays.

  The run's contents at the twelve boundaries between segments are read one segment at a time. A region's result array
  is its layer's function of the two arrays it finds (the region modules); a stretch of host operations sends the dense
  product to its aggregation over the edges — gather the source node's row, scale by the edge weight, scatter-add into
  the destination node's row, with a negative node number first shifted by the node count — and lays the bias vector
  out as one row. The aggregation is ONE definition here, applied as a whole and never opened: the reference applies the
  same operations. The arguments a later segment reads are still as launched, because no segment writes an argument.
  Composing the twelve steps gives the four layers
  `logSoftmax (Â · (h₃ · W4) + b4)`, `hₖ = max(Â · (hₖ₋₁ · Wk) + bk, 0)`, `h₀ = x`.
-/
import proofs.«120548_j53695681135102_1_alg».proof.Proof.KernelRun
import proofs.«120548_j53695681135102_1_alg».proof.Proof.Region0
import proofs.«120548_j53695681135102_1_alg».proof.Proof.Region1
import proofs.«120548_j53695681135102_1_alg».proof.Proof.Region2
import proofs.«120548_j53695681135102_1_alg».proof.Proof.Region3
import proofs.«120548_j53695681135102_1_alg».proof.Proof.Region4
import proofs.«120548_j53695681135102_1_alg».proof.Proof.Region5
import proofs.«120548_j53695681135102_1_alg».proof.Proof.Region6
import proofs.«120548_j53695681135102_1_alg».proof.Proof.Region7
import proofs.«120548_j53695681135102_1_alg».proof.Proof.LibGcnLayers
import Idealize.ShloMosaic.Lib.StableHlo.Run
import Idealize.ShloMosaic.Lib.ValueLayout

set_option maxRecDepth 16384

noncomputable section

namespace Cert.KernelIdeal.Net

open Idealize.ShloMosaic Idealize.ShloMosaic.TcCoe Idealize.ShloMosaic.ValueIdx Idealize.SL.Sem Idealize.ShloMosaic.StableHlo
open Idealize.ShloMosaic.Pipeline (Dat)
open Cert.KernelIdeal Cert.KernelIdeal.Gen

/-! ## The aggregation over the edges, as the host operations spell it -/

/-- Each edge carries its source node's 128 features, scaled by the edge's weight, into its destination node's row. -/
def agg128 {F : FTy → Type} [FloatOps F] (row col : IVec S1600000 32) (ew : FVec F S1600000 .f32)
    (s : FVec F S100000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 row)
    (mulf (broadcastInDim S1600000x128 ![0, 1] bcast_S1600000x1_S1600000x128_0_1 (broadcastInDim S1600000x1 ![0] bcast_S1600000_S1600000x1_0 ew))
      (Host.gather gather_S100000x128_S1600000x1_S1600000x128_1_0_n_n_0_1_1128 s
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The same over the 40 class scores of the last layer. -/
def agg40 {F : FTy → Type} [FloatOps F] (row col : IVec S1600000 32) (ew : FVec F S1600000 .f32)
    (s : FVec F S100000x40 .f32) : FVec F S100000x40 .f32 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 row)
    (mulf (broadcastInDim S1600000x40 ![0, 1] bcast_S1600000x1_S1600000x40_0_1 (broadcastInDim S1600000x1 ![0] bcast_S1600000_S1600000x1_0 ew))
      (Host.gather gather_S100000x40_S1600000x1_S1600000x40_1_0_n_n_0_1_140 s
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- A bias vector laid out as one row, read back along that row, is the vector. -/
theorem row_of_cast {n : ℕ} (b : (⟨1, ![n]⟩ : Shape).Idx → EReal) (h : (⟨1, ![n]⟩ : Shape).ShapeCasts ⟨2, ![1, n]⟩) :
    (fun j : (⟨1, ![n]⟩ : Shape).Idx => shapeCast ⟨2, ![1, n]⟩ b h (ix2 (0 : Fin 1) (j 0))) = b := by
  funext j
  obtain ⟨q, rfl⟩ : ∃ q : Fin n, j = ix1 q := ⟨j 0, eq_ix1 j⟩
  exact shapeCast_a_1a_apply b h (0 : Fin 1) q

/-- The network: four layers of dense product, aggregation, bias and activation. -/
def net (row col : IVec S1600000 32) (ew : FVec Ideal S1600000 .f32)
    (x : FVec Ideal S100000x500 .f32)
    (w1 : FVec Ideal S500x128 .f32) (b1 : FVec Ideal S128 .f32)
    (w2 : FVec Ideal S128x128 .f32) (b2 : FVec Ideal S128 .f32)
    (w3 : FVec Ideal S128x128 .f32) (b3 : FVec Ideal S128 .f32)
    (w4 : FVec Ideal S128x40 .f32) (b4 : FVec Ideal S40 .f32) : FVec Ideal S100000x40 .f32 :=
  Cert.Gcn.logSoftmax (M := 100000) (N := 40) (agg40 (F := Ideal) row col ew (Cert.Gcn.mm (M := 100000) (K := 128) (N := 40)
    (Cert.Gcn.biasRelu (M := 100000) (N := 128) (agg128 (F := Ideal) row col ew (Cert.Gcn.mm (M := 100000) (K := 128) (N := 128)
      (Cert.Gcn.biasRelu (M := 100000) (N := 128) (agg128 (F := Ideal) row col ew (Cert.Gcn.mm (M := 100000) (K := 128) (N := 128)
        (Cert.Gcn.biasRelu (M := 100000) (N := 128) (agg128 (F := Ideal) row col ew (Cert.Gcn.mm (M := 100000) (K := 500) (N := 128) x w1)) b1)
        w2)) b2)
      w3)) b3)
    w4)) b4

/-! ## The host stretches, at any contents -/

section Stretches
variable (W : Valuation τ sig (Elt Ideal))

theorem stretch1_agg : StableHlo.after hostOps1 W (Proc.devRef .tc main_v13)
    = agg128 (F := Ideal) (W (Proc.devRef .tc main_arg1)) (W (Proc.devRef .tc main_arg2)) (W (Proc.devRef .tc main_arg3)) (W (Proc.devRef .tc main_v0)) := by
  after_results_simp <;> rfl
theorem stretch1_bias : StableHlo.after hostOps1 W (Proc.devRef .tc main_v14)
    = shapeCast S1x128 (W (Proc.devRef .tc main_arg5)) shapeCasts_S128_S1x128 := by
  after_results_simp <;> rfl
theorem stretch3_agg : StableHlo.after hostOps3 W (Proc.devRef .tc main_v29)
    = agg128 (F := Ideal) (W (Proc.devRef .tc main_arg1)) (W (Proc.devRef .tc main_arg2)) (W (Proc.devRef .tc main_arg3)) (W (Proc.devRef .tc main_v16)) := by
  after_results_simp <;> rfl
theorem stretch3_bias : StableHlo.after hostOps3 W (Proc.devRef .tc main_v30)
    = shapeCast S1x128 (W (Proc.devRef .tc main_arg7)) shapeCasts_S128_S1x128 := by
  after_results_simp <;> rfl
theorem stretch5_agg : StableHlo.after hostOps5 W (Proc.devRef .tc main_v45)
    = agg128 (F := Ideal) (W (Proc.devRef .tc main_arg1)) (W (Proc.devRef .tc main_arg2)) (W (Proc.devRef .tc main_arg3)) (W (Proc.devRef .tc main_v32)) := by
  after_results_simp <;> rfl
theorem stretch5_bias : StableHlo.after hostOps5 W (Proc.devRef .tc main_v46)
    = shapeCast S1x128 (W (Proc.devRef .tc main_arg9)) shapeCasts_S128_S1x128 := by
  after_results_simp <;> rfl
theorem stretch7_agg : StableHlo.after hostOps7 W (Proc.devRef .tc main_v61)
    = agg40 (F := Ideal) (W (Proc.devRef .tc main_arg1)) (W (Proc.devRef .tc main_arg2)) (W (Proc.devRef .tc main_arg3)) (W (Proc.devRef .tc main_v48)) := by
  after_results_simp <;> rfl
theorem stretch7_bias : StableHlo.after hostOps7 W (Proc.devRef .tc main_v62)
    = shapeCast S1x40 (W (Proc.devRef .tc main_arg11)) shapeCasts_S40_S1x40 := by
  after_results_simp <;> rfl

end Stretches

/-! ## The arguments stay as launched -/

variable (m : (ℓ : Loc nD τ sig) → Buf (Elt Ideal) ℓ) (ρ : Dev nD → PrngReg) (c : Dev nD)

/-- At contents `W`, the ten arguments read after the first region hold what they held at launch: the edges' two
    node-number vectors and weights, and each later layer's weights and bias. -/
structure ArgsAt (W : Valuation τ sig (Elt Ideal)) : Prop where
  row : W (Proc.devRef .tc main_arg1) = m ((c.tc : Thread nD τ).loc main_arg1)
  col : W (Proc.devRef .tc main_arg2) = m ((c.tc : Thread nD τ).loc main_arg2)
  ew : W (Proc.devRef .tc main_arg3) = m ((c.tc : Thread nD τ).loc main_arg3)
  b1 : W (Proc.devRef .tc main_arg5) = m ((c.tc : Thread nD τ).loc main_arg5)
  w2 : W (Proc.devRef .tc main_arg6) = m ((c.tc : Thread nD τ).loc main_arg6)
  b2 : W (Proc.devRef .tc main_arg7) = m ((c.tc : Thread nD τ).loc main_arg7)
  w3 : W (Proc.devRef .tc main_arg8) = m ((c.tc : Thread nD τ).loc main_arg8)
  b3 : W (Proc.devRef .tc main_arg9) = m ((c.tc : Thread nD τ).loc main_arg9)
  w4 : W (Proc.devRef .tc main_arg10) = m ((c.tc : Thread nD τ).loc main_arg10)
  b4 : W (Proc.devRef .tc main_arg11) = m ((c.tc : Thread nD τ).loc main_arg11)

theorem args_launch : ArgsAt m c (W0 m ρ c) where
  row := rfl
  col := rfl
  ew := rfl
  b1 := rfl
  w2 := rfl
  b2 := rfl
  w3 := rfl
  b3 := rfl
  w4 := rfl
  b4 := rfl

/-- Region 0 writes only its result array. -/
theorem args_region0 (h : ArgsAt m c (W0 m ρ c)) : ArgsAt m c (W1 m ρ c) where
    row := (W1_of_ne m ρ c main_arg1 (by decide)).trans h.row
    col := (W1_of_ne m ρ c main_arg2 (by decide)).trans h.col
    ew := (W1_of_ne m ρ c main_arg3 (by decide)).trans h.ew
    b1 := (W1_of_ne m ρ c main_arg5 (by decide)).trans h.b1
    w2 := (W1_of_ne m ρ c main_arg6 (by decide)).trans h.w2
    b2 := (W1_of_ne m ρ c main_arg7 (by decide)).trans h.b2
    w3 := (W1_of_ne m ρ c main_arg8 (by decide)).trans h.w3
    b3 := (W1_of_ne m ρ c main_arg9 (by decide)).trans h.b3
    w4 := (W1_of_ne m ρ c main_arg10 (by decide)).trans h.w4
    b4 := (W1_of_ne m ρ c main_arg11 (by decide)).trans h.b4

/-- The host operations between regions write only their own results. -/
theorem args_host1 (h : ArgsAt m c (W1 m ρ c)) : ArgsAt m c (W2 m ρ c) where
    row := (show StableHlo.after hostOps1 (W1 m ρ c) (Proc.devRef .tc main_arg1) = W1 m ρ c (Proc.devRef .tc main_arg1) by after_results_simp).trans h.row
    col := (show StableHlo.after hostOps1 (W1 m ρ c) (Proc.devRef .tc main_arg2) = W1 m ρ c (Proc.devRef .tc main_arg2) by after_results_simp).trans h.col
    ew := (show StableHlo.after hostOps1 (W1 m ρ c) (Proc.devRef .tc main_arg3) = W1 m ρ c (Proc.devRef .tc main_arg3) by after_results_simp).trans h.ew
    b1 := (show StableHlo.after hostOps1 (W1 m ρ c) (Proc.devRef .tc main_arg5) = W1 m ρ c (Proc.devRef .tc main_arg5) by after_results_simp).trans h.b1
    w2 := (show StableHlo.after hostOps1 (W1 m ρ c) (Proc.devRef .tc main_arg6) = W1 m ρ c (Proc.devRef .tc main_arg6) by after_results_simp).trans h.w2
    b2 := (show StableHlo.after hostOps1 (W1 m ρ c) (Proc.devRef .tc main_arg7) = W1 m ρ c (Proc.devRef .tc main_arg7) by after_results_simp).trans h.b2
    w3 := (show StableHlo.after hostOps1 (W1 m ρ c) (Proc.devRef .tc main_arg8) = W1 m ρ c (Proc.devRef .tc main_arg8) by after_results_simp).trans h.w3
    b3 := (show StableHlo.after hostOps1 (W1 m ρ c) (Proc.devRef .tc main_arg9) = W1 m ρ c (Proc.devRef .tc main_arg9) by after_results_simp).trans h.b3
    w4 := (show StableHlo.after hostOps1 (W1 m ρ c) (Proc.devRef .tc main_arg10) = W1 m ρ c (Proc.devRef .tc main_arg10) by after_results_simp).trans h.w4
    b4 := (show StableHlo.after hostOps1 (W1 m ρ c) (Proc.devRef .tc main_arg11) = W1 m ρ c (Proc.devRef .tc main_arg11) by after_results_simp).trans h.b4

/-- Region 1 writes only its result array. -/
theorem args_region1 (h : ArgsAt m c (W2 m ρ c)) : ArgsAt m c (W3 m ρ c) where
    row := (W3_of_ne m ρ c main_arg1 (by decide)).trans h.row
    col := (W3_of_ne m ρ c main_arg2 (by decide)).trans h.col
    ew := (W3_of_ne m ρ c main_arg3 (by decide)).trans h.ew
    b1 := (W3_of_ne m ρ c main_arg5 (by decide)).trans h.b1
    w2 := (W3_of_ne m ρ c main_arg6 (by decide)).trans h.w2
    b2 := (W3_of_ne m ρ c main_arg7 (by decide)).trans h.b2
    w3 := (W3_of_ne m ρ c main_arg8 (by decide)).trans h.w3
    b3 := (W3_of_ne m ρ c main_arg9 (by decide)).trans h.b3
    w4 := (W3_of_ne m ρ c main_arg10 (by decide)).trans h.w4
    b4 := (W3_of_ne m ρ c main_arg11 (by decide)).trans h.b4

/-- Region 2 writes only its result array. -/
theorem args_region2 (h : ArgsAt m c (W3 m ρ c)) : ArgsAt m c (W4 m ρ c) where
    row := (W4_of_ne m ρ c main_arg1 (by decide)).trans h.row
    col := (W4_of_ne m ρ c main_arg2 (by decide)).trans h.col
    ew := (W4_of_ne m ρ c main_arg3 (by decide)).trans h.ew
    b1 := (W4_of_ne m ρ c main_arg5 (by decide)).trans h.b1
    w2 := ((W4_arr m ρ c 1).trans (((dat2 (V3 m ρ) c).arrAt_in 1 rfl _).trans (A_eq2 (V3 m ρ) c 1))).trans h.w2
    b2 := (W4_of_ne m ρ c main_arg7 (by decide)).trans h.b2
    w3 := (W4_of_ne m ρ c main_arg8 (by decide)).trans h.w3
    b3 := (W4_of_ne m ρ c main_arg9 (by decide)).trans h.b3
    w4 := (W4_of_ne m ρ c main_arg10 (by decide)).trans h.w4
    b4 := (W4_of_ne m ρ c main_arg11 (by decide)).trans h.b4

/-- The host operations between regions write only their own results. -/
theorem args_host3 (h : ArgsAt m c (W4 m ρ c)) : ArgsAt m c (W5 m ρ c) where
    row := (show StableHlo.after hostOps3 (W4 m ρ c) (Proc.devRef .tc main_arg1) = W4 m ρ c (Proc.devRef .tc main_arg1) by after_results_simp).trans h.row
    col := (show StableHlo.after hostOps3 (W4 m ρ c) (Proc.devRef .tc main_arg2) = W4 m ρ c (Proc.devRef .tc main_arg2) by after_results_simp).trans h.col
    ew := (show StableHlo.after hostOps3 (W4 m ρ c) (Proc.devRef .tc main_arg3) = W4 m ρ c (Proc.devRef .tc main_arg3) by after_results_simp).trans h.ew
    b1 := (show StableHlo.after hostOps3 (W4 m ρ c) (Proc.devRef .tc main_arg5) = W4 m ρ c (Proc.devRef .tc main_arg5) by after_results_simp).trans h.b1
    w2 := (show StableHlo.after hostOps3 (W4 m ρ c) (Proc.devRef .tc main_arg6) = W4 m ρ c (Proc.devRef .tc main_arg6) by after_results_simp).trans h.w2
    b2 := (show StableHlo.after hostOps3 (W4 m ρ c) (Proc.devRef .tc main_arg7) = W4 m ρ c (Proc.devRef .tc main_arg7) by after_results_simp).trans h.b2
    w3 := (show StableHlo.after hostOps3 (W4 m ρ c) (Proc.devRef .tc main_arg8) = W4 m ρ c (Proc.devRef .tc main_arg8) by after_results_simp).trans h.w3
    b3 := (show StableHlo.after hostOps3 (W4 m ρ c) (Proc.devRef .tc main_arg9) = W4 m ρ c (Proc.devRef .tc main_arg9) by after_results_simp).trans h.b3
    w4 := (show StableHlo.after hostOps3 (W4 m ρ c) (Proc.devRef .tc main_arg10) = W4 m ρ c (Proc.devRef .tc main_arg10) by after_results_simp).trans h.w4
    b4 := (show StableHlo.after hostOps3 (W4 m ρ c) (Proc.devRef .tc main_arg11) = W4 m ρ c (Proc.devRef .tc main_arg11) by after_results_simp).trans h.b4

/-- Region 3 writes only its result array. -/
theorem args_region3 (h : ArgsAt m c (W5 m ρ c)) : ArgsAt m c (W6 m ρ c) where
    row := (W6_of_ne m ρ c main_arg1 (by decide)).trans h.row
    col := (W6_of_ne m ρ c main_arg2 (by decide)).trans h.col
    ew := (W6_of_ne m ρ c main_arg3 (by decide)).trans h.ew
    b1 := (W6_of_ne m ρ c main_arg5 (by decide)).trans h.b1
    w2 := (W6_of_ne m ρ c main_arg6 (by decide)).trans h.w2
    b2 := (W6_of_ne m ρ c main_arg7 (by decide)).trans h.b2
    w3 := (W6_of_ne m ρ c main_arg8 (by decide)).trans h.w3
    b3 := (W6_of_ne m ρ c main_arg9 (by decide)).trans h.b3
    w4 := (W6_of_ne m ρ c main_arg10 (by decide)).trans h.w4
    b4 := (W6_of_ne m ρ c main_arg11 (by decide)).trans h.b4

/-- Region 4 writes only its result array. -/
theorem args_region4 (h : ArgsAt m c (W6 m ρ c)) : ArgsAt m c (W7 m ρ c) where
    row := (W7_of_ne m ρ c main_arg1 (by decide)).trans h.row
    col := (W7_of_ne m ρ c main_arg2 (by decide)).trans h.col
    ew := (W7_of_ne m ρ c main_arg3 (by decide)).trans h.ew
    b1 := (W7_of_ne m ρ c main_arg5 (by decide)).trans h.b1
    w2 := (W7_of_ne m ρ c main_arg6 (by decide)).trans h.w2
    b2 := (W7_of_ne m ρ c main_arg7 (by decide)).trans h.b2
    w3 := ((W7_arr m ρ c 1).trans (((dat4 (V6 m ρ) c).arrAt_in 1 rfl _).trans (A_eq4 (V6 m ρ) c 1))).trans h.w3
    b3 := (W7_of_ne m ρ c main_arg9 (by decide)).trans h.b3
    w4 := (W7_of_ne m ρ c main_arg10 (by decide)).trans h.w4
    b4 := (W7_of_ne m ρ c main_arg11 (by decide)).trans h.b4

/-- The host operations between regions write only their own results. -/
theorem args_host5 (h : ArgsAt m c (W7 m ρ c)) : ArgsAt m c (W8 m ρ c) where
    row := (show StableHlo.after hostOps5 (W7 m ρ c) (Proc.devRef .tc main_arg1) = W7 m ρ c (Proc.devRef .tc main_arg1) by after_results_simp).trans h.row
    col := (show StableHlo.after hostOps5 (W7 m ρ c) (Proc.devRef .tc main_arg2) = W7 m ρ c (Proc.devRef .tc main_arg2) by after_results_simp).trans h.col
    ew := (show StableHlo.after hostOps5 (W7 m ρ c) (Proc.devRef .tc main_arg3) = W7 m ρ c (Proc.devRef .tc main_arg3) by after_results_simp).trans h.ew
    b1 := (show StableHlo.after hostOps5 (W7 m ρ c) (Proc.devRef .tc main_arg5) = W7 m ρ c (Proc.devRef .tc main_arg5) by after_results_simp).trans h.b1
    w2 := (show StableHlo.after hostOps5 (W7 m ρ c) (Proc.devRef .tc main_arg6) = W7 m ρ c (Proc.devRef .tc main_arg6) by after_results_simp).trans h.w2
    b2 := (show StableHlo.after hostOps5 (W7 m ρ c) (Proc.devRef .tc main_arg7) = W7 m ρ c (Proc.devRef .tc main_arg7) by after_results_simp).trans h.b2
    w3 := (show StableHlo.after hostOps5 (W7 m ρ c) (Proc.devRef .tc main_arg8) = W7 m ρ c (Proc.devRef .tc main_arg8) by after_results_simp).trans h.w3
    b3 := (show StableHlo.after hostOps5 (W7 m ρ c) (Proc.devRef .tc main_arg9) = W7 m ρ c (Proc.devRef .tc main_arg9) by after_results_simp).trans h.b3
    w4 := (show StableHlo.after hostOps5 (W7 m ρ c) (Proc.devRef .tc main_arg10) = W7 m ρ c (Proc.devRef .tc main_arg10) by after_results_simp).trans h.w4
    b4 := (show StableHlo.after hostOps5 (W7 m ρ c) (Proc.devRef .tc main_arg11) = W7 m ρ c (Proc.devRef .tc main_arg11) by after_results_simp).trans h.b4

/-- Region 5 writes only its result array. -/
theorem args_region5 (h : ArgsAt m c (W8 m ρ c)) : ArgsAt m c (W9 m ρ c) where
    row := (W9_of_ne m ρ c main_arg1 (by decide)).trans h.row
    col := (W9_of_ne m ρ c main_arg2 (by decide)).trans h.col
    ew := (W9_of_ne m ρ c main_arg3 (by decide)).trans h.ew
    b1 := (W9_of_ne m ρ c main_arg5 (by decide)).trans h.b1
    w2 := (W9_of_ne m ρ c main_arg6 (by decide)).trans h.w2
    b2 := (W9_of_ne m ρ c main_arg7 (by decide)).trans h.b2
    w3 := (W9_of_ne m ρ c main_arg8 (by decide)).trans h.w3
    b3 := (W9_of_ne m ρ c main_arg9 (by decide)).trans h.b3
    w4 := (W9_of_ne m ρ c main_arg10 (by decide)).trans h.w4
    b4 := (W9_of_ne m ρ c main_arg11 (by decide)).trans h.b4

/-- Region 6 writes only its result array. -/
theorem args_region6 (h : ArgsAt m c (W9 m ρ c)) : ArgsAt m c (W10 m ρ c) where
    row := (W10_of_ne m ρ c main_arg1 (by decide)).trans h.row
    col := (W10_of_ne m ρ c main_arg2 (by decide)).trans h.col
    ew := (W10_of_ne m ρ c main_arg3 (by decide)).trans h.ew
    b1 := (W10_of_ne m ρ c main_arg5 (by decide)).trans h.b1
    w2 := (W10_of_ne m ρ c main_arg6 (by decide)).trans h.w2
    b2 := (W10_of_ne m ρ c main_arg7 (by decide)).trans h.b2
    w3 := (W10_of_ne m ρ c main_arg8 (by decide)).trans h.w3
    b3 := (W10_of_ne m ρ c main_arg9 (by decide)).trans h.b3
    w4 := ((W10_arr m ρ c 1).trans (((dat6 (V9 m ρ) c).arrAt_in 1 rfl _).trans (A_eq6 (V9 m ρ) c 1))).trans h.w4
    b4 := (W10_of_ne m ρ c main_arg11 (by decide)).trans h.b4

/-- The host operations between regions write only their own results. -/
theorem args_host7 (h : ArgsAt m c (W10 m ρ c)) : ArgsAt m c (W11 m ρ c) where
    row := (show StableHlo.after hostOps7 (W10 m ρ c) (Proc.devRef .tc main_arg1) = W10 m ρ c (Proc.devRef .tc main_arg1) by after_results_simp).trans h.row
    col := (show StableHlo.after hostOps7 (W10 m ρ c) (Proc.devRef .tc main_arg2) = W10 m ρ c (Proc.devRef .tc main_arg2) by after_results_simp).trans h.col
    ew := (show StableHlo.after hostOps7 (W10 m ρ c) (Proc.devRef .tc main_arg3) = W10 m ρ c (Proc.devRef .tc main_arg3) by after_results_simp).trans h.ew
    b1 := (show StableHlo.after hostOps7 (W10 m ρ c) (Proc.devRef .tc main_arg5) = W10 m ρ c (Proc.devRef .tc main_arg5) by after_results_simp).trans h.b1
    w2 := (show StableHlo.after hostOps7 (W10 m ρ c) (Proc.devRef .tc main_arg6) = W10 m ρ c (Proc.devRef .tc main_arg6) by after_results_simp).trans h.w2
    b2 := (show StableHlo.after hostOps7 (W10 m ρ c) (Proc.devRef .tc main_arg7) = W10 m ρ c (Proc.devRef .tc main_arg7) by after_results_simp).trans h.b2
    w3 := (show StableHlo.after hostOps7 (W10 m ρ c) (Proc.devRef .tc main_arg8) = W10 m ρ c (Proc.devRef .tc main_arg8) by after_results_simp).trans h.w3
    b3 := (show StableHlo.after hostOps7 (W10 m ρ c) (Proc.devRef .tc main_arg9) = W10 m ρ c (Proc.devRef .tc main_arg9) by after_results_simp).trans h.b3
    w4 := (show StableHlo.after hostOps7 (W10 m ρ c) (Proc.devRef .tc main_arg10) = W10 m ρ c (Proc.devRef .tc main_arg10) by after_results_simp).trans h.w4
    b4 := (show StableHlo.after hostOps7 (W10 m ρ c) (Proc.devRef .tc main_arg11) = W10 m ρ c (Proc.devRef .tc main_arg11) by after_results_simp).trans h.b4

theorem args1 : ArgsAt m c (W1 m ρ c) := args_region0 m ρ c (args_launch m ρ c)
theorem args2 : ArgsAt m c (W2 m ρ c) := args_host1 m ρ c (args1 m ρ c)
theorem args3 : ArgsAt m c (W3 m ρ c) := args_region1 m ρ c (args2 m ρ c)
theorem args4 : ArgsAt m c (W4 m ρ c) := args_region2 m ρ c (args3 m ρ c)
theorem args5 : ArgsAt m c (W5 m ρ c) := args_host3 m ρ c (args4 m ρ c)
theorem args6 : ArgsAt m c (W6 m ρ c) := args_region3 m ρ c (args5 m ρ c)
theorem args7 : ArgsAt m c (W7 m ρ c) := args_region4 m ρ c (args6 m ρ c)
theorem args8 : ArgsAt m c (W8 m ρ c) := args_host5 m ρ c (args7 m ρ c)
theorem args9 : ArgsAt m c (W9 m ρ c) := args_region5 m ρ c (args8 m ρ c)
theorem args10 : ArgsAt m c (W10 m ρ c) := args_region6 m ρ c (args9 m ρ c)

/-! ## The value at each boundary -/

/-- The hidden features after layer 1, 2, 3 and the scores of layer 4, as functions of the launch arrays. -/
def s1 : FVec Ideal S100000x128 .f32 :=
  Cert.Gcn.mm (M := 100000) (K := 500) (N := 128) (m ((c.tc : Thread nD τ).loc main_arg0)) (m ((c.tc : Thread nD τ).loc main_arg4))
def h1 : FVec Ideal S100000x128 .f32 :=
  Cert.Gcn.biasRelu (M := 100000) (N := 128) (agg128 (F := Ideal) (m ((c.tc : Thread nD τ).loc main_arg1)) (m ((c.tc : Thread nD τ).loc main_arg2)) (m ((c.tc : Thread nD τ).loc main_arg3)) (s1 m c)) (m ((c.tc : Thread nD τ).loc main_arg5))
def s2 : FVec Ideal S100000x128 .f32 :=
  Cert.Gcn.mm (M := 100000) (K := 128) (N := 128) (h1 m c) (m ((c.tc : Thread nD τ).loc main_arg6))
def h2 : FVec Ideal S100000x128 .f32 :=
  Cert.Gcn.biasRelu (M := 100000) (N := 128) (agg128 (F := Ideal) (m ((c.tc : Thread nD τ).loc main_arg1)) (m ((c.tc : Thread nD τ).loc main_arg2)) (m ((c.tc : Thread nD τ).loc main_arg3)) (s2 m c)) (m ((c.tc : Thread nD τ).loc main_arg7))
def s3 : FVec Ideal S100000x128 .f32 :=
  Cert.Gcn.mm (M := 100000) (K := 128) (N := 128) (h2 m c) (m ((c.tc : Thread nD τ).loc main_arg8))
def h3 : FVec Ideal S100000x128 .f32 :=
  Cert.Gcn.biasRelu (M := 100000) (N := 128) (agg128 (F := Ideal) (m ((c.tc : Thread nD τ).loc main_arg1)) (m ((c.tc : Thread nD τ).loc main_arg2)) (m ((c.tc : Thread nD τ).loc main_arg3)) (s3 m c)) (m ((c.tc : Thread nD τ).loc main_arg9))
def s4 : FVec Ideal S100000x40 .f32 :=
  Cert.Gcn.mm (M := 100000) (K := 128) (N := 40) (h3 m c) (m ((c.tc : Thread nD τ).loc main_arg10))

theorem at1 : W1 m ρ c (Proc.devRef .tc main_v0) = s1 m c :=
  (W1_arr m ρ c 2).trans (Cert.KernelIdeal.Region0.final (V0 m ρ) c)

theorem at3 : W3 m ρ c (Proc.devRef .tc main_v15) = h1 m c := by
  refine (W3_arr m ρ c 2).trans ((Cert.KernelIdeal.Region1.final (V2 m ρ) c).trans ?_)
  show Cert.Gcn.biasRelu (M := 100000) (N := 128) (StableHlo.after hostOps1 (W1 m ρ c) (Proc.devRef .tc main_v13))
    (fun j => StableHlo.after hostOps1 (W1 m ρ c) (Proc.devRef .tc main_v14) (ix2 (0 : Fin 1) (j 0))) = _
  rw [stretch1_agg, stretch1_bias, row_of_cast, at1, (args1 m ρ c).row, (args1 m ρ c).col, (args1 m ρ c).ew, (args1 m ρ c).b1]
  rfl

theorem at4 : W4 m ρ c (Proc.devRef .tc main_v16) = s2 m c := by
  refine (W4_arr m ρ c 2).trans ((Cert.KernelIdeal.Region2.final (V3 m ρ) c).trans ?_)
  show Cert.Gcn.mm (M := 100000) (K := 128) (N := 128) (W3 m ρ c (Proc.devRef .tc main_v15)) (W3 m ρ c (Proc.devRef .tc main_arg6)) = _
  rw [at3, (args3 m ρ c).w2]
  rfl

theorem at6 : W6 m ρ c (Proc.devRef .tc main_v31) = h2 m c := by
  refine (W6_arr m ρ c 2).trans ((Cert.KernelIdeal.Region3.final (V5 m ρ) c).trans ?_)
  show Cert.Gcn.biasRelu (M := 100000) (N := 128) (StableHlo.after hostOps3 (W4 m ρ c) (Proc.devRef .tc main_v29))
    (fun j => StableHlo.after hostOps3 (W4 m ρ c) (Proc.devRef .tc main_v30) (ix2 (0 : Fin 1) (j 0))) = _
  rw [stretch3_agg, stretch3_bias, row_of_cast, at4, (args4 m ρ c).row, (args4 m ρ c).col, (args4 m ρ c).ew, (args4 m ρ c).b2]
  rfl

theorem at7 : W7 m ρ c (Proc.devRef .tc main_v32) = s3 m c := by
  refine (W7_arr m ρ c 2).trans ((Cert.KernelIdeal.Region4.final (V6 m ρ) c).trans ?_)
  show Cert.Gcn.mm (M := 100000) (K := 128) (N := 128) (W6 m ρ c (Proc.devRef .tc main_v31)) (W6 m ρ c (Proc.devRef .tc main_arg8)) = _
  rw [at6, (args6 m ρ c).w3]
  rfl

theorem at9 : W9 m ρ c (Proc.devRef .tc main_v47) = h3 m c := by
  refine (W9_arr m ρ c 2).trans ((Cert.KernelIdeal.Region5.final (V8 m ρ) c).trans ?_)
  show Cert.Gcn.biasRelu (M := 100000) (N := 128) (StableHlo.after hostOps5 (W7 m ρ c) (Proc.devRef .tc main_v45))
    (fun j => StableHlo.after hostOps5 (W7 m ρ c) (Proc.devRef .tc main_v46) (ix2 (0 : Fin 1) (j 0))) = _
  rw [stretch5_agg, stretch5_bias, row_of_cast, at7, (args7 m ρ c).row, (args7 m ρ c).col, (args7 m ρ c).ew, (args7 m ρ c).b3]
  rfl

theorem at10 : W10 m ρ c (Proc.devRef .tc main_v48) = s4 m c := by
  refine (W10_arr m ρ c 2).trans ((Cert.KernelIdeal.Region6.final (V9 m ρ) c).trans ?_)
  show Cert.Gcn.mm (M := 100000) (K := 128) (N := 40) (W9 m ρ c (Proc.devRef .tc main_v47)) (W9 m ρ c (Proc.devRef .tc main_arg10)) = _
  rw [at9, (args9 m ρ c).w4]
  rfl

/-- The result buffer at the end of the run is the network's function of the launch arrays. -/
theorem at12 : W12 m ρ c (Proc.devRef .tc main_v63)
    = net (m ((c.tc : Thread nD τ).loc main_arg1)) (m ((c.tc : Thread nD τ).loc main_arg2)) (m ((c.tc : Thread nD τ).loc main_arg3)) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) := by
  refine (W12_arr m ρ c 2).trans ((Cert.KernelIdeal.Region7.final (V11 m ρ) c).trans ?_)
  show Cert.Gcn.logSoftmax (M := 100000) (N := 40) (StableHlo.after hostOps7 (W10 m ρ c) (Proc.devRef .tc main_v61))
    (fun j => StableHlo.after hostOps7 (W10 m ρ c) (Proc.devRef .tc main_v62) (ix2 (0 : Fin 1) (j 0))) = _
  rw [stretch7_agg, stretch7_bias, row_of_cast, at10, (args10 m ρ c).row, (args10 m ρ c).col, (args10 m ρ c).ew, (args10 m ρ c).b4]
  rfl

/-- The idealized kernel's run: it terminates, returns the network's function of the launch arrays, and leaves the
    arguments as launched. -/
theorem run : θ_run defs (onTc (τ := τ) (main (F := Ideal))) ⟨m, fun _ => 0, ρ⟩ (fun r => ∀ c : Dev nD,
      r.2.mem ((c.tc : Thread nD τ).loc main_v63)
        = net (m ((c.tc : Thread nD τ).loc main_arg1)) (m ((c.tc : Thread nD τ).loc main_arg2)) (m ((c.tc : Thread nD τ).loc main_arg3)) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => ⟨(h c).1.trans (at12 m ρ c), (h c).2⟩) (Cert.KernelIdeal.Result.run m ρ)

end Cert.KernelIdeal.Net

end
-- ==== Proof.LibTypedRef.lean ====
/-
  An inlined call's operations are the plain ones, no program in sight.

  A called function's host operations name their buffers by references that CARRY the tensor type of the value they hold,
  and move the operation's function to the buffers' own types along the equation "the buffer's type is the carried
  type". When that equation is the identity — which it is at every literal reference — the typed operation IS the plain
  builder's at the same buffers with the same function. The proof destructures each typed reference so that the carried
  type becomes, literally, the buffer's type: the transports are then along reflexivity and disappear. The function is
  given twice, at the two spellings of its type (over the carried types, over the buffers' types), and the two are
  related by heterogeneous equality; at literal references that relation is reflexivity, because the two types compute
  to the same one.

  Why bother: a fold of many operations read at a buffer contains one transport per typed operand, and comparing such a
  term with a transport-free one makes the checker recompute a buffer's type from the signature's tables at every
  transport, nested. Entry by entry the same facts cost one such computation per operand. So a list of operations is
  first rewritten, entry by entry, to its plain spelling (the tactic at the end), and only then folded.
-/
import Idealize.ShloMosaic.Lib.StableHlo

namespace Cert.LibTypedRef

open Idealize.ShloMosaic Idealize.ShloMosaic.StableHlo

variable {τ : Topo} {sig : RefSig} {Val : EltTy → Type} {Tx Ta Tb Tc Ty : BufTy}

/-- A typed constant-like operation is the plain one at its buffer, for the same value. -/
theorem tnullary_eq (y : TRef sig Ty) (v : Ty.Contents Val) (w : y.ref.ty.Contents Val) (h : HEq v w) :
    (TRef.nullary y v : HloOp τ sig Val) = StableHlo.nullary y.ref w y.dev := by
  obtain ⟨y, rfl, _, _⟩ := y
  cases h; rfl

/-- A typed one-operand operation is the plain one at its buffers, for the same function. -/
theorem tunary_eq (x : TRef sig Tx) (y : TRef sig Ty) (f : Tx.Contents Val → Ty.Contents Val)
    (g : x.ref.ty.Contents Val → y.ref.ty.Contents Val) (h : HEq f g) :
    (TRef.unary x y f : HloOp τ sig Val) = StableHlo.unary x.ref y.ref g x.dev y.dev := by
  obtain ⟨x, rfl, _, _⟩ := x
  obtain ⟨y, rfl, _, _⟩ := y
  cases h; rfl

/-- A typed two-operand operation is the plain one at its buffers, for the same function. -/
theorem tbinary_eq (a : TRef sig Ta) (b : TRef sig Tb) (y : TRef sig Ty)
    (f : Ta.Contents Val → Tb.Contents Val → Ty.Contents Val)
    (g : a.ref.ty.Contents Val → b.ref.ty.Contents Val → y.ref.ty.Contents Val) (h : HEq f g) :
    (TRef.binary a b y f : HloOp τ sig Val) = StableHlo.binary a.ref b.ref y.ref g a.dev b.dev y.dev := by
  obtain ⟨a, rfl, _, _⟩ := a
  obtain ⟨b, rfl, _, _⟩ := b
  obtain ⟨y, rfl, _, _⟩ := y
  cases h; rfl

/-- A typed three-operand operation is the plain one at its buffers, for the same function. -/
theorem tternary_eq (c : TRef sig Tc) (a : TRef sig Ta) (b : TRef sig Tb) (y : TRef sig Ty)
    (f : Tc.Contents Val → Ta.Contents Val → Tb.Contents Val → Ty.Contents Val)
    (g : c.ref.ty.Contents Val → a.ref.ty.Contents Val → b.ref.ty.Contents Val → y.ref.ty.Contents Val) (h : HEq f g) :
    (TRef.ternary c a b y f : HloOp τ sig Val)
      = StableHlo.ternary c.ref a.ref b.ref y.ref g c.dev a.dev b.dev y.dev := by
  obtain ⟨c, rfl, _, _⟩ := c
  obtain ⟨a, rfl, _, _⟩ := a
  obtain ⟨b, rfl, _, _⟩ := b
  obtain ⟨y, rfl, _, _⟩ := y
  cases h; rfl

/-- Two literal lists of operations are equal entry by entry: an entry spelt the same on both sides by reflexivity
    (at reducible transparency, so that a typed entry is never compared with a plain one by computation), a typed
    operation against its plain spelling by the four lemmas above. Closes `[e₁, …, eₙ] = [p₁, …, pₙ]`. -/
macro "ops_entries" : tactic =>
  `(tactic| repeat (first
      | refine congrArg₂ List.cons (by first
          | with_reducible rfl
          | exact Cert.LibTypedRef.tnullary_eq _ _ _ HEq.rfl
          | exact Cert.LibTypedRef.tunary_eq _ _ _ _ HEq.rfl
          | exact Cert.LibTypedRef.tbinary_eq _ _ _ _ _ HEq.rfl
          | exact Cert.LibTypedRef.tternary_eq _ _ _ _ _ _ HEq.rfl) ?_
      | exact rfl))

end Cert.LibTypedRef
-- ==== Proof.RefOpsPlain.lean ====
/- The reference's 104 host operations, in program order, every reference plain: an operation of an inlined call,
   printed with references that carry their tensor type, is spelt here with the plain builder at the same buffers and
   the same function, ascribed at the carried types. A table of the program's operations, no argument: that this list
   IS the printed one is proved where it is used. -/
import proofs.«120548_j53695681135102_1_alg».proof.Proof.Gen.ReferenceIdeal
import Idealize.ShloMosaic.Lib.StableHlo.Run

noncomputable section

namespace Cert.ReferenceIdeal.RefValue

open Cert.ReferenceIdeal Cert.ReferenceIdeal.Gen Idealize.ShloMosaic Idealize.ShloMosaic.TcCoe Idealize.SL.Sem Idealize.ShloMosaic.StableHlo

variable {F : FTy → Type} [FloatOps F]

/-- @main's 104 operations with every reference plain, at any float values. -/
abbrev opsPlain : List (HloOp τ sig (Elt F)) :=
  [ binary main_arg0 main_arg4 main_v0 ((fun l r => Host.dotGeneral dot_S100000x500_S500x128_S100000x128_1_0_0_1_n_n none l r) : (⟨S100000x500, .f32⟩ : BufTy).Contents (Elt F) → (⟨S500x128, .f32⟩ : BufTy).Contents (Elt F) → (⟨S100000x128, .f32⟩ : BufTy).Contents (Elt F)),
    unary main_arg3 main_v1 (broadcastInDim S1600000x1 ![0] bcast_S1600000_S1600000x1_0 : (⟨S1600000, .f32⟩ : BufTy).Contents (Elt F) → (⟨S1600000x1, .f32⟩ : BufTy).Contents (Elt F)),
    nullary main_c (constantI S_ 32 0#32),
    unary main_c main_v2 (broadcastInDim S1600000 ![] bcast_S_S1600000 : (⟨S_, .i32⟩ : BufTy).Contents (Elt F) → (⟨S1600000, .i32⟩ : BufTy).Contents (Elt F)),
    binary main_arg2 main_v2 main_v3 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v4 (broadcastInDim S1600000 ![] bcast_S_S1600000 : (⟨S_, .i32⟩ : BufTy).Contents (Elt F) → (⟨S1600000, .i32⟩ : BufTy).Contents (Elt F)),
    binary main_arg2 main_v4 main_v5 (addi : (⟨S1600000, .i32⟩ : BufTy).Contents (Elt F) → (⟨S1600000, .i32⟩ : BufTy).Contents (Elt F) → (⟨S1600000, .i32⟩ : BufTy).Contents (Elt F)),
    ternary main_v3 main_v5 main_arg2 main_v6 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v6 main_v7 (broadcastInDim S1600000x1 ![0] bcast_S1600000_S1600000x1_0 : (⟨S1600000, .i32⟩ : BufTy).Contents (Elt F) → (⟨S1600000x1, .i32⟩ : BufTy).Contents (Elt F)),
    binary main_v0 main_v7 main_v8 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v1 main_v9 (broadcastInDim S1600000x128 ![0, 1] bcast_S1600000x1_S1600000x128_0_1 : (⟨S1600000x1, .f32⟩ : BufTy).Contents (Elt F) → (⟨S1600000x128, .f32⟩ : BufTy).Contents (Elt F)),
    binary main_v9 main_v8 main_v10 (mulf : (⟨S1600000x128, .f32⟩ : BufTy).Contents (Elt F) → (⟨S1600000x128, .f32⟩ : BufTy).Contents (Elt F) → (⟨S1600000x128, .f32⟩ : BufTy).Contents (Elt F)),
    nullary main_cst (constant S_ .f32 0x00000000#32),
    unary main_cst main_v11 (broadcastInDim S100000x128 ![] bcast_S_S100000x128 : (⟨S_, .f32⟩ : BufTy).Contents (Elt F) → (⟨S100000x128, .f32⟩ : BufTy).Contents (Elt F)),
    unary main_arg1 main_v12 (broadcastInDim S1600000x1 ![0] bcast_S1600000_S1600000x1_0 : (⟨S1600000, .i32⟩ : BufTy).Contents (Elt F) → (⟨S1600000x1, .i32⟩ : BufTy).Contents (Elt F)),
    ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg5 main_v14 (broadcastInDim S1x128 ![1] bcast_S128_S1x128_1 : (⟨S128, .f32⟩ : BufTy).Contents (Elt F) → (⟨S1x128, .f32⟩ : BufTy).Contents (Elt F)),
    unary main_v14 main_v15 (broadcastInDim S100000x128 ![0, 1] bcast_S1x128_S100000x128_0_1 : (⟨S1x128, .f32⟩ : BufTy).Contents (Elt F) → (⟨S100000x128, .f32⟩ : BufTy).Contents (Elt F)),
    binary main_v13 main_v15 main_v16 (addf : (⟨S100000x128, .f32⟩ : BufTy).Contents (Elt F) → (⟨S100000x128, .f32⟩ : BufTy).Contents (Elt F) → (⟨S100000x128, .f32⟩ : BufTy).Contents (Elt F)),
    nullary main_call0_cst ((constant S_ .f32 0x00000000#32) : (⟨S_, .f32⟩ : BufTy).Contents (Elt F)),
    unary main_call0_cst main_call0_v0 ((broadcastInDim S100000x128 ![] bcast_S_S100000x128) : (⟨S_, .f32⟩ : BufTy).Contents (Elt F) → (⟨S100000x128, .f32⟩ : BufTy).Contents (Elt F)),
    binary main_v16 main_call0_v0 main_v17 (maximumf : (⟨S100000x128, .f32⟩ : BufTy).Contents (Elt F) → (⟨S100000x128, .f32⟩ : BufTy).Contents (Elt F) → (⟨S100000x128, .f32⟩ : BufTy).Contents (Elt F)),
    binary main_v17 main_arg6 main_v18 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v19 (broadcastInDim S1600000x1 ![0] bcast_S1600000_S1600000x1_0 : (⟨S1600000, .f32⟩ : BufTy).Contents (Elt F) → (⟨S1600000x1, .f32⟩ : BufTy).Contents (Elt F)),
    nullary main_c_1 (constantI S_ 32 0#32),
    unary main_c_1 main_v20 (broadcastInDim S1600000 ![] bcast_S_S1600000 : (⟨S_, .i32⟩ : BufTy).Contents (Elt F) → (⟨S1600000, .i32⟩ : BufTy).Contents (Elt F)),
    binary main_arg2 main_v20 main_v21 (cmpi .slt : (⟨S1600000, .i32⟩ : BufTy).Contents (Elt F) → (⟨S1600000, .i32⟩ : BufTy).Contents (Elt F) → (⟨S1600000, .i1⟩ : BufTy).Contents (Elt F)),
    nullary main_c_2 (constantI S_ 32 100000#32),
    unary main_c_2 main_v22 (broadcastInDim S1600000 ![] bcast_S_S1600000 : (⟨S_, .i32⟩ : BufTy).Contents (Elt F) → (⟨S1600000, .i32⟩ : BufTy).Contents (Elt F)),
    binary main_arg2 main_v22 main_v23 (addi : (⟨S1600000, .i32⟩ : BufTy).Contents (Elt F) → (⟨S1600000, .i32⟩ : BufTy).Contents (Elt F) → (⟨S1600000, .i32⟩ : BufTy).Contents (Elt F)),
    ternary main_v21 main_v23 main_arg2 main_v24 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v24 main_v25 (broadcastInDim S1600000x1 ![0] bcast_S1600000_S1600000x1_0 : (⟨S1600000, .i32⟩ : BufTy).Contents (Elt F) → (⟨S1600000x1, .i32⟩ : BufTy).Contents (Elt F)),
    binary main_v18 main_v25 main_v26 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v19 main_v27 (broadcastInDim S1600000x128 ![0, 1] bcast_S1600000x1_S1600000x128_0_1 : (⟨S1600000x1, .f32⟩ : BufTy).Contents (Elt F) → (⟨S1600000x128, .f32⟩ : BufTy).Contents (Elt F)),
    binary main_v27 main_v26 main_v28 (mulf : (⟨S1600000x128, .f32⟩ : BufTy).Contents (Elt F) → (⟨S1600000x128, .f32⟩ : BufTy).Contents (Elt F) → (⟨S1600000x128, .f32⟩ : BufTy).Contents (Elt F)),
    nullary main_cst_3 (constant S_ .f32 0x00000000#32),
    unary main_cst_3 main_v29 (broadcastInDim S100000x128 ![] bcast_S_S100000x128 : (⟨S_, .f32⟩ : BufTy).Contents (Elt F) → (⟨S100000x128, .f32⟩ : BufTy).Contents (Elt F)),
    unary main_arg1 main_v30 (broadcastInDim S1600000x1 ![0] bcast_S1600000_S1600000x1_0 : (⟨S1600000, .i32⟩ : BufTy).Contents (Elt F) → (⟨S1600000x1, .i32⟩ : BufTy).Contents (Elt F)),
    ternary main_v29 main_v30 main_v28 main_v31 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg7 main_v32 (broadcastInDim S1x128 ![1] bcast_S128_S1x128_1 : (⟨S128, .f32⟩ : BufTy).Contents (Elt F) → (⟨S1x128, .f32⟩ : BufTy).Contents (Elt F)),
    unary main_v32 main_v33 (broadcastInDim S100000x128 ![0, 1] bcast_S1x128_S100000x128_0_1 : (⟨S1x128, .f32⟩ : BufTy).Contents (Elt F) → (⟨S100000x128, .f32⟩ : BufTy).Contents (Elt F)),
    binary main_v31 main_v33 main_v34 (addf : (⟨S100000x128, .f32⟩ : BufTy).Contents (Elt F) → (⟨S100000x128, .f32⟩ : BufTy).Contents (Elt F) → (⟨S100000x128, .f32⟩ : BufTy).Contents (Elt F)),
    nullary main_call1_cst ((constant S_ .f32 0x00000000#32) : (⟨S_, .f32⟩ : BufTy).Contents (Elt F)),
    unary main_call1_cst main_call1_v0 ((broadcastInDim S100000x128 ![] bcast_S_S100000x128) : (⟨S_, .f32⟩ : BufTy).Contents (Elt F) → (⟨S100000x128, .f32⟩ : BufTy).Contents (Elt F)),
    binary main_v34 main_call1_v0 main_v35 (maximumf : (⟨S100000x128, .f32⟩ : BufTy).Contents (Elt F) → (⟨S100000x128, .f32⟩ : BufTy).Contents (Elt F) → (⟨S100000x128, .f32⟩ : BufTy).Contents (Elt F)),
    binary main_v35 main_arg8 main_v36 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    unary main_arg3 main_v37 (broadcastInDim S1600000x1 ![0] bcast_S1600000_S1600000x1_0 : (⟨S1600000, .f32⟩ : BufTy).Contents (Elt F) → (⟨S1600000x1, .f32⟩ : BufTy).Contents (Elt F)),
    nullary main_c_4 (constantI S_ 32 0#32),
    unary main_c_4 main_v38 (broadcastInDim S1600000 ![] bcast_S_S1600000 : (⟨S_, .i32⟩ : BufTy).Contents (Elt F) → (⟨S1600000, .i32⟩ : BufTy).Contents (Elt F)),
    binary main_arg2 main_v38 main_v39 (cmpi .slt : (⟨S1600000, .i32⟩ : BufTy).Contents (Elt F) → (⟨S1600000, .i32⟩ : BufTy).Contents (Elt F) → (⟨S1600000, .i1⟩ : BufTy).Contents (Elt F)),
    nullary main_c_5 (constantI S_ 32 100000#32),
    unary main_c_5 main_v40 (broadcastInDim S1600000 ![] bcast_S_S1600000 : (⟨S_, .i32⟩ : BufTy).Contents (Elt F) → (⟨S1600000, .i32⟩ : BufTy).Contents (Elt F)),
    binary main_arg2 main_v40 main_v41 (addi : (⟨S1600000, .i32⟩ : BufTy).Contents (Elt F) → (⟨S1600000, .i32⟩ : BufTy).Contents (Elt F) → (⟨S1600000, .i32⟩ : BufTy).Contents (Elt F)),
    ternary main_v39 main_v41 main_arg2 main_v42 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v42 main_v43 (broadcastInDim S1600000x1 ![0] bcast_S1600000_S1600000x1_0 : (⟨S1600000, .i32⟩ : BufTy).Contents (Elt F) → (⟨S1600000x1, .i32⟩ : BufTy).Contents (Elt F)),
    binary main_v36 main_v43 main_v44 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    unary main_v37 main_v45 (broadcastInDim S1600000x128 ![0, 1] bcast_S1600000x1_S1600000x128_0_1 : (⟨S1600000x1, .f32⟩ : BufTy).Contents (Elt F) → (⟨S1600000x128, .f32⟩ : BufTy).Contents (Elt F)),
    binary main_v45 main_v44 main_v46 (mulf : (⟨S1600000x128, .f32⟩ : BufTy).Contents (Elt F) → (⟨S1600000x128, .f32⟩ : BufTy).Contents (Elt F) → (⟨S1600000x128, .f32⟩ : BufTy).Contents (Elt F)),
    nullary main_cst_6 (constant S_ .f32 0x00000000#32),
    unary main_cst_6 main_v47 (broadcastInDim S100000x128 ![] bcast_S_S100000x128 : (⟨S_, .f32⟩ : BufTy).Contents (Elt F) → (⟨S100000x128, .f32⟩ : BufTy).Contents (Elt F)),
    unary main_arg1 main_v48 (broadcastInDim S1600000x1 ![0] bcast_S1600000_S1600000x1_0 : (⟨S1600000, .i32⟩ : BufTy).Contents (Elt F) → (⟨S1600000x1, .i32⟩ : BufTy).Contents (Elt F)),
    ternary main_v47 main_v48 main_v46 main_v49 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    unary main_arg9 main_v50 (broadcastInDim S1x128 ![1] bcast_S128_S1x128_1 : (⟨S128, .f32⟩ : BufTy).Contents (Elt F) → (⟨S1x128, .f32⟩ : BufTy).Contents (Elt F)),
    unary main_v50 main_v51 (broadcastInDim S100000x128 ![0, 1] bcast_S1x128_S100000x128_0_1 : (⟨S1x128, .f32⟩ : BufTy).Contents (Elt F) → (⟨S100000x128, .f32⟩ : BufTy).Contents (Elt F)),
    binary main_v49 main_v51 main_v52 (addf : (⟨S100000x128, .f32⟩ : BufTy).Contents (Elt F) → (⟨S100000x128, .f32⟩ : BufTy).Contents (Elt F) → (⟨S100000x128, .f32⟩ : BufTy).Contents (Elt F)),
    nullary main_call2_cst ((constant S_ .f32 0x00000000#32) : (⟨S_, .f32⟩ : BufTy).Contents (Elt F)),
    unary main_call2_cst main_call2_v0 ((broadcastInDim S100000x128 ![] bcast_S_S100000x128) : (⟨S_, .f32⟩ : BufTy).Contents (Elt F) → (⟨S100000x128, .f32⟩ : BufTy).Contents (Elt F)),
    binary main_v52 main_call2_v0 main_v53 (maximumf : (⟨S100000x128, .f32⟩ : BufTy).Contents (Elt F) → (⟨S100000x128, .f32⟩ : BufTy).Contents (Elt F) → (⟨S100000x128, .f32⟩ : BufTy).Contents (Elt F)),
    binary main_v53 main_arg10 main_v54 ((fun l r => Host.dotGeneral dot_S100000x128_S128x40_S100000x40_1_0_0_1_n_n none l r) : (⟨S100000x128, .f32⟩ : BufTy).Contents (Elt F) → (⟨S128x40, .f32⟩ : BufTy).Contents (Elt F) → (⟨S100000x40, .f32⟩ : BufTy).Contents (Elt F)),
    unary main_arg3 main_v55 (broadcastInDim S1600000x1 ![0] bcast_S1600000_S1600000x1_0 : (⟨S1600000, .f32⟩ : BufTy).Contents (Elt F) → (⟨S1600000x1, .f32⟩ : BufTy).Contents (Elt F)),
    nullary main_c_7 (constantI S_ 32 0#32),
    unary main_c_7 main_v56 (broadcastInDim S1600000 ![] bcast_S_S1600000 : (⟨S_, .i32⟩ : BufTy).Contents (Elt F) → (⟨S1600000, .i32⟩ : BufTy).Contents (Elt F)),
    binary main_arg2 main_v56 main_v57 (cmpi .slt : (⟨S1600000, .i32⟩ : BufTy).Contents (Elt F) → (⟨S1600000, .i32⟩ : BufTy).Contents (Elt F) → (⟨S1600000, .i1⟩ : BufTy).Contents (Elt F)),
    nullary main_c_8 (constantI S_ 32 100000#32),
    unary main_c_8 main_v58 (broadcastInDim S1600000 ![] bcast_S_S1600000 : (⟨S_, .i32⟩ : BufTy).Contents (Elt F) → (⟨S1600000, .i32⟩ : BufTy).Contents (Elt F)),
    binary main_arg2 main_v58 main_v59 (addi : (⟨S1600000, .i32⟩ : BufTy).Contents (Elt F) → (⟨S1600000, .i32⟩ : BufTy).Contents (Elt F) → (⟨S1600000, .i32⟩ : BufTy).Contents (Elt F)),
    ternary main_v57 main_v59 main_arg2 main_v60 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v60 main_v61 (broadcastInDim S1600000x1 ![0] bcast_S1600000_S1600000x1_0 : (⟨S1600000, .i32⟩ : BufTy).Contents (Elt F) → (⟨S1600000x1, .i32⟩ : BufTy).Contents (Elt F)),
    binary main_v54 main_v61 main_v62 ((fun x i => Host.gather gather_S100000x40_S1600000x1_S1600000x40_1_0_n_n_0_1_140 x i) : (⟨S100000x40, .f32⟩ : BufTy).Contents (Elt F) → (⟨S1600000x1, .i32⟩ : BufTy).Contents (Elt F) → (⟨S1600000x40, .f32⟩ : BufTy).Contents (Elt F)),
    unary main_v55 main_v63 (broadcastInDim S1600000x40 ![0, 1] bcast_S1600000x1_S1600000x40_0_1 : (⟨S1600000x1, .f32⟩ : BufTy).Contents (Elt F) → (⟨S1600000x40, .f32⟩ : BufTy).Contents (Elt F)),
    binary main_v63 main_v62 main_v64 (mulf : (⟨S1600000x40, .f32⟩ : BufTy).Contents (Elt F) → (⟨S1600000x40, .f32⟩ : BufTy).Contents (Elt F) → (⟨S1600000x40, .f32⟩ : BufTy).Contents (Elt F)),
    nullary main_cst_9 (constant S_ .f32 0x00000000#32),
    unary main_cst_9 main_v65 (broadcastInDim S100000x40 ![] bcast_S_S100000x40 : (⟨S_, .f32⟩ : BufTy).Contents (Elt F) → (⟨S100000x40, .f32⟩ : BufTy).Contents (Elt F)),
    unary main_arg1 main_v66 (broadcastInDim S1600000x1 ![0] bcast_S1600000_S1600000x1_0 : (⟨S1600000, .i32⟩ : BufTy).Contents (Elt F) → (⟨S1600000x1, .i32⟩ : BufTy).Contents (Elt F)),
    ternary main_v65 main_v66 main_v64 main_v67 ((fun x i u => Host.scatterAdd scatter_S100000x40_S1600000x1_S1600000x40_1_0_0_1 x i u) : (⟨S100000x40, .f32⟩ : BufTy).Contents (Elt F) → (⟨S1600000x1, .i32⟩ : BufTy).Contents (Elt F) → (⟨S1600000x40, .f32⟩ : BufTy).Contents (Elt F) → (⟨S100000x40, .f32⟩ : BufTy).Contents (Elt F)),
    unary main_arg11 main_v68 (broadcastInDim S1x40 ![1] bcast_S40_S1x40_1 : (⟨S40, .f32⟩ : BufTy).Contents (Elt F) → (⟨S1x40, .f32⟩ : BufTy).Contents (Elt F)),
    unary main_v68 main_v69 (broadcastInDim S100000x40 ![0, 1] bcast_S1x40_S100000x40_0_1 : (⟨S1x40, .f32⟩ : BufTy).Contents (Elt F) → (⟨S100000x40, .f32⟩ : BufTy).Contents (Elt F)),
    binary main_v67 main_v69 main_v70 (addf : (⟨S100000x40, .f32⟩ : BufTy).Contents (Elt F) → (⟨S100000x40, .f32⟩ : BufTy).Contents (Elt F) → (⟨S100000x40, .f32⟩ : BufTy).Contents (Elt F)),
    nullary main_call3_cst ((constant S_ .f32 0xFF800000#32) : (⟨S_, .f32⟩ : BufTy).Contents (Elt F)),
    binary main_v70 main_call3_cst main_call3_v0 ((fun x v => Host.reduce FloatOps.maximumf x v reducesTo_S100000x40_S100000_d1 h_S_) : (⟨S100000x40, .f32⟩ : BufTy).Contents (Elt F) → (⟨S_, .f32⟩ : BufTy).Contents (Elt F) → (⟨S100000, .f32⟩ : BufTy).Contents (Elt F)),
    nullary main_call3_cst_0 ((constant S_ .f32 0xFF800000#32) : (⟨S_, .f32⟩ : BufTy).Contents (Elt F)),
    unary main_call3_cst_0 main_call3_v1 ((broadcastInDim S100000 ![] bcast_S_S100000) : (⟨S_, .f32⟩ : BufTy).Contents (Elt F) → (⟨S100000, .f32⟩ : BufTy).Contents (Elt F)),
    binary main_call3_v1 main_call3_v0 main_call3_v2 (maximumf : (⟨S100000, .f32⟩ : BufTy).Contents (Elt F) → (⟨S100000, .f32⟩ : BufTy).Contents (Elt F) → (⟨S100000, .f32⟩ : BufTy).Contents (Elt F)),
    unary main_call3_v2 main_call3_v3 ((broadcastInDim S100000x1 ![0] bcast_S100000_S100000x1_0) : (⟨S100000, .f32⟩ : BufTy).Contents (Elt F) → (⟨S100000x1, .f32⟩ : BufTy).Contents (Elt F)),
    unary main_call3_v3 main_call3_v4 ((broadcastInDim S100000x40 ![0, 1] bcast_S100000x1_S100000x40_0_1) : (⟨S100000x1, .f32⟩ : BufTy).Contents (Elt F) → (⟨S100000x40, .f32⟩ : BufTy).Contents (Elt F)),
    binary main_v70 main_call3_v4 main_call3_v5 (subf : (⟨S100000x40, .f32⟩ : BufTy).Contents (Elt F) → (⟨S100000x40, .f32⟩ : BufTy).Contents (Elt F) → (⟨S100000x40, .f32⟩ : BufTy).Contents (Elt F)),
    unary main_call3_v5 main_call3_v6 (Host.exp : (⟨S100000x40, .f32⟩ : BufTy).Contents (Elt F) → (⟨S100000x40, .f32⟩ : BufTy).Contents (Elt F)),
    nullary main_call3_cst_1 ((constant S_ .f32 0x00000000#32) : (⟨S_, .f32⟩ : BufTy).Contents (Elt F)),
    binary main_call3_v6 main_call3_cst_1 main_call3_v7 ((fun x v => Host.reduceAdd x v reducesTo_S100000x40_S100000_d1 h_S_) : (⟨S100000x40, .f32⟩ : BufTy).Contents (Elt F) → (⟨S_, .f32⟩ : BufTy).Contents (Elt F) → (⟨S100000, .f32⟩ : BufTy).Contents (Elt F)),
    unary main_call3_v7 main_call3_v8 ((broadcastInDim S100000x1 ![0] bcast_S100000_S100000x1_0) : (⟨S100000, .f32⟩ : BufTy).Contents (Elt F) → (⟨S100000x1, .f32⟩ : BufTy).Contents (Elt F)),
    unary main_call3_v8 main_call3_v9 (Host.log : (⟨S100000x1, .f32⟩ : BufTy).Contents (Elt F) → (⟨S100000x1, .f32⟩ : BufTy).Contents (Elt F)),
    unary main_call3_v9 main_call3_v10 ((broadcastInDim S100000x40 ![0, 1] bcast_S100000x1_S100000x40_0_1) : (⟨S100000x1, .f32⟩ : BufTy).Contents (Elt F) → (⟨S100000x40, .f32⟩ : BufTy).Contents (Elt F)),
    binary main_call3_v5 main_call3_v10 main_v71 (subf : (⟨S100000x40, .f32⟩ : BufTy).Contents (Elt F) → (⟨S100000x40, .f32⟩ : BufTy).Contents (Elt F) → (⟨S100000x40, .f32⟩ : BufTy).Contents (Elt F)) ]

end Cert.ReferenceIdeal.RefValue

end
-- ==== Proof.LibHostMatmulNN.lean ====
/-
  A host program's matrix product `A · B` and a vector broadcast along the rows of a matrix, read at an index on the
  extended reals.

  `stablehlo.dot_general` of an `[M, K]` by a `[K, N]` operand — the left operand's last axis contracted with the right
  operand's first, no batch axes (jnp `x @ W`; dimension numbers `[1] x [0]`, free axes `[0]` and `[1]`) — is, at
  `(i, j)`, the sum over `k : Fin K` of `A(i, k) · B(k, j)`: the host's schedule of the additions does not matter on
  the extended reals. Stated for ANY record of dimension numbers with those six lists (each hypothesis closed by `rfl`
  at a printed record); imports only the Idealize library. `stablehlo.broadcast_in_dim` of a vector `[b]` to `[a, b]` along axis 1 (jnp `broadcast_to` of a
  bias or of one row of features to every row) reads, at `(p, c)`, the vector at `c`.
-/
import Idealize.ShloMosaic.Lib.ValueIdx
import Idealize.ShloMosaic.Lib.Pipeline.Value
import Idealize.ShloMosaic.PureOps.Ideal.Laws

noncomputable section

open scoped BigOperators

namespace Cert.LibHostMatmulNN

open Idealize.ShloMosaic Idealize.ShloMosaic.ValueIdx

variable {M N K : Nat}

/-- Two coordinates of one index at equal positions are equal, however the positions are spelt. -/
theorem coord_congr {s : Shape} (j : s.Idx) (a b : Nat) (ha : a < s.rank) (hb : b < s.rank) (e : a = b) :
    (j ⟨a, ha⟩).val = (j ⟨b, hb⟩).val := by
  subst e; rfl

/-- The left operand's row is the result's row. -/
theorem lhsIdx_row (d : DotDims ⟨2, ![M, K]⟩ ⟨2, ![K, N]⟩ ⟨2, ![M, N]⟩)
    (hlb : d.lhsBatch = []) (hln : d.lhsNonContracting = [0])
    (j : (⟨2, ![M, N]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  rw [Fin.val_cast]
  exact coord_congr j _ 0 _ (by show 0 < 2; omega) (by rw [hlb, hln]; rfl)

/-- The right operand's column is the result's column. -/
theorem rhsIdx_col (d : DotDims ⟨2, ![M, K]⟩ ⟨2, ![K, N]⟩ ⟨2, ![M, N]⟩)
    (hlb : d.lhsBatch = []) (hrb : d.rhsBatch = []) (hln : d.lhsNonContracting = [0]) (hrn : d.rhsNonContracting = [1])
    (j : (⟨2, ![M, N]⟩ : Shape).Idx) (k : d.contr.Idx) : (d.rhsIdx j k 1).val = (j 1).val := by
  unfold DotDims.rhsIdx
  rw [dif_neg (by rw [hrb]; exact List.not_mem_nil), dif_pos (by rw [hrn]; exact List.mem_singleton.mpr rfl)]
  rw [Fin.val_cast]
  exact coord_congr j _ 1 _ (by show 1 < 2; omega) (by rw [hlb, hln, hrn]; rfl)

/-- The contraction ranges over one axis, of extent `K`. -/
theorem contr_rank (d : DotDims ⟨2, ![M, K]⟩ ⟨2, ![K, N]⟩ ⟨2, ![M, N]⟩) (hlc : d.lhsContracting = [1]) :
    d.contr.rank = 1 := by
  rw [d.rank_contr, hlc]; rfl

theorem contr_size (d : DotDims ⟨2, ![M, K]⟩ ⟨2, ![K, N]⟩ ⟨2, ![M, N]⟩) (hlc : d.lhsContracting = [1]) :
    d.contr.size ⟨0, by rw [contr_rank d hlc]; exact Nat.one_pos⟩ = K := by
  rw [d.size_contr 0 (by rw [hlc]; exact Nat.one_pos), List.getElem_of_eq hlc]
  rfl

/-- The host's `A · B`, at `(i, j)`, is `Σ_k A[i, k] · B[k, j]`. -/
theorem hostDot_nn_apply {φ₁ φ₂ : FTy} (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (prec : Option ContractPrecision) (A : FVec Ideal ⟨2, ![M, K]⟩ φ₁) (B : FVec Ideal ⟨2, ![K, N]⟩ φ₂)
    (i : Fin M) (j : Fin N) :
    Host.dotGeneral d prec A B (ix2 i j) = ∑ k : Fin K, A (ix2 i k) * B (ix2 k j) := by
  have hr := contr_rank d hlc
  have hs := contr_size d hlc
  simp only [Host.dotGeneral]
  rw [Ideal.dotGeneral_apply, ← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact lhsIdx_row d hlb hln _ _
    | ⟨1, _⟩ => exact (d.lhsIdx_val_of_single hlc _ _).trans hk)
  have er : d.rhsIdx (ix2 i j) ((contrEquiv1 d K hr hs).symm k) = ix2 k j := funext fun a => Fin.ext (by
    match a with
    | ⟨0, _⟩ => exact (d.rhsIdx_val_of_single hrc _ _).trans hk
    | ⟨1, _⟩ => exact rhsIdx_col d hlb hrb hln hrn _ _)
  rw [el, er]

/-- A vector `[b]` broadcast to `[a, b]` along the rows reads, at `(p, c)`, the vector at `c`. -/
theorem broadcastInDim_b_ab_apply {α : Type} {a b : ℕ} (dims : Fin 1 → Fin 2)
    (h : (⟨1, ![b]⟩ : Shape).BroadcastsInDim ⟨2, ![a, b]⟩ dims) (hd : dims 0 = 1)
    (v : (⟨1, ![b]⟩ : Shape).Idx → α) (p : Fin a) (c : Fin b) :
    broadcastInDim ⟨2, ![a, b]⟩ dims h v (ix2 p c) = v (ix1 c) := by
  refine broadcastInDim_apply dims h v (ix2 p c) (ix1 c) fun ax => ?_
  match ax with
  | ⟨0, _⟩ =>
    show c.val = if b = 1 then 0 else (ix2 p c (dims 0)).val
    rw [hd]
    show c.val = if b = 1 then 0 else c.val
    split
    · have := c.isLt; omega
    · rfl

end Cert.LibHostMatmulNN

end
-- ==== Proof.LibHostLayers.lean ====
/-
  The dense pieces of a graph network layer as a host program spells them, on the extended reals.

  `stablehlo.dot_general` of an `[M, K]` by a `[K, N]` operand is the dense product `Cert.Gcn.mm`; a bias vector laid
  out as a row, broadcast down the rows and added gives the logits `Cert.Gcn.logits`; their `max` with a broadcast zero
  is `Cert.Gcn.biasRelu`; and the body of `jax.nn.log_softmax` along the rows — the row maxima by a `reduce` of `max` from
  `-∞` and one more `max` with `-∞`, kept as a column and broadcast back (`maxBack`), subtracted; the exponentials' row
  sums by a `reduce` of `add` from zero, kept as a column, their logarithm broadcast back, subtracted — is
  `Cert.Gcn.logSoftmax`. Each is an equation between whole arrays, for any extents and any evidence of the shape
  facts; every float-polymorphic operation is pinned to the extended reals, since an operand given as a plain function
  into them does not determine the instance.
-/
import proofs.«120548_j53695681135102_1_alg».proof.Proof.LibHostMatmulNN
import proofs.«120548_j53695681135102_1_alg».proof.Proof.LibHostKeepdims
import proofs.«120548_j53695681135102_1_alg».proof.Proof.LibGcnLayers
import Idealize.ShloMosaic.Lib.ValueIdx
import Idealize.ShloMosaic.Lib.Pipeline.Value
import Idealize.ShloMosaic.PureOps.Ideal.Laws

noncomputable section

open scoped BigOperators

namespace Cert.LibHostLayers

open Idealize.ShloMosaic Idealize.ShloMosaic.ValueIdx

variable {M K N : ℕ}

/-- The host's product of whole arrays is the dense product. -/
theorem dot_eq_mm (d : DotDims ⟨2, ![M, K]⟩ ⟨2, ![K, N]⟩ ⟨2, ![M, N]⟩)
    (hlc : d.lhsContracting = [1]) (hrc : d.rhsContracting = [0])
    (hln : d.lhsNonContracting = [0]) (hrn : d.rhsNonContracting = [1])
    (hlb : d.lhsBatch = []) (hrb : d.rhsBatch = [])
    (A : FVec Ideal ⟨2, ![M, K]⟩ .f32) (B : FVec Ideal ⟨2, ![K, N]⟩ .f32) :
    Host.dotGeneral (F := Ideal) d none A B = Cert.Gcn.mm A B := by
  funext i
  obtain ⟨p, q, rfl⟩ : ∃ (p : Fin M) (q : Fin N), i = ix2 p q := ⟨i 0, i 1, eq_ix2 i⟩
  exact Cert.LibHostMatmulNN.hostDot_nn_apply d hlc hrc hln hrn hlb hrb none A B p q

/-- The bias laid out as a row and broadcast down the rows, added: the logits. -/
theorem add_bias_eq (h1 : (⟨1, ![N]⟩ : Shape).BroadcastsInDim ⟨2, ![1, N]⟩ ![1])
    (h2 : (⟨2, ![1, N]⟩ : Shape).BroadcastsInDim ⟨2, ![M, N]⟩ ![0, 1])
    (a : FVec Ideal ⟨2, ![M, N]⟩ .f32) (b : FVec Ideal ⟨1, ![N]⟩ .f32) :
    addf (F := Ideal) a (broadcastInDim ⟨2, ![M, N]⟩ ![0, 1] h2 (broadcastInDim ⟨2, ![1, N]⟩ ![1] h1 b)) = Cert.Gcn.logits a b := by
  funext i
  obtain ⟨p, q, rfl⟩ : ∃ (p : Fin M) (q : Fin N), i = ix2 p q := ⟨i 0, i 1, eq_ix2 i⟩
  show a (ix2 p q) + broadcastInDim ⟨2, ![M, N]⟩ ![0, 1] h2 (broadcastInDim ⟨2, ![1, N]⟩ ![1] h1 b) (ix2 p q) = _
  rw [broadcastInDim_1b_ab_apply ![0, 1] h2 rfl, broadcastInDim_b_1b_apply ![1] h1 rfl]
  rfl

/-- The logits' positive part, against a broadcast zero. -/
theorem relu_eq (h0 : (⟨0, ![]⟩ : Shape).BroadcastsInDim ⟨2, ![M, N]⟩ ![])
    (a : FVec Ideal ⟨2, ![M, N]⟩ .f32) (b : FVec Ideal ⟨1, ![N]⟩ .f32) :
    maximumf (F := Ideal) (Cert.Gcn.logits a b) (broadcastInDim ⟨2, ![M, N]⟩ ![] h0 (constant (F := Ideal) ⟨0, ![]⟩ .f32 0x00000000#32))
      = Cert.Gcn.biasRelu a b := by
  funext i
  show max (Cert.Gcn.logits a b i) (broadcastInDim ⟨2, ![M, N]⟩ ![] h0 (constant (F := Ideal) ⟨0, ![]⟩ .f32 0x00000000#32) i) = _
  rw [broadcastInDim_scalar_apply]
  rfl

/-- Folding `max` from a value never goes below that value. -/
theorem max_fold_self {ι : Type} (s : Finset ι) (w : EReal) (f : ι → EReal) : max w (s.fold max w f) = s.fold max w f :=
  max_eq_right ((Finset.le_fold_max w).mpr (Or.inl le_rfl))

/-- The host's exponential and logarithm, read at an index. -/
theorem hostExp_apply {s : Shape} {φ : FTy} (a : FVec Ideal s φ) (i : s.Idx) : Host.exp (F := Ideal) a i = Ideal.exp (a i) := rfl
theorem hostLog_apply {s : Shape} {φ : FTy} (a : FVec Ideal s φ) (i : s.Idx) : Host.log (F := Ideal) a i = Ideal.log (a i) := rfl

/-- The rows' maxima as the host computes them — a `reduce` of `max` from `-∞`, once more `max` with `-∞` — kept as a
    column and broadcast back along the rows. -/
def maxBack (hr' : (⟨2, ![M, N]⟩ : Shape).ReducesTo [1] ⟨1, ![M]⟩) (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (z : FVec Ideal ⟨2, ![M, N]⟩ .f32) : FVec Ideal ⟨2, ![M, N]⟩ .f32 :=
  broadcastInDim ⟨2, ![M, N]⟩ ![0, 1] h2 (broadcastInDim ⟨2, ![M, 1]⟩ ![0] h1
    (maximumf (F := Ideal) (broadcastInDim ⟨1, ![M]⟩ ![] h0 (constant (F := Ideal) ⟨0, ![]⟩ .f32 0xFF800000#32))
      (Host.reduce (FloatOps.maximumf (F := Ideal) (φ := .f32)) z (constant (F := Ideal) ⟨0, ![]⟩ .f32 0xFF800000#32) hr' hu)))

/-- Read anywhere in row `p`, it is the row's maximum. -/
theorem maxBack_apply (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (z : FVec Ideal ⟨2, ![M, N]⟩ .f32) (p : Fin M) (c : Fin N) :
    maxBack hr' hu h0 h1 h2 z (ix2 p c) = Cert.Gcn.rowMax z p := by
  unfold maxBack
  rw [broadcastInDim_a1_ab_apply ![0, 1] h2 rfl, broadcastInDim_a_a1_apply ![0] h1 rfl, maximumf_apply,
    broadcastInDim_scalar_apply, hostReduce_max_rows_apply z _ hr' hr hu p]
  exact max_fold_self _ _ _

/-- The body of `log_softmax` on a matrix `z`, as the host spells it, read at `(p, q)`. -/
theorem logSoftmax_host (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (z : FVec Ideal ⟨2, ![M, N]⟩ .f32) (p : Fin M) (q : Fin N) :
    subf (F := Ideal) (subf (F := Ideal) z (maxBack hr' hu h0 h1 h2 z))
      (broadcastInDim ⟨2, ![M, N]⟩ ![0, 1] h2 (Host.log (F := Ideal) (broadcastInDim ⟨2, ![M, 1]⟩ ![0] h1
        (Host.reduceAdd (F := Ideal) (Host.exp (F := Ideal) (subf (F := Ideal) z (maxBack hr' hu h0 h1 h2 z)))
          (constant (F := Ideal) ⟨0, ![]⟩ .f32 0x00000000#32) hr' hu)))) (ix2 p q)
    = (z (ix2 p q) - Cert.Gcn.rowMax z p) - Ideal.log (∑ k : Fin N, Ideal.exp (z (ix2 p k) - Cert.Gcn.rowMax z p)) := by
  rw [subf_apply, subf_apply, maxBack_apply hr' hr hu h0 h1 h2 z p q, broadcastInDim_a1_ab_apply ![0, 1] h2 rfl,
    hostLog_apply, broadcastInDim_a_a1_apply ![0] h1 rfl, hostReduceAdd_rows_apply _ _ hr' hr hu p, constant_apply,
    Ideal.ofBits_zero_f32, zero_add]
  refine congrArg (fun s => (z (ix2 p q) - Cert.Gcn.rowMax z p) - Ideal.log s) (Finset.sum_congr rfl fun k _ => ?_)
  rw [hostExp_apply, subf_apply, maxBack_apply hr' hr hu h0 h1 h2 z p k]

/-- On the logits it is the row-wise log-softmax. -/
theorem logSoftmax_eq (hr' : (⟨2, ![M, N]⟩ : Shape).ReducesTo [1] ⟨1, ![M]⟩) (hr : (⟨2, ![M, N]⟩ : Shape).Reduces [1] ⟨1, ![M]⟩)
    (hu : 0 < (⟨0, ![]⟩ : Shape).numel)
    (h0 : (⟨0, ![]⟩ : Shape).BroadcastsInDim ⟨1, ![M]⟩ ![])
    (h1 : (⟨1, ![M]⟩ : Shape).BroadcastsInDim ⟨2, ![M, 1]⟩ ![0])
    (h2 : (⟨2, ![M, 1]⟩ : Shape).BroadcastsInDim ⟨2, ![M, N]⟩ ![0, 1])
    (a : FVec Ideal ⟨2, ![M, N]⟩ .f32) (b : FVec Ideal ⟨1, ![N]⟩ .f32) :
    subf (F := Ideal) (subf (F := Ideal) (Cert.Gcn.logits a b) (maxBack hr' hu h0 h1 h2 (Cert.Gcn.logits a b)))
      (broadcastInDim ⟨2, ![M, N]⟩ ![0, 1] h2 (Host.log (F := Ideal) (broadcastInDim ⟨2, ![M, 1]⟩ ![0] h1
        (Host.reduceAdd (F := Ideal) (Host.exp (F := Ideal) (subf (F := Ideal) (Cert.Gcn.logits a b) (maxBack hr' hu h0 h1 h2 (Cert.Gcn.logits a b))))
          (constant (F := Ideal) ⟨0, ![]⟩ .f32 0x00000000#32) hr' hu))))
    = Cert.Gcn.logSoftmax a b := by
  funext i
  obtain ⟨p, q, rfl⟩ : ∃ (p : Fin M) (q : Fin N), i = ix2 p q := ⟨i 0, i 1, eq_ix2 i⟩
  exact logSoftmax_host hr' hr hu h0 h1 h2 (Cert.Gcn.logits a b) p q

end Cert.LibHostLayers

end
-- ==== Proof.RefValue.lean ====
/-
  What the idealized reference returns, as the network's function of the launch arrays.

  The reference is a straight line of host operations, and its run is read back as one closed term of the argument
  arrays. Three kinds of sub-term are recognised in it, each as a function of whole arrays on the extended reals:
  `dot_general` of an `[M, K]` by a `[K, N]` operand is the dense product (the order in which the host adds does
  not matter there); the bias broadcast `[N] → [1, N] → [M, N]`, added, then `max` with a broadcast zero, is the bias
  and positive part; and the body of `log_softmax` — the row maximum (a `reduce` of `max` from `-∞`, then one
  more `max` with `-∞`, which changes nothing), kept as a column and broadcast back, subtracted; the exponentials'
  row sum (a `reduce` of `add` from zero), kept as a column, its logarithm broadcast back, subtracted — is the
  row-wise log-softmax. What is left between them, the gather / scale / scatter-add over the edges, is wrapped whole in
  one definition and never opened.

  The run itself is the library's straight-line run: every buffer ends at the fold of the 104 operations over the
  launch contents. Two functions the reference calls are printed inline with references that carry their tensor type;
  their operations are first shown equal, entry by entry, to the same operations over plain references (the carried
  type is the buffer's own type, so nothing moves), and only then is the fold read at the result buffer — in one pass
  that recognises the three dense pieces and the aggregation as it goes, so that the term read back is the network
  and nothing larger.
-/
import proofs.«120548_j53695681135102_1_alg».proof.Proof.RefRunP
import proofs.«120548_j53695681135102_1_alg».proof.Proof.LibTypedRef
import proofs.«120548_j53695681135102_1_alg».proof.Proof.RefOpsPlain
import Idealize.ShloMosaic.Lib.StableHlo.Run
import proofs.«120548_j53695681135102_1_alg».proof.Proof.LibHostMatmulNN
import proofs.«120548_j53695681135102_1_alg».proof.Proof.LibHostKeepdims
import proofs.«120548_j53695681135102_1_alg».proof.Proof.LibHostLayers
import proofs.«120548_j53695681135102_1_alg».proof.Proof.LibGcnLayers
import Idealize.ShloMosaic.Lib.ValueIdx
import Idealize.ShloMosaic.Lib.Pipeline.Value
import Idealize.ShloMosaic.PureOps.Ideal.Laws

set_option maxRecDepth 16384

noncomputable section

open scoped BigOperators

namespace Cert.ReferenceIdeal.RefValue

open Idealize.ShloMosaic Idealize.ShloMosaic.TcCoe Idealize.ShloMosaic.ValueIdx Idealize.SL.Sem Idealize.ShloMosaic.StableHlo
open Cert.ReferenceIdeal Cert.ReferenceIdeal.Gen Cert.LibHostLayers

/-! ## The same at the program's records -/

theorem dot1 (A : FVec Ideal S100000x500 .f32) (B : FVec Ideal S500x128 .f32) :
    Host.dotGeneral (F := Ideal) dot_S100000x500_S500x128_S100000x128_1_0_0_1_n_n none A B = Cert.Gcn.mm (M := 100000) (K := 500) (N := 128) A B :=
  dot_eq_mm _ rfl rfl rfl rfl rfl rfl A B
theorem dot2 (A : FVec Ideal S100000x128 .f32) (B : FVec Ideal S128x128 .f32) :
    Host.dotGeneral (F := Ideal) dot_S100000x128_S128x128_S100000x128_1_0_0_1_n_n none A B = Cert.Gcn.mm (M := 100000) (K := 128) (N := 128) A B :=
  dot_eq_mm _ rfl rfl rfl rfl rfl rfl A B
theorem dot3 (A : FVec Ideal S100000x128 .f32) (B : FVec Ideal S128x40 .f32) :
    Host.dotGeneral (F := Ideal) dot_S100000x128_S128x40_S100000x40_1_0_0_1_n_n none A B = Cert.Gcn.mm (M := 100000) (K := 128) (N := 40) A B :=
  dot_eq_mm _ rfl rfl rfl rfl rfl rfl A B

theorem bias128 (a : FVec Ideal S100000x128 .f32) (b : FVec Ideal S128 .f32) :
    addf (F := Ideal) a (broadcastInDim S100000x128 ![0, 1] bcast_S1x128_S100000x128_0_1 (broadcastInDim S1x128 ![1] bcast_S128_S1x128_1 b))
      = Cert.Gcn.logits (M := 100000) (N := 128) a b :=
  add_bias_eq _ _ a b
theorem bias40 (a : FVec Ideal S100000x40 .f32) (b : FVec Ideal S40 .f32) :
    addf (F := Ideal) a (broadcastInDim S100000x40 ![0, 1] bcast_S1x40_S100000x40_0_1 (broadcastInDim S1x40 ![1] bcast_S40_S1x40_1 b))
      = Cert.Gcn.logits (M := 100000) (N := 40) a b :=
  add_bias_eq _ _ a b

theorem relu128 (a : FVec Ideal S100000x128 .f32) (b : FVec Ideal S128 .f32) :
    maximumf (F := Ideal) (Cert.Gcn.logits (M := 100000) (N := 128) a b) (broadcastInDim S100000x128 ![] bcast_S_S100000x128 (constant (F := Ideal) S_ .f32 0x00000000#32))
      = Cert.Gcn.biasRelu (M := 100000) (N := 128) a b :=
  relu_eq _ a b

theorem lsm40 (a : FVec Ideal S100000x40 .f32) (b : FVec Ideal S40 .f32) :
    subf (F := Ideal) (subf (F := Ideal) (Cert.Gcn.logits (M := 100000) (N := 40) a b) (broadcastInDim S100000x40 ![0, 1] bcast_S100000x1_S100000x40_0_1 (broadcastInDim S100000x1 ![0] bcast_S100000_S100000x1_0
        (maximumf (F := Ideal) (broadcastInDim S100000 ![] bcast_S_S100000 (constant (F := Ideal) S_ .f32 0xFF800000#32))
          (Host.reduce (FloatOps.maximumf (F := Ideal) (φ := .f32)) (Cert.Gcn.logits (M := 100000) (N := 40) a b) (constant (F := Ideal) S_ .f32 0xFF800000#32) reducesTo_S100000x40_S100000_d1 h_S_)))))
      (broadcastInDim S100000x40 ![0, 1] bcast_S100000x1_S100000x40_0_1 (Host.log (F := Ideal) (broadcastInDim S100000x1 ![0] bcast_S100000_S100000x1_0
        (Host.reduceAdd (F := Ideal) (Host.exp (F := Ideal) (subf (F := Ideal) (Cert.Gcn.logits (M := 100000) (N := 40) a b) (broadcastInDim S100000x40 ![0, 1] bcast_S100000x1_S100000x40_0_1 (broadcastInDim S100000x1 ![0] bcast_S100000_S100000x1_0
          (maximumf (F := Ideal) (broadcastInDim S100000 ![] bcast_S_S100000 (constant (F := Ideal) S_ .f32 0xFF800000#32))
            (Host.reduce (FloatOps.maximumf (F := Ideal) (φ := .f32)) (Cert.Gcn.logits (M := 100000) (N := 40) a b) (constant (F := Ideal) S_ .f32 0xFF800000#32) reducesTo_S100000x40_S100000_d1 h_S_))))))
          (constant (F := Ideal) S_ .f32 0x00000000#32) reducesTo_S100000x40_S100000_d1 h_S_))))
    = Cert.Gcn.logSoftmax (M := 100000) (N := 40) a b :=
  logSoftmax_eq reducesTo_S100000x40_S100000_d1 (by decide) h_S_ bcast_S_S100000 bcast_S100000_S100000x1_0 bcast_S100000x1_S100000x40_0_1 a b

/-! ## The aggregation over the edges, as the host operations spell it -/

/-- Each edge carries its source node's 128 features, scaled by the edge's weight, into its destination node's row. -/
def agg128 {F : FTy → Type} [FloatOps F] (row col : IVec S1600000 32) (ew : FVec F S1600000 .f32)
    (s : FVec F S100000x128 .f32) : FVec F S100000x128 .f32 :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 row)
    (mulf (broadcastInDim S1600000x128 ![0, 1] bcast_S1600000x1_S1600000x128_0_1 (broadcastInDim S1600000x1 ![0] bcast_S1600000_S1600000x1_0 ew))
      (Host.gather gather_S100000x128_S1600000x1_S1600000x128_1_0_n_n_0_1_1128 s
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The same over the 40 class scores of the last layer. -/
def agg40 {F : FTy → Type} [FloatOps F] (row col : IVec S1600000 32) (ew : FVec F S1600000 .f32)
    (s : FVec F S100000x40 .f32) : FVec F S100000x40 .f32 :=
  Host.scatterAdd scatter_S100000x40_S1600000x1_S1600000x40_1_0_0_1
    (broadcastInDim S100000x40 ![] bcast_S_S100000x40 (constant S_ .f32 0x00000000#32))
    (broadcastInDim S1600000x1 ![0] bcast_S1600000_S1600000x1_0 row)
    (mulf (broadcastInDim S1600000x40 ![0, 1] bcast_S1600000x1_S1600000x40_0_1 (broadcastInDim S1600000x1 ![0] bcast_S1600000_S1600000x1_0 ew))
      (Host.gather gather_S100000x40_S1600000x1_S1600000x40_1_0_n_n_0_1_140 s
        (broadcastInDim S1600000x1 ![0] bcast_S1600000_S1600000x1_0
          (select (cmpi .slt col (broadcastInDim S1600000 ![] bcast_S_S1600000 (constantI S_ 32 0#32)))
            (addi col (broadcastInDim S1600000 ![] bcast_S_S1600000 (constantI S_ 32 100000#32))) col))))

/-- The network: four layers of dense product, aggregation, bias and activation. -/
def net (row col : IVec S1600000 32) (ew : FVec Ideal S1600000 .f32)
    (x : FVec Ideal S100000x500 .f32)
    (w1 : FVec Ideal S500x128 .f32) (b1 : FVec Ideal S128 .f32)
    (w2 : FVec Ideal S128x128 .f32) (b2 : FVec Ideal S128 .f32)
    (w3 : FVec Ideal S128x128 .f32) (b3 : FVec Ideal S128 .f32)
    (w4 : FVec Ideal S128x40 .f32) (b4 : FVec Ideal S40 .f32) : FVec Ideal S100000x40 .f32 :=
  Cert.Gcn.logSoftmax (M := 100000) (N := 40) (agg40 (F := Ideal) row col ew (Cert.Gcn.mm (M := 100000) (K := 128) (N := 40)
    (Cert.Gcn.biasRelu (M := 100000) (N := 128) (agg128 (F := Ideal) row col ew (Cert.Gcn.mm (M := 100000) (K := 128) (N := 128)
      (Cert.Gcn.biasRelu (M := 100000) (N := 128) (agg128 (F := Ideal) row col ew (Cert.Gcn.mm (M := 100000) (K := 128) (N := 128)
        (Cert.Gcn.biasRelu (M := 100000) (N := 128) (agg128 (F := Ideal) row col ew (Cert.Gcn.mm (M := 100000) (K := 500) (N := 128) x w1)) b1)
        w2)) b2)
      w3)) b3)
    w4)) b4

/-! ## The operations over plain references -/

/-- The printed list is this one: a plain entry is the same on both sides, and a typed entry is its plain spelling
    because the carried type is the buffer's own. -/
theorem ops_eq : (Cert.ReferenceIdeal.ValueP.ops : List (HloOp τ sig (Elt Ideal))) = opsPlain (F := Ideal) := by
  unfold Cert.ReferenceIdeal.ValueP.ops opsPlain
  ops_entries

/-! ## The fold read at the result and at the arguments -/

theorem agg128_fold (row col : IVec S1600000 32) (ew : FVec Ideal S1600000 .f32) (s : FVec Ideal S100000x128 .f32) :
    Host.scatterAdd (F := Ideal) scatter_S100000x128_S1600000x1_S1600000x128_1_0_0_1
      (broadcastInDim S100000x128 ![] bcast_S_S100000x128 (constant S_ .f32 0x00000000#32))
      (broadcastInDim S1600000x1 ![0] bcast_S1600000_S1600000x1_0 row)
      (mulf (broadcastInDim S1600000x128 ![0, 1] bcast_S1600000x1_S1600000x128_0_1 (broadcastInDim S1600000x1 ![0] bcast_S1600000_S1600000x1_0 ew))
        (Host.gather gather_S100000x128_S1600000x1_S1600000x128_1_0_n_n_0_1_1128 s
          (broadcastInDim S1600000x1 ![0] bcast_S1600000_S1600000x1_0
            (select (cmpi .slt col (broadcastInDim S1600000 ![] bcast_S_S1600000 (constantI S_ 32 0#32)))
              (addi col (broadcastInDim S1600000 ![] bcast_S_S1600000 (constantI S_ 32 100000#32))) col))))
      = agg128 (F := Ideal) row col ew s := rfl

theorem agg40_fold (row col : IVec S1600000 32) (ew : FVec Ideal S1600000 .f32) (s : FVec Ideal S100000x40 .f32) :
    Host.scatterAdd (F := Ideal) scatter_S100000x40_S1600000x1_S1600000x40_1_0_0_1
      (broadcastInDim S100000x40 ![] bcast_S_S100000x40 (constant S_ .f32 0x00000000#32))
      (broadcastInDim S1600000x1 ![0] bcast_S1600000_S1600000x1_0 row)
      (mulf (broadcastInDim S1600000x40 ![0, 1] bcast_S1600000x1_S1600000x40_0_1 (broadcastInDim S1600000x1 ![0] bcast_S1600000_S1600000x1_0 ew))
        (Host.gather gather_S100000x40_S1600000x1_S1600000x40_1_0_n_n_0_1_140 s
          (broadcastInDim S1600000x1 ![0] bcast_S1600000_S1600000x1_0
            (select (cmpi .slt col (broadcastInDim S1600000 ![] bcast_S_S1600000 (constantI S_ 32 0#32)))
              (addi col (broadcastInDim S1600000 ![] bcast_S_S1600000 (constantI S_ 32 100000#32))) col))))
      = agg40 (F := Ideal) row col ew s := rfl

section Fold
variable (W : Valuation τ sig (Elt Ideal))

set_option maxHeartbeats 40000000 in
/-- From any contents, the result buffer after the 104 operations is the network's function of the argument buffers. -/
theorem result_after : after (opsPlain (F := Ideal)) W (Proc.devRef .tc main_v71)
    = net (W (Proc.devRef .tc main_arg1)) (W (Proc.devRef .tc main_arg2)) (W (Proc.devRef .tc main_arg3)) (W (Proc.devRef .tc main_arg0)) (W (Proc.devRef .tc main_arg4)) (W (Proc.devRef .tc main_arg5)) (W (Proc.devRef .tc main_arg6)) (W (Proc.devRef .tc main_arg7)) (W (Proc.devRef .tc main_arg8)) (W (Proc.devRef .tc main_arg9)) (W (Proc.devRef .tc main_arg10)) (W (Proc.devRef .tc main_arg11)) := by
  unfold opsPlain
  simp (disch := decide) only [after_cons, after_nil,
    nullary_result', unary_result', binary_result', ternary_result',
    nullary_result_ne', unary_result_ne', binary_result_ne', ternary_result_ne',
    dot1, dot2, dot3]
  erw [agg128_fold, bias128, relu128, agg128_fold, bias128, relu128, agg128_fold, bias128, relu128, agg40_fold, bias40, lsm40]
  rfl

set_option maxHeartbeats 4000000 in
theorem keep_arg0 : after (opsPlain (F := Ideal)) W (Proc.devRef .tc main_arg0) = W (Proc.devRef .tc main_arg0) := by
  unfold opsPlain
  after_results_simp
set_option maxHeartbeats 4000000 in
theorem keep_arg1 : after (opsPlain (F := Ideal)) W (Proc.devRef .tc main_arg1) = W (Proc.devRef .tc main_arg1) := by
  unfold opsPlain
  after_results_simp
set_option maxHeartbeats 4000000 in
theorem keep_arg2 : after (opsPlain (F := Ideal)) W (Proc.devRef .tc main_arg2) = W (Proc.devRef .tc main_arg2) := by
  unfold opsPlain
  after_results_simp
set_option maxHeartbeats 4000000 in
theorem keep_arg3 : after (opsPlain (F := Ideal)) W (Proc.devRef .tc main_arg3) = W (Proc.devRef .tc main_arg3) := by
  unfold opsPlain
  after_results_simp
set_option maxHeartbeats 4000000 in
theorem keep_arg4 : after (opsPlain (F := Ideal)) W (Proc.devRef .tc main_arg4) = W (Proc.devRef .tc main_arg4) := by
  unfold opsPlain
  after_results_simp
set_option maxHeartbeats 4000000 in
theorem keep_arg5 : after (opsPlain (F := Ideal)) W (Proc.devRef .tc main_arg5) = W (Proc.devRef .tc main_arg5) := by
  unfold opsPlain
  after_results_simp
set_option maxHeartbeats 4000000 in
theorem keep_arg6 : after (opsPlain (F := Ideal)) W (Proc.devRef .tc main_arg6) = W (Proc.devRef .tc main_arg6) := by
  unfold opsPlain
  after_results_simp
set_option maxHeartbeats 4000000 in
theorem keep_arg7 : after (opsPlain (F := Ideal)) W (Proc.devRef .tc main_arg7) = W (Proc.devRef .tc main_arg7) := by
  unfold opsPlain
  after_results_simp
set_option maxHeartbeats 4000000 in
theorem keep_arg8 : after (opsPlain (F := Ideal)) W (Proc.devRef .tc main_arg8) = W (Proc.devRef .tc main_arg8) := by
  unfold opsPlain
  after_results_simp
set_option maxHeartbeats 4000000 in
theorem keep_arg9 : after (opsPlain (F := Ideal)) W (Proc.devRef .tc main_arg9) = W (Proc.devRef .tc main_arg9) := by
  unfold opsPlain
  after_results_simp
set_option maxHeartbeats 4000000 in
theorem keep_arg10 : after (opsPlain (F := Ideal)) W (Proc.devRef .tc main_arg10) = W (Proc.devRef .tc main_arg10) := by
  unfold opsPlain
  after_results_simp
set_option maxHeartbeats 4000000 in
theorem keep_arg11 : after (opsPlain (F := Ideal)) W (Proc.devRef .tc main_arg11) = W (Proc.devRef .tc main_arg11) := by
  unfold opsPlain
  after_results_simp

end Fold

/-- The idealized reference's run: it terminates, returns the network's function of the launch arrays, and leaves the
    arguments as launched. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v71)
        = net (m ((c.tc : Thread nD τ).loc main_arg1)) (m ((c.tc : Thread nD τ).loc main_arg2)) (m ((c.tc : Thread nD τ).loc main_arg3)) (m ((c.tc : Thread nD τ).loc main_arg0)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c main_v71).trans (show after Cert.ReferenceIdeal.ValueP.ops (launchContents m c) (Proc.devRef .tc main_v71) = _ from by
        rw [ops_eq]; exact result_after (launchContents m c)),
     (h c main_arg0).trans (show after Cert.ReferenceIdeal.ValueP.ops (launchContents m c) (Proc.devRef .tc main_arg0) = _ from by
        rw [ops_eq]; exact keep_arg0 (launchContents m c)),
     (h c main_arg1).trans (show after Cert.ReferenceIdeal.ValueP.ops (launchContents m c) (Proc.devRef .tc main_arg1) = _ from by
        rw [ops_eq]; exact keep_arg1 (launchContents m c)),
     (h c main_arg2).trans (show after Cert.ReferenceIdeal.ValueP.ops (launchContents m c) (Proc.devRef .tc main_arg2) = _ from by
        rw [ops_eq]; exact keep_arg2 (launchContents m c)),
     (h c main_arg3).trans (show after Cert.ReferenceIdeal.ValueP.ops (launchContents m c) (Proc.devRef .tc main_arg3) = _ from by
        rw [ops_eq]; exact keep_arg3 (launchContents m c)),
     (h c main_arg4).trans (show after Cert.ReferenceIdeal.ValueP.ops (launchContents m c) (Proc.devRef .tc main_arg4) = _ from by
        rw [ops_eq]; exact keep_arg4 (launchContents m c)),
     (h c main_arg5).trans (show after Cert.ReferenceIdeal.ValueP.ops (launchContents m c) (Proc.devRef .tc main_arg5) = _ from by
        rw [ops_eq]; exact keep_arg5 (launchContents m c)),
     (h c main_arg6).trans (show after Cert.ReferenceIdeal.ValueP.ops (launchContents m c) (Proc.devRef .tc main_arg6) = _ from by
        rw [ops_eq]; exact keep_arg6 (launchContents m c)),
     (h c main_arg7).trans (show after Cert.ReferenceIdeal.ValueP.ops (launchContents m c) (Proc.devRef .tc main_arg7) = _ from by
        rw [ops_eq]; exact keep_arg7 (launchContents m c)),
     (h c main_arg8).trans (show after Cert.ReferenceIdeal.ValueP.ops (launchContents m c) (Proc.devRef .tc main_arg8) = _ from by
        rw [ops_eq]; exact keep_arg8 (launchContents m c)),
     (h c main_arg9).trans (show after Cert.ReferenceIdeal.ValueP.ops (launchContents m c) (Proc.devRef .tc main_arg9) = _ from by
        rw [ops_eq]; exact keep_arg9 (launchContents m c)),
     (h c main_arg10).trans (show after Cert.ReferenceIdeal.ValueP.ops (launchContents m c) (Proc.devRef .tc main_arg10) = _ from by
        rw [ops_eq]; exact keep_arg10 (launchContents m c)),
     (h c main_arg11).trans (show after Cert.ReferenceIdeal.ValueP.ops (launchContents m c) (Proc.devRef .tc main_arg11) = _ from by
        rw [ops_eq]; exact keep_arg11 (launchContents m c))⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.RefValue

end
-- ==== Proof.lean ====
/-
  A four-layer graph convolution network — dense product, aggregation over weighted edges, bias, activation — as a
  kernel program of eight row-tiled regions among host gather / scatter stretches, against one straight line of host
  operations. On the extended reals the two are the same function of the twelve argument arrays:

  * a row-tiled product region leaves, block by block, the dense product of the arrays it finds, and so does the
    reference's `dot_general`: both are `Σ_k A(i, k) · B(k, j)`, whatever the order of the additions;
  * a row-tiled bias region leaves `max(a(i, j) + b(j), 0)`, as the reference's broadcast, add and `max` do;
  * the last region leaves the row-wise log-softmax of the biased scores, every entry depending on its own row only,
    as the reference's `log_softmax` does (its one extra `max` with `-∞` changes nothing);
  * between them both programs apply the very same gather, scale and scatter-add, which is never opened.

  No law used needs the entries to be finite, so the precondition is not opened. The frames of the two kernel programs
  are the generated frame proofs; the reference's is its run with the result dropped; the idealization rewrote no
  operation, so there is nothing to preserve.
-/
import proofs.«120548_j53695681135102_1_alg».proof.Defs
import proofs.«120548_j53695681135102_1_alg».proof.Proof.Gen.Kernel
import proofs.«120548_j53695681135102_1_alg».proof.Proof.Gen.Kernel.Frame
import proofs.«120548_j53695681135102_1_alg».proof.Proof.Gen.KernelIdeal
import proofs.«120548_j53695681135102_1_alg».proof.Proof.Gen.KernelIdeal.Frame
import proofs.«120548_j53695681135102_1_alg».proof.Proof.Gen.ReferenceIdeal
import proofs.«120548_j53695681135102_1_alg».proof.Proof.Gen.Pre_finite_inputs
import proofs.«120548_j53695681135102_1_alg».proof.Proof.KernelValue
import proofs.«120548_j53695681135102_1_alg».proof.Proof.RefValue
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run, its result dropped. -/
theorem frame_ri : Cert.frame_ReferenceIdeal := fun m ρ _ =>
  (θ_run Cert.ReferenceIdeal.defs _ _).mono (fun _ h c => (h c).2) (Cert.ReferenceIdeal.RefValue.run m ρ)

/-- The idealization rewrote no operation. -/
theorem preserves : Cert.preserves_Kernel_KernelIdeal := trivial

/-- The network as the kernel's host stretches spell its aggregation and as the reference's do: the same operations
    with the same dimension numbers, under two programs' names. -/
theorem net_eq : @Cert.ReferenceIdeal.RefValue.net = @Cert.KernelIdeal.Net.net := rfl

/-- Both programs, from memories agreeing on the arguments, return the network's function of those arguments. -/
theorem algebraic : Cert.algebraic_KernelIdeal_ReferenceIdeal := by
  intro m ρ m' ρ' _ hagree
  refine ⟨_, Cert.KernelIdeal.Net.run m ρ, ?_⟩
  refine (θ_run Cert.ReferenceIdeal.defs _ _).mono (fun _ h c => ⟨(h c).1.trans ?_, (h c).2⟩)
    (Cert.ReferenceIdeal.RefValue.run m' ρ')
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2, net_eq]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
